-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S256x512 : Shape := ⟨2, ![256, 512]⟩
abbrev S256 : Shape := ⟨1, ![256]⟩
abbrev S100000x16 : Shape := ⟨2, ![100000, 16]⟩
abbrev S1024x272 : Shape := ⟨2, ![1024, 272]⟩
abbrev S1024 : Shape := ⟨1, ![1024]⟩
abbrev S256x1024 : Shape := ⟨2, ![256, 1024]⟩
abbrev S16x256 : Shape := ⟨2, ![16, 256]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S100000x16 : S_.BroadcastsInDim S100000x16 (![] : Fin 0 → Fin S100000x16.rank)
  reducesTo_S100000x16_S_d0_1 : S100000x16.ReducesTo [0, 1] S_
  bcast_S_S1024x272 : S_.BroadcastsInDim S1024x272 (![] : Fin 0 → Fin S1024x272.rank)
  reducesTo_S1024x272_S_d0_1 : S1024x272.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S256 .f32) (main_arg9 : FVec F S16x256 .f32) (main_arg10 : FVec F S16 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S16x256 .f32 := Host.absf main_arg9
  let main_cst_14 : FVec F S_ .f32 := constant S_ .f32 0x7F800000#32
  let main_v40 : FVec F S16x256 .f32 := broadcastInDim S16x256 ![] bcast_S_S16x256 main_cst_14
  let main_v41 : IVec S16x256 1 := cmpf .olt main_v39 main_v40
  let main_c_15 : IVec S_ 1 := constantI S_ 1 1#1
  let main_v42 : IVec S_ 1 := (fun x v => Host.reduce IntOp.andi x v reducesTo_S16x256_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S1024x272 .f32) (main_arg6 : FVec F S1024 .f32) (main_arg7 : FVec F S256x1024 .f32) (main_arg8 : FVec F S256 .f32) (main_arg9 : FVec F S16x256 .f32) (main_arg10 : FVec F S16 .f32) (main_v13 : IVec S_ 1) (main_v16 : IVec S100000x16 1) : IVec S_ 1 :=
  let main_c_5 : IVec S_ 1 := constantI S_ 1 1#1
  let main_v17 : IVec S_ 1 := (fun x v => Host.reduce IntOp.andi x v reducesTo_S100000x16_S_d0_1 h_S_) main_v16 main_c_5
  let main_v18 : IVec S_ 1 := andi main_v13 main_v17
  let main_v19 : FVec F S1024x272 .f32 := Host.absf main_arg5
  let main_cst_6 : FVec F S_ .f32 := constant S_ .f32 0x7F800000#32
  let main_v20 : FVec F S1024x272 .f32 := broadcastInDim S1024x272 ![] bcast_S_S1024x272 main_cst_6
  let main_v21 : IVec S1024x272 1 := cmpf .olt main_v19 main_v20
  let main_c_7 : IVec S_ 1 := constantI S_ 1 1#1
  let main_v22 : IVec S_ 1 := (fun x v => Host.reduce IntOp.andi x v reducesTo_S1024x272_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S256x1024 .f32 := Host.absf main_arg7
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x512 .f32) (main_arg1 : IVec S2x3200000 32) (main_arg2 : FVec F S256x512 .f32) (main_arg3 : FVec F S256 .f32) (main_arg4 : FVec F S100000x16 .f32) (main_arg5 : FVec F S1024x272 .f32) (main_arg6 : FVec F S1024 .f32) (main_arg7 : FVec F S256x1024 .f32) (main_arg8 : FVec F S256 .f32) (main_arg9 : FVec F S16x256 .f32) (main_arg10 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S100000x16 .f32 := Host.absf main_arg4
  let main_cst_4 : FVec F S_ .f32 := constant S_ .f32 0x7F800000#32
  let main_v15 : FVec F S100000x16 .f32 := broadcastInDim S100000x16 ![] bcast_S_S100000x16 main_cst_4
  let main_v16 : IVec S100000x16 1 := cmpf .olt main_v14 main_v15
  fn_part1 (F := F) main_arg5 main_arg6 main_arg7 main_arg8 main_arg9 main_arg10 main_v13 main_v16
-- ==== Kernel.lean ====
abbrev S100000x512 : Shape := ⟨2, ![100000, 512]⟩
abbrev S2x3200000 : Shape := ⟨2, ![2, 3200000]⟩
abbrev S256x512 : Shape := ⟨2, ![256, 512]⟩
abbrev S256 : Shape := ⟨1, ![256]⟩
abbrev S100000x16 : Shape := ⟨2, ![100000, 16]⟩
abbrev S1024x272 : Shape := ⟨2, ![1024, 272]⟩
abbrev S1024 : Shape := ⟨1, ![1024]⟩
abbrev S256x1024 : Shape := ⟨2, ![256, 1024]⟩
abbrev S16x256 : Shape := ⟨2, ![16, 256]⟩
abbrev S16 : Shape := ⟨1, ![16]⟩
abbrev S_ : Shape := ⟨0, ![]⟩
abbrev S100000 : Shape := ⟨1, ![100000]⟩
abbrev S100000x1 : Shape := ⟨2, ![100000, 1]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S3300000x16 : Shape := ⟨2, ![3300000, 16]⟩
abbrev S512x256 : Shape := ⟨2, ![512, 256]⟩
abbrev S1024x256 : Shape := ⟨2, ![1024, 256]⟩
abbrev S1024x16 : Shape := ⟨2, ![1024, 16]⟩
abbrev S16x1024 : Shape := ⟨2, ![16, 1024]⟩
abbrev S256x16 : Shape := ⟨2, ![256, 16]⟩
abbrev S1x256 : Shape := ⟨2, ![1, 256]⟩
abbrev S1x1024 : Shape := ⟨2, ![1, 1024]⟩
abbrev S1x16 : Shape := ⟨2, ![1, 16]⟩
abbrev S2000x512 : Shape := ⟨2, ![2000, 512]⟩
abbrev S2000x16 : Shape := ⟨2, ![2000, 16]⟩
abbrev S2000x256 : Shape := ⟨2, ![2000, 256]⟩
abbrev S2000x1024 : Shape := ⟨2, ![2000, 1024]⟩
abbrev S2000 : Shape := ⟨1, ![2000]⟩
abbrev S2000x1 : Shape := ⟨2, ![2000, 1]⟩

abbrev nBuf : Space → Nat
  | .hbm => 112
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S256x512, .f32⟩
  | .hbm, ⟨3, _⟩ => ⟨S256, .f32⟩
  | .hbm, ⟨4, _⟩ => ⟨S100000x16, .f32⟩
  | .hbm, ⟨5, _⟩ => ⟨S1024x272, .f32⟩
  | .hbm, ⟨6, _⟩ => ⟨S1024, .f32⟩
  | .hbm, ⟨7, _⟩ => ⟨S256x1024, .f32⟩
  | .hbm, ⟨8, _⟩ => ⟨S256, .f32⟩
  | .hbm, ⟨9, _⟩ => ⟨S16x256, .f32⟩
  | .hbm, ⟨10, _⟩ => ⟨S16, .f32⟩
  | .hbm, ⟨11, _⟩ => ⟨S_, .f32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S100000x16, .f32⟩
  | .hbm, ⟨18, _⟩ => ⟨S100000x16, .f32⟩
  | .hbm, ⟨19, _⟩ => ⟨S100000x16, .f32⟩
  | .hbm, ⟨20, _⟩ => ⟨S_, .f32⟩
  | .hbm, ⟨21, _⟩ => ⟨S100000, .f32⟩
  | .hbm, ⟨22, _⟩ => ⟨S100000x1, .f32⟩
  | .hbm, ⟨23, _⟩ => ⟨S100000x16, .f32⟩
  | .hbm, ⟨24, _⟩ => ⟨S100000x16, .f32⟩
  | .hbm, ⟨25, _⟩ => ⟨S100000, .i32⟩
  | .hbm, ⟨26, _⟩ => ⟨S1x3200000, .i32⟩
  | .hbm, ⟨27, _⟩ => ⟨S3200000, .i32⟩
  | .hbm, ⟨28, _⟩ => ⟨S3300000, .i32⟩
  | .hbm, ⟨29, _⟩ => ⟨S1x3200000, .i32⟩
  | .hbm, ⟨30, _⟩ => ⟨S3200000, .i32⟩
  | .hbm, ⟨31, _⟩ => ⟨S3300000, .i32⟩
  | .hbm, ⟨32, _⟩ => ⟨S_, .f32⟩
  | .hbm, ⟨33, _⟩ => ⟨S3300000, .f32⟩
  | .hbm, ⟨34, _⟩ => ⟨S_, .f32⟩
  | .hbm, ⟨35, _⟩ => ⟨S100000, .f32⟩
  | .hbm, ⟨36, _⟩ => ⟨S3300000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .i1⟩
  | .hbm, ⟨41, _⟩ => ⟨S100000, .f32⟩
  | .hbm, ⟨42, _⟩ => ⟨S_, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S_, .i32⟩
  | .hbm, ⟨57, _⟩ => ⟨S3300000, .i32⟩
  | .hbm, ⟨58, _⟩ => ⟨S3300000, .i1⟩
  | .hbm, ⟨59, _⟩ => ⟨S_, .i32⟩
  | .hbm, ⟨60, _⟩ => ⟨S3300000, .i32⟩
  | .hbm, ⟨61, _⟩ => ⟨S3300000, .i32⟩
  | .hbm, ⟨62, _⟩ => ⟨S3300000, .i32⟩
  | .hbm, ⟨63, _⟩ => ⟨S3300000x1, .i32⟩
  | .hbm, ⟨64, _⟩ => ⟨S3300000, .f32⟩
  | .hbm, ⟨65, _⟩ => ⟨S3300000, .f32⟩
  | .hbm, ⟨66, _⟩ => ⟨S_, .f32⟩
  | .hbm, ⟨67, _⟩ => ⟨S100000, .f32⟩
  | .hbm, ⟨68, _⟩ => ⟨S3300000x1, .i32⟩
  | .hbm, ⟨69, _⟩ => ⟨S100000, .f32⟩
  | .hbm, ⟨70, _⟩ => ⟨S3300000x1, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x16, .f32⟩
  | .hbm, ⟨80, _⟩ => ⟨S3300000x16, .f32⟩
  | .hbm, ⟨81, _⟩ => ⟨S3300000x16, .f32⟩
  | .hbm, ⟨82, _⟩ => ⟨S_, .f32⟩
  | .hbm, ⟨83, _⟩ => ⟨S100000x16, .f32⟩
  | .hbm, ⟨84, _⟩ => ⟨S3300000x1, .i32⟩
  | .hbm, ⟨85, _⟩ => ⟨S100000x16, .f32⟩
  | .hbm, ⟨86, _⟩ => ⟨S100000x1, .f32⟩
  | .hbm, ⟨87, _⟩ => ⟨S100000x16, .f32⟩
  | .hbm, ⟨88, _⟩ => ⟨S100000x16, .f32⟩
  | .hbm, ⟨89, _⟩ => ⟨S100000x16, .f32⟩
  | .hbm, ⟨90, _⟩ => ⟨S100000x16, .f32⟩
  | .hbm, ⟨91, _⟩ => ⟨S_, .f32⟩
  | .hbm, ⟨92, _⟩ => ⟨S_, .f32⟩
  | .hbm, ⟨93, _⟩ => ⟨S100000x512, .bf16⟩
  | .hbm, ⟨94, _⟩ => ⟨S100000x16, .bf16⟩
  | .hbm, ⟨95, _⟩ => ⟨S512x256, .f32⟩
  | .hbm, ⟨96, _⟩ => ⟨S512x256, .bf16⟩
  | .hbm, ⟨97, _⟩ => ⟨S1024x256, .f32⟩
  | .hbm, ⟨98, _⟩ => ⟨S256x1024, .f32⟩
  | .hbm, ⟨99, _⟩ => ⟨S256x1024, .bf16⟩
  | .hbm, ⟨100, _⟩ => ⟨S1024x16, .f32⟩
  | .hbm, ⟨101, _⟩ => ⟨S16x1024, .f32⟩
  | .hbm, ⟨102, _⟩ => ⟨S16x1024, .bf16⟩
  | .hbm, ⟨103, _⟩ => ⟨S1024x256, .f32⟩
  | .hbm, ⟨104, _⟩ => ⟨S1024x256, .bf16⟩
  | .hbm, ⟨105, _⟩ => ⟨S256x16, .f32⟩
  | .hbm, ⟨106, _⟩ => ⟨S256x16, .bf16⟩
  | .hbm, ⟨107, _⟩ => ⟨S1x256, .f32⟩
  | .hbm, ⟨108, _⟩ => ⟨S1x1024, .f32⟩
  | .hbm, ⟨109, _⟩ => ⟨S1x256, .f32⟩
  | .hbm, ⟨110, _⟩ => ⟨S1x16, .f32⟩
  | .hbm, ⟨111, _⟩ => ⟨S100000x16, .f32⟩
  | .local _ .vmem, ⟨0, _⟩ => ⟨S2000x512, .bf16⟩
  | .local _ .vmem, ⟨1, _⟩ => ⟨S2000x512, .bf16⟩
  | .local _ .vmem, ⟨2, _⟩ => ⟨S2000x16, .bf16⟩
  | .local _ .vmem, ⟨3, _⟩ => ⟨S2000x16, .bf16⟩
  | .local _ .vmem, ⟨4, _⟩ => ⟨S512x256, .bf16⟩
  | .local _ .vmem, ⟨5, _⟩ => ⟨S1x256, .f32⟩
  | .local _ .vmem, ⟨6, _⟩ => ⟨S256x1024, .bf16⟩
  | .local _ .vmem, ⟨7, _⟩ => ⟨S16x1024, .bf16⟩
  | .local _ .vmem, ⟨8, _⟩ => ⟨S1x1024, .f32⟩
  | .local _ .vmem, ⟨9, _⟩ => ⟨S1024x256, .bf16⟩
  | .local _ .vmem, ⟨10, _⟩ => ⟨S1x256, .f32⟩
  | .local _ .vmem, ⟨11, _⟩ => ⟨S256x16, .bf16⟩
  | .local _ .vmem, ⟨12, _⟩ => ⟨S1x16, .f32⟩
  | .local _ .vmem, ⟨13, _⟩ => ⟨S2000x16, .f32⟩
  | .local _ .vmem, ⟨14, _⟩ => ⟨S2000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_call0_v0 : Ref sig .tc := ⟨.hbm, 43, rfl⟩
abbrev main_call0_v1 : Ref sig .tc := ⟨.hbm, 44, rfl⟩
abbrev main_v25 : Ref sig .tc := ⟨.hbm, 45, rfl⟩
abbrev main_c : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  reducesTo_S100000x16_S_d0_1 : S100000x16.ReducesTo [0, 1] S_
  bitsLt_bf16_f32 : FTy.bits .bf16 < FTy.bits .f32
  transposes_S256x512_S512x256_1_0 : S256x512.Transposes [1, 0] S512x256
  slices_S1024x272_S1024x256_0_0 : S1024x272.Slices ![0, 0] S1024x256
  transposes_S1024x256_S256x1024_1_0 : S1024x256.Transposes [1, 0] S256x1024
  slices_S1024x272_S1024x16_0_256 : S1024x272.Slices ![0, 256] S1024x16
  transposes_S1024x16_S16x1024_1_0 : S1024x16.Transposes [1, 0] S16x1024
  transposes_S256x1024_S1024x256_1_0 : S256x1024.Transposes [1, 0] S1024x256
  transposes_S16x256_S256x16_1_0 : S16x256.Transposes [1, 0] S256x16
  shapeCasts_S256_S1x256 : S256.ShapeCasts S1x256
  shapeCasts_S1024_S1x1024 : S1024.ShapeCasts S1x1024
  shapeCasts_S16_S1x16 : S16.ShapeCasts S1x16
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x512_S512x256_S2000x256_1_0_0_1_n_n_wf : DotDims.WF S2000x512 S512x256 S2000x256 [1] [0] [0] [1] [] []
  dot_S2000x256_S256x1024_S2000x1024_1_0_0_1_n_n_wf : DotDims.WF S2000x256 S256x1024 S2000x1024 [1] [0] [0] [1] [] []
  dot_S2000x16_S16x1024_S2000x1024_1_0_0_1_n_n_wf : DotDims.WF S2000x16 S16x1024 S2000x1024 [1] [0] [0] [1] [] []
  dot_S2000x1024_S1024x256_S2000x256_1_0_0_1_n_n_wf : DotDims.WF S2000x1024 S1024x256 S2000x256 [1] [0] [0] [1] [] []
  dot_S2000x256_S256x16_S2000x16_1_0_0_1_n_n_wf : DotDims.WF S2000x256 S256x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .bf16 = 32 ∨ (Rect.block (s := S100000x512) S2000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S100000x16.size a
  hwx0_1 : ∀ i : grid0.Coords, EltTy.bits .bf16 = 32 ∨ (Rect.block (s := S100000x16) S2000x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1024.size a ≤ S16x1024.size a
  hwx0_5 : ∀ i : grid0.Coords, EltTy.bits .bf16 = 32 ∨ (Rect.block (s := S16x1024) S16x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S1024x256.size a
  hwx0_7 : ∀ i : grid0.Coords, EltTy.bits .bf16 = 32 ∨ (Rect.block (s := S1024x256) S1024x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x16.size a ≤ S256x16.size a
  hwx0_9 : ∀ i : grid0.Coords, EltTy.bits .bf16 = 32 ∨ (Rect.block (s := S256x16) S256x16.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x16.size a ≤ S100000x16.size a
  hwx0_11 : ∀ i : grid0.Coords, EltTy.bits .f32 = 32 ∨ (Rect.block (s := S100000x16) S2000x16.size (cc0_transform_11 i) (hinb0_11 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x1024_S2000x1024_1_0_0_1_n_n : DotDims S2000x256 S256x1024 S2000x1024 where
  lhsContracting := [1]
  rhsContracting := [0]
  lhsNonContracting := [0]
  rhsNonContracting := [1]
  lhsBatch := []
  rhsBatch := []
  wf := dot_S2000x256_S256x1024_S2000x1024_1_0_0_1_n_n_wf
def dot_S2000x16_S16x1024_S2000x1024_1_0_0_1_n_n : DotDims S2000x16 S16x1024 S2000x1024 where
  lhsContracting := [1]
  rhsContracting := [0]
  lhsNonContracting := [0]
  rhsNonContracting := [1]
  lhsBatch := []
  rhsBatch := []
  wf := dot_S2000x16_S16x1024_S2000x1024_1_0_0_1_n_n_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf

abbrev win0_0 : Pipeline.Window sig grid0 :=
  Pipeline.Window.ofSpec (Memref.whole main_v64) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v65) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v67) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v78) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v70) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v73) S16x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v79) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v75) S1024x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v80) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v77) S256x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v81) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v82) S2000x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S256x512 : Shape := ⟨2, ![256, 512]⟩
abbrev S256 : Shape := ⟨1, ![256]⟩
abbrev S100000x16 : Shape := ⟨2, ![100000, 16]⟩
abbrev S1024x272 : Shape := ⟨2, ![1024, 272]⟩
abbrev S1024 : Shape := ⟨1, ![1024]⟩
abbrev S256x1024 : Shape := ⟨2, ![256, 1024]⟩
abbrev S16x256 : Shape := ⟨2, ![16, 256]⟩
abbrev S16 : Shape := ⟨1, ![16]⟩
abbrev S512x256 : Shape := ⟨2, ![512, 256]⟩
abbrev S100000x256 : Shape := ⟨2, ![100000, 256]⟩
abbrev S1x256 : Shape := ⟨2, ![1, 256]⟩
abbrev S_ : Shape := ⟨0, ![]⟩
abbrev S100000 : Shape := ⟨1, ![100000]⟩
abbrev S100000x1 : Shape := ⟨2, ![100000, 1]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S3300000x16 : Shape := ⟨2, ![3300000, 16]⟩
abbrev S100000x272 : Shape := ⟨2, ![100000, 272]⟩
abbrev S272x1024 : Shape := ⟨2, ![272, 1024]⟩
abbrev S100000x1024 : Shape := ⟨2, ![100000, 1024]⟩
abbrev S1x1024 : Shape := ⟨2, ![1, 1024]⟩
abbrev S1024x256 : Shape := ⟨2, ![1024, 256]⟩
abbrev S256x16 : Shape := ⟨2, ![256, 16]⟩
abbrev S1x16 : Shape := ⟨2, ![1, 16]⟩

abbrev nBuf : Space → Nat
  | .hbm => 137
  | .vmem => 0
  | .smem => 0
  | _ => 0

abbrev hbmTy0_0 (i : Nat) : BufTy := match i % 128 with
  | 0 => ⟨S100000x512, .f32⟩
  | 1 => ⟨S2x3200000, .i32⟩
  | 2 => ⟨S256x512, .f32⟩
  | 3 => ⟨S256, .f32⟩
  | 4 => ⟨S100000x16, .f32⟩
  | 5 => ⟨S1024x272, .f32⟩
  | 6 => ⟨S1024, .f32⟩
  | 7 => ⟨S256x1024, .f32⟩
  | 8 => ⟨S256, .f32⟩
  | 9 => ⟨S16x256, .f32⟩
  | 10 => ⟨S16, .f32⟩
  | 11 => ⟨S512x256, .f32⟩
  | 12 => ⟨S100000x256, .f32⟩
  | 13 => ⟨S1x256, .f32⟩
  | 14 => ⟨S100000x256, .f32⟩
  | 15 => ⟨S100000x256, .f32⟩
  | 16 => ⟨S_, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x16, .f32⟩
  | 23 => ⟨S100000x16, .f32⟩
  | 24 => ⟨S100000x16, .f32⟩
  | 25 => ⟨S_, .f32⟩
  | 26 => ⟨S100000, .f32⟩
  | 27 => ⟨S100000x1, .f32⟩
  | 28 => ⟨S100000x16, .f32⟩
  | 29 => ⟨S100000x16, .f32⟩
  | 30 => ⟨S100000, .i32⟩
  | 31 => ⟨S1x3200000, .i32⟩
  | 32 => ⟨S3200000, .i32⟩
  | 33 => ⟨S3300000, .i32⟩
  | 34 => ⟨S1x3200000, .i32⟩
  | 35 => ⟨S3200000, .i32⟩
  | 36 => ⟨S3300000, .i32⟩
  | 37 => ⟨S_, .f32⟩
  | 38 => ⟨S3300000, .f32⟩
  | 39 => ⟨S_, .f32⟩
  | 40 => ⟨S100000, .f32⟩
  | 41 => ⟨S3300000x1, .i32⟩
  | 42 => ⟨S100000, .f32⟩
  | 43 => ⟨S_, .f32⟩
  | 44 => ⟨S100000, .f32⟩
  | 45 => ⟨S100000, .i1⟩
  | 46 => ⟨S100000, .f32⟩
  | 47 => ⟨S_, .f32⟩
  | 48 => ⟨S_, .f32⟩
  | 49 => ⟨S100000, .f32⟩
  | 50 => ⟨S100000, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000, .f32⟩
  | 60 => ⟨S3300000, .f32⟩
  | 61 => ⟨S_, .i32⟩
  | 62 => ⟨S3300000, .i32⟩
  | 63 => ⟨S3300000, .i1⟩
  | 64 => ⟨S_, .i32⟩
  | 65 => ⟨S3300000, .i32⟩
  | 66 => ⟨S3300000, .i32⟩
  | 67 => ⟨S3300000, .i32⟩
  | 68 => ⟨S3300000x1, .i32⟩
  | 69 => ⟨S3300000, .f32⟩
  | 70 => ⟨S3300000, .f32⟩
  | 71 => ⟨S_, .f32⟩
  | 72 => ⟨S100000, .f32⟩
  | 73 => ⟨S3300000x1, .i32⟩
  | 74 => ⟨S100000, .f32⟩
  | 75 => ⟨S3300000x1, .f32⟩
  | 76 => ⟨S_, .i32⟩
  | 77 => ⟨S3300000, .i32⟩
  | 78 => ⟨S3300000, .i1⟩
  | 79 => ⟨S_, .i32⟩
  | 80 => ⟨S3300000, .i32⟩
  | 81 => ⟨S3300000, .i32⟩
  | 82 => ⟨S3300000, .i32⟩
  | 83 => ⟨S3300000x1, .i32⟩
  | 84 => ⟨S3300000x16, .f32⟩
  | 85 => ⟨S3300000x16, .f32⟩
  | 86 => ⟨S3300000x16, .f32⟩
  | 87 => ⟨S_, .f32⟩
  | 88 => ⟨S100000x16, .f32⟩
  | 89 => ⟨S3300000x1, .i32⟩
  | 90 => ⟨S100000x16, .f32⟩
  | 91 => ⟨S100000x1, .f32⟩
  | 92 => ⟨S100000x16, .f32⟩
  | 93 => ⟨S100000x16, .f32⟩
  | 94 => ⟨S100000x16, .f32⟩
  | 95 => ⟨S100000x16, .f32⟩
  | 96 => ⟨S_, .f32⟩
  | 97 => ⟨S_, .f32⟩
  | 98 => ⟨S100000x272, .f32⟩
  | 99 => ⟨S272x1024, .f32⟩
  | 100 => ⟨S100000x1024, .f32⟩
  | 101 => ⟨S1x1024, .f32⟩
  | 102 => ⟨S100000x1024, .f32⟩
  | 103 => ⟨S100000x1024, .f32⟩
  | 104 => ⟨S_, .f32⟩
  | 105 => ⟨S_, .f32⟩
  | 106 => ⟨S100000x1024, .f32⟩
  | 107 => ⟨S100000x1024, .i1⟩
  | 108 => ⟨S_, .f32⟩
  | 109 => ⟨S100000x1024, .f32⟩
  | 110 => ⟨S100000x1024, .f32⟩
  | 111 => ⟨S100000x1024, .f32⟩
  | 112 => ⟨S1024x256, .f32⟩
  | 113 => ⟨S100000x256, .f32⟩
  | 114 => ⟨S1x256, .f32⟩
  | 115 => ⟨S100000x256, .f32⟩
  | 116 => ⟨S100000x256, .f32⟩
  | 117 => ⟨S256x16, .f32⟩
  | 118 => ⟨S100000x16, .f32⟩
  | 119 => ⟨S1x16, .f32⟩
  | 120 => ⟨S100000x16, .f32⟩
  | 121 => ⟨S100000x16, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x512, .f32⟩

abbrev hbmTy0_1 (i : Nat) : BufTy := match i % 128 with
  | 0 => ⟨S100000x16, .f32⟩
  | 1 => ⟨S100000x16, .f32⟩
  | 2 => ⟨S100000x16, .f32⟩
  | 3 => ⟨S_, .f32⟩
  | 4 => ⟨S100000, .f32⟩
  | 5 => ⟨S100000x1, .f32⟩
  | 6 => ⟨S100000x1, .f32⟩
  | 7 => ⟨S100000x16, .f32⟩
  | 8 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_v30 : Ref sig .tc := ⟨.hbm, 50, rfl⟩
abbrev main_c : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_call2_cst : Ref sig .tc := ⟨.hbm, 122, rfl⟩
abbrev main_call2_v0 : Ref sig .tc := ⟨.hbm, 123, rfl⟩
abbrev main_call2_cst_0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_cst_1 : Ref sig .tc := ⟨.hbm, 131, rfl⟩
abbrev main_call2_v7 : Ref sig .tc := ⟨.hbm, 132, rfl⟩
abbrev main_call2_v8 : Ref sig .tc := ⟨.hbm, 133, rfl⟩
abbrev main_call2_v9 : Ref sig .tc := ⟨.hbm, 134, rfl⟩
abbrev main_call2_v10 : Ref sig .tc := ⟨.hbm, 135, rfl⟩
abbrev main_v86 : Ref sig .tc := ⟨.hbm, 136, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  reducesTo_S100000x16_S_d0_1 : S100000x16.ReducesTo [0, 1] S_
  concatenates_S100000x256_S100000x16_S100000x272_d1 : Shape.Concatenates [S100000x256, S100000x16] S100000x272 1
  transposes_S1024x272_S272x1024_1_0 : S1024x272.Transposes [1, 0] S272x1024
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  bcast_S_S100000x1024 : S_.BroadcastsInDim S100000x1024 (![] : Fin 0 → Fin S100000x1024.rank)
  transposes_S256x1024_S1024x256_1_0 : S256x1024.Transposes [1, 0] S1024x256
  transposes_S16x256_S256x16_1_0 : S16x256.Transposes [1, 0] S256x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x512_S512x256_S100000x256_1_0_0_1_n_n_wf : DotDims.WF S100000x512 S512x256 S100000x256 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x272_S272x1024_S100000x1024_1_0_0_1_n_n_wf : DotDims.WF S100000x272 S272x1024 S100000x1024 [1] [0] [0] [1] [] []
  dot_S100000x1024_S1024x256_S100000x256_1_0_0_1_n_n_wf : DotDims.WF S100000x1024 S1024x256 S100000x256 [1] [0] [0] [1] [] []
  dot_S100000x256_S256x16_S100000x16_1_0_0_1_n_n_wf : DotDims.WF S100000x256 S256x16 S100000x16 [1] [0] [0] [1] [] []

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x272_S272x1024_S100000x1024_1_0_0_1_n_n : DotDims S100000x272 S272x1024 S100000x1024 where
  lhsContracting := [1]
  rhsContracting := [0]
  lhsNonContracting := [0]
  rhsNonContracting := [1]
  lhsBatch := []
  rhsBatch := []
  wf := dot_S100000x272_S272x1024_S100000x1024_1_0_0_1_n_n_wf
def dot_S100000x1024_S1024x256_S100000x256_1_0_0_1_n_n : DotDims S100000x1024 S1024x256 S100000x256 where
  lhsContracting := [1]
  rhsContracting := [0]
  lhsNonContracting := [0]
  rhsNonContracting := [1]
  lhsBatch := []
  rhsBatch := []
  wf := dot_S100000x1024_S1024x256_S100000x256_1_0_0_1_n_n_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf

class Facts : Prop extends Facts₀ where

variable [Facts]
-- ==== Proof.LibStraightLine.lean ====
/-
  A straight line of operations in single-assignment form, read one operation at a time.

  A line of operations rewrites a valuation of the buffers, operation by operation. When every buffer is written by at most
  one operation of the line, and an operation's operands are written before it, the valuation after the WHOLE line already
  satisfies each operation's equation: the buffer the k-th operation writes holds that operation's function of what its
  operand buffers hold — all read after the whole line, because nothing later touches either. So the value of the last
  buffer follows from the operations' equations one by one, sharing every intermediate buffer, and the composed term of the
  whole line is never formed.

  The buffers the operations write are listed once, in order (`WritesAre`); "no operation from position k on writes r" is
  then the absence of r from the list's tail, a question about references alone.
  General: nothing here depends on a particular program.
-/
import Idealize.ShloMosaic.Lib.StableHlo.Run

namespace Cert.LibStraightLine

open Idealize.ShloMosaic Idealize.ShloMosaic.StableHlo

variable {τ : Topo} {sig : RefSig} {Val : EltTy → Type}

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position k on writes holds, after the line, what it held after the first k operations. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- A buffer that no operation past position k writes holds, after the line, what operation k left in it. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append, after_cons, after_nil]

/-- The buffers the operations write are, in order, the references W: each operation writes exactly one. -/
def WritesAre (ops : List (HloOp τ sig Val)) (W : List (Ref sig .tc)) : Prop :=
  ops.map (fun op => op.writes) = W.map fun r => ({(Proc.devRef .tc r : DevRef τ sig)} : Finset (DevRef τ sig))

/-- A reference absent from the list's tail is written by no operation from that position on. -/
theorem not_written {ops : List (HloOp τ sig Val)} {W : List (Ref sig .tc)} (hW : WritesAre ops W) (k : Nat)
    {y : Ref sig .tc} (hy : y ∉ W.drop k) : ∀ op ∈ ops.drop k, (Proc.devRef .tc y : DevRef τ sig) ∉ op.writes := by
  intro op hop hmem
  have h1 : op.writes ∈ (ops.drop k).map (fun op => op.writes) := List.mem_map.mpr ⟨op, hop, rfl⟩
  unfold WritesAre at hW
  rw [List.map_drop, hW, ← List.map_drop] at h1
  obtain ⟨r, hr, he⟩ := List.mem_map.mp h1
  rw [← he, Finset.mem_singleton] at hmem
  exact hy (Proc.devRef_injective _ hmem ▸ hr)

variable {ops : List (HloOp τ sig Val)} {V : Valuation τ sig Val}

/-- Operation k defines its result buffer. -/
theorem nullary_at (k : Nat) (hk : k < ops.length) {y : Ref sig .tc} {v : y.ty.Contents Val} {hy}
    (hop : ops[k] = nullary y v hy)
    (hy' : ∀ op ∈ ops.drop (k + 1), (Proc.devRef .tc y : DevRef τ sig) ∉ op.writes) :
    after ops V (Proc.devRef .tc y) = v := by
  rw [after_eq_result ops V k hk _ hy', hop, nullary_result]

/-- Operation k applies its function to its operand buffer as the whole line leaves it. -/
theorem unary_at (k : Nat) (hk : k < ops.length) {x y : Ref sig .tc} {f : x.ty.Contents Val → y.ty.Contents Val} {hx hy}
    (hop : ops[k] = unary x y f hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = f (after ops V (Proc.devRef .tc x)) := by
  rw [after_eq_result ops V k hk _ hy', hop, unary_result, ← after_eq_take ops V k _ hx']

theorem binary_at (k : Nat) (hk : k < ops.length) {a b y : Ref sig .tc}
    {f : a.ty.Contents Val → b.ty.Contents Val → y.ty.Contents Val} {ha hb hy}
    (hop : ops[k] = binary a b y f ha hb hy)
    (hy' : ∀ op ∈ ops.drop (k + 1), (Proc.devRef .tc y : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y) = f (after ops V (Proc.devRef .tc a)) (after ops V (Proc.devRef .tc b)) := by
  rw [after_eq_result ops V k hk _ hy', hop, binary_result, ← after_eq_take ops V k _ ha', ← after_eq_take ops V k _ hb']

theorem ternary_at (k : Nat) (hk : k < ops.length) {c a b y : Ref sig .tc}
    {f : c.ty.Contents Val → a.ty.Contents Val → b.ty.Contents Val → y.ty.Contents Val} {hc ha hb hy}
    (hop : ops[k] = ternary c a b y f hc ha hb hy)
    (hy' : ∀ op ∈ ops.drop (k + 1), (Proc.devRef .tc y : DevRef τ sig) ∉ op.writes)
    (hc' : ∀ op ∈ ops.drop k, (Proc.devRef .tc c : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y)
      = f (after ops V (Proc.devRef .tc c)) (after ops V (Proc.devRef .tc a)) (after ops V (Proc.devRef .tc b)) := by
  rw [after_eq_result ops V k hk _ hy', hop, ternary_result, ← after_eq_take ops V k _ hc', ← after_eq_take ops V k _ ha',
    ← after_eq_take ops V k _ hb']

theorem reshape_at (k : Nat) (hk : k < ops.length) {x y : Ref sig .tc} {he : x.ty.elt = y.ty.elt}
    {hn : x.ty.shape.ShapeCasts y.ty.shape} {hx hy}
    (hop : ops[k] = reshape x y he hn hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = fun i => he ▸ shapeCast y.ty.shape (after ops V (Proc.devRef .tc x)) hn i := by
  rw [after_eq_result ops V k hk _ hy', hop, reshape_result, ← after_eq_take ops V k _ hx']

/-- A buffer no operation writes holds its launch contents. -/
theorem untouched_at {W : List (Ref sig .tc)} (hW : WritesAre ops W) {r : Ref sig .tc} (hr : r ∉ W) :
    after ops V (Proc.devRef .tc r) = V (Proc.devRef .tc r) :=
  after_of_forall_not_mem ops V (by simpa using not_written hW 0 (by simpa using hr))

end Cert.LibStraightLine
-- ==== Proof.RefRun.lean ====
/- (the select of the degree normalisation, the leaky rectifier with its own select, the log-softmax) written out operation by operation
   at their calls over each call's own buffers. Every weakly fair execution of @main terminates with every buffer at the fold of
   these operations over the launch contents (the library's run of a straight line); the buffers written are listed once, in order. -/
import proofs.«170179_j64828236366589_1_alg».proof.Proof.Gen.ReferenceIdeal
import proofs.«170179_j64828236366589_1_alg».proof.Proof.LibStraightLine
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- @main's 126 operations, in order. -/
abbrev ops : List (HloOp τ sig (Elt F)) :=
  ( StableHlo.unary main_arg2 main_v0 ((transpose S512x256 [1, 0] · transposes_S256x512_S512x256_1_0) : (⟨S256x512, .f32⟩ : BufTy).Contents (Elt F) → (⟨S512x256, .f32⟩ : BufTy).Contents (Elt F))
  :: StableHlo.binary main_arg0 main_v0 main_v1 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F))
  :: StableHlo.unary main_arg3 main_v2 (broadcastInDim S1x256 ![1] bcast_S256_S1x256_1 : (⟨S256, .f32⟩ : BufTy).Contents (Elt F) → (⟨S1x256, .f32⟩ : BufTy).Contents (Elt F))
  :: StableHlo.unary main_v2 main_v3 (broadcastInDim S100000x256 ![0, 1] bcast_S1x256_S100000x256_0_1 : (⟨S1x256, .f32⟩ : BufTy).Contents (Elt F) → (⟨S100000x256, .f32⟩ : BufTy).Contents (Elt F))
  :: StableHlo.binary main_v1 main_v3 main_v4 (addf : (⟨S100000x256, .f32⟩ : BufTy).Contents (Elt F) → (⟨S100000x256, .f32⟩ : BufTy).Contents (Elt F) → (⟨S100000x256, .f32⟩ : BufTy).Contents (Elt F))
  :: StableHlo.nullary main_cst (constant S_ .f32 0xFF800000#32)
  :: StableHlo.binary main_arg4 main_cst main_v5 ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F))
  :: StableHlo.nullary main_cst_0 (constant S_ .f32 0xFF800000#32)
  :: StableHlo.unary main_cst_0 main_v6 (broadcastInDim S100000 ![] bcast_S_S100000 : (⟨S_, .f32⟩ : BufTy).Contents (Elt F) → (⟨S100000, .f32⟩ : BufTy).Contents (Elt F))
  :: StableHlo.binary main_v6 main_v5 main_v7 (maximumf : (⟨S100000, .f32⟩ : BufTy).Contents (Elt F) → (⟨S100000, .f32⟩ : BufTy).Contents (Elt F) → (⟨S100000, .f32⟩ : BufTy).Contents (Elt F))
  :: StableHlo.unary main_v7 main_v8 (broadcastInDim S100000x1 ![0] bcast_S100000_S100000x1_0 : (⟨S100000, .f32⟩ : BufTy).Contents (Elt F) → (⟨S100000x1, .f32⟩ : BufTy).Contents (Elt F))
  :: StableHlo.unary main_v8 main_v9 (broadcastInDim S100000x16 ![0, 1] bcast_S100000x1_S100000x16_0_1 : (⟨S100000x1, .f32⟩ : BufTy).Contents (Elt F) → (⟨S100000x16, .f32⟩ : BufTy).Contents (Elt F))
  :: StableHlo.binary main_arg4 main_v9 main_v10 (subf : (⟨S100000x16, .f32⟩ : BufTy).Contents (Elt F) → (⟨S100000x16, .f32⟩ : BufTy).Contents (Elt F) → (⟨S100000x16, .f32⟩ : BufTy).Contents (Elt F))
  :: StableHlo.unary main_v10 main_v11 (Host.exp : (⟨S100000x16, .f32⟩ : BufTy).Contents (Elt F) → (⟨S100000x16, .f32⟩ : BufTy).Contents (Elt F))
  :: StableHlo.nullary main_cst_1 (constant S_ .f32 0x00000000#32)
  :: StableHlo.binary main_v11 main_cst_1 main_v12 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F))
  :: StableHlo.unary main_v12 main_v13 (broadcastInDim S100000x1 ![0] bcast_S100000_S100000x1_0 : (⟨S100000, .f32⟩ : BufTy).Contents (Elt F) → (⟨S100000x1, .f32⟩ : BufTy).Contents (Elt F))
  :: StableHlo.unary main_v13 main_v14 (broadcastInDim S100000x16 ![0, 1] bcast_S100000x1_S100000x16_0_1 : (⟨S100000x1, .f32⟩ : BufTy).Contents (Elt F) → (⟨S100000x16, .f32⟩ : BufTy).Contents (Elt F))
  :: StableHlo.binary main_v11 main_v14 main_v15 (Host.divf : (⟨S100000x16, .f32⟩ : BufTy).Contents (Elt F) → (⟨S100000x16, .f32⟩ : BufTy).Contents (Elt F) → (⟨S100000x16, .f32⟩ : BufTy).Contents (Elt F))
  :: StableHlo.nullary main_v16 (iotaInDim S100000 32 0)
  :: StableHlo.unary main_arg1 main_v17 ((extractStridedSlice S1x3200000 ![0, 0] · slices_S2x3200000_S1x3200000_0_0) : (⟨S2x3200000, .i32⟩ : BufTy).Contents (Elt F) → (⟨S1x3200000, .i32⟩ : BufTy).Contents (Elt F))
  :: StableHlo.reshape main_v17 main_v18 rfl shapeCasts_S1x3200000_S3200000
  :: StableHlo.binary main_v18 main_v16 main_v19 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F))
  :: StableHlo.unary main_arg1 main_v20 ((extractStridedSlice S1x3200000 ![1, 0] · slices_S2x3200000_S1x3200000_1_0) : (⟨S2x3200000, .i32⟩ : BufTy).Contents (Elt F) → (⟨S1x3200000, .i32⟩ : BufTy).Contents (Elt F))
  :: StableHlo.reshape main_v20 main_v21 rfl shapeCasts_S1x3200000_S3200000
  :: StableHlo.binary main_v21 main_v16 main_v22 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F))
  :: StableHlo.nullary main_cst_2 (constant S_ .f32 0x3F800000#32)
  :: StableHlo.unary main_cst_2 main_v23 (broadcastInDim S3300000 ![] bcast_S_S3300000 : (⟨S_, .f32⟩ : BufTy).Contents (Elt F) → (⟨S3300000, .f32⟩ : BufTy).Contents (Elt F))
  :: StableHlo.nullary main_cst_3 (constant S_ .f32 0x00000000#32)
  :: StableHlo.unary main_cst_3 main_v24 (broadcastInDim S100000 ![] bcast_S_S100000 : (⟨S_, .f32⟩ : BufTy).Contents (Elt F) → (⟨S100000, .f32⟩ : BufTy).Contents (Elt F))
  :: StableHlo.unary main_v22 main_v25 (broadcastInDim S3300000x1 ![0] bcast_S3300000_S3300000x1_0 : (⟨S3300000, .i32⟩ : BufTy).Contents (Elt F) → (⟨S3300000x1, .i32⟩ : BufTy).Contents (Elt F))
  :: StableHlo.ternary main_v24 main_v25 main_v23 main_v26 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F))
  :: StableHlo.nullary main_cst_4 (constant S_ .f32 0x00000000#32)
  :: StableHlo.unary main_cst_4 main_v27 (broadcastInDim S100000 ![] bcast_S_S100000 : (⟨S_, .f32⟩ : BufTy).Contents (Elt F) → (⟨S100000, .f32⟩ : BufTy).Contents (Elt F))
  :: StableHlo.binary main_v26 main_v27 main_v28 (cmpf .ogt : (⟨S100000, .f32⟩ : BufTy).Contents (Elt F) → (⟨S100000, .f32⟩ : BufTy).Contents (Elt F) → (⟨S100000, .i1⟩ : BufTy).Contents (Elt F))
  :: StableHlo.unary main_v26 main_v29 (Host.rsqrt : (⟨S100000, .f32⟩ : BufTy).Contents (Elt F) → (⟨S100000, .f32⟩ : BufTy).Contents (Elt F))
  :: StableHlo.nullary main_cst_5 (constant S_ .f32 0x00000000#32)
  :: StableHlo.TRef.unary (.of main_cst_5 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S100000, .f32⟩) (broadcastInDim S100000 ![] bcast_S_S100000)
  :: StableHlo.TRef.ternary (.of main_v28 : StableHlo.TRef sig ⟨S100000, .i1⟩) (.of main_v29 : StableHlo.TRef sig ⟨S100000, .f32⟩) (.of main_call0_v1 : StableHlo.TRef sig ⟨S100000, .f32⟩) (.of main_v30 : StableHlo.TRef sig ⟨S100000, .f32⟩) select
  :: StableHlo.nullary main_c (constantI S_ 32 0#32)
  :: StableHlo.unary main_c main_v31 (broadcastInDim S3300000 ![] bcast_S_S3300000 : (⟨S_, .i32⟩ : BufTy).Contents (Elt F) → (⟨S3300000, .i32⟩ : BufTy).Contents (Elt F))
  :: StableHlo.binary main_v19 main_v31 main_v32 (cmpi .slt : (⟨S3300000, .i32⟩ : BufTy).Contents (Elt F) → (⟨S3300000, .i32⟩ : BufTy).Contents (Elt F) → (⟨S3300000, .i1⟩ : BufTy).Contents (Elt F))
  :: StableHlo.nullary main_c_6 (constantI S_ 32 100000#32)
  :: StableHlo.unary main_c_6 main_v33 (broadcastInDim S3300000 ![] bcast_S_S3300000 : (⟨S_, .i32⟩ : BufTy).Contents (Elt F) → (⟨S3300000, .i32⟩ : BufTy).Contents (Elt F))
  :: StableHlo.binary main_v19 main_v33 main_v34 (addi : (⟨S3300000, .i32⟩ : BufTy).Contents (Elt F) → (⟨S3300000, .i32⟩ : BufTy).Contents (Elt F) → (⟨S3300000, .i32⟩ : BufTy).Contents (Elt F))
  :: StableHlo.ternary main_v32 main_v34 main_v19 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F))
  :: StableHlo.unary main_v35 main_v36 (broadcastInDim S3300000x1 ![0] bcast_S3300000_S3300000x1_0 : (⟨S3300000, .i32⟩ : BufTy).Contents (Elt F) → (⟨S3300000x1, .i32⟩ : BufTy).Contents (Elt F))
  :: StableHlo.binary main_v30 main_v36 main_v37 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F))
  :: StableHlo.binary main_v37 main_v23 main_v38 (mulf : (⟨S3300000, .f32⟩ : BufTy).Contents (Elt F) → (⟨S3300000, .f32⟩ : BufTy).Contents (Elt F) → (⟨S3300000, .f32⟩ : BufTy).Contents (Elt F))
  :: StableHlo.nullary main_c_7 (constantI S_ 32 0#32)
  :: StableHlo.unary main_c_7 main_v39 (broadcastInDim S3300000 ![] bcast_S_S3300000 : (⟨S_, .i32⟩ : BufTy).Contents (Elt F) → (⟨S3300000, .i32⟩ : BufTy).Contents (Elt F))
  :: StableHlo.binary main_v22 main_v39 main_v40 (cmpi .slt : (⟨S3300000, .i32⟩ : BufTy).Contents (Elt F) → (⟨S3300000, .i32⟩ : BufTy).Contents (Elt F) → (⟨S3300000, .i1⟩ : BufTy).Contents (Elt F))
  :: StableHlo.nullary main_c_8 (constantI S_ 32 100000#32)
  :: StableHlo.unary main_c_8 main_v41 (broadcastInDim S3300000 ![] bcast_S_S3300000 : (⟨S_, .i32⟩ : BufTy).Contents (Elt F) → (⟨S3300000, .i32⟩ : BufTy).Contents (Elt F))
  :: StableHlo.binary main_v22 main_v41 main_v42 (addi : (⟨S3300000, .i32⟩ : BufTy).Contents (Elt F) → (⟨S3300000, .i32⟩ : BufTy).Contents (Elt F) → (⟨S3300000, .i32⟩ : BufTy).Contents (Elt F))
  :: StableHlo.ternary main_v40 main_v42 main_v22 main_v43 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F))
  :: StableHlo.unary main_v43 main_v44 (broadcastInDim S3300000x1 ![0] bcast_S3300000_S3300000x1_0 : (⟨S3300000, .i32⟩ : BufTy).Contents (Elt F) → (⟨S3300000x1, .i32⟩ : BufTy).Contents (Elt F))
  :: StableHlo.binary main_v30 main_v44 main_v45 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F))
  :: StableHlo.binary main_v38 main_v45 main_v46 (mulf : (⟨S3300000, .f32⟩ : BufTy).Contents (Elt F) → (⟨S3300000, .f32⟩ : BufTy).Contents (Elt F) → (⟨S3300000, .f32⟩ : BufTy).Contents (Elt F))
  :: StableHlo.nullary main_cst_9 (constant S_ .f32 0x00000000#32)
  :: StableHlo.unary main_cst_9 main_v47 (broadcastInDim S100000 ![] bcast_S_S100000 : (⟨S_, .f32⟩ : BufTy).Contents (Elt F) → (⟨S100000, .f32⟩ : BufTy).Contents (Elt F))
  :: StableHlo.unary main_v19 main_v48 (broadcastInDim S3300000x1 ![0] bcast_S3300000_S3300000x1_0 : (⟨S3300000, .i32⟩ : BufTy).Contents (Elt F) → (⟨S3300000x1, .i32⟩ : BufTy).Contents (Elt F))
  :: StableHlo.ternary main_v47 main_v48 main_v46 main_v49 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F))
  :: StableHlo.unary main_v46 main_v50 (broadcastInDim S3300000x1 ![0] bcast_S3300000_S3300000x1_0 : (⟨S3300000, .f32⟩ : BufTy).Contents (Elt F) → (⟨S3300000x1, .f32⟩ : BufTy).Contents (Elt F))
  :: StableHlo.nullary main_c_10 (constantI S_ 32 0#32)
  :: StableHlo.unary main_c_10 main_v51 (broadcastInDim S3300000 ![] bcast_S_S3300000 : (⟨S_, .i32⟩ : BufTy).Contents (Elt F) → (⟨S3300000, .i32⟩ : BufTy).Contents (Elt F))
  :: StableHlo.binary main_v22 main_v51 main_v52 (cmpi .slt : (⟨S3300000, .i32⟩ : BufTy).Contents (Elt F) → (⟨S3300000, .i32⟩ : BufTy).Contents (Elt F) → (⟨S3300000, .i1⟩ : BufTy).Contents (Elt F))
  :: StableHlo.nullary main_c_11 (constantI S_ 32 100000#32)
  :: StableHlo.unary main_c_11 main_v53 (broadcastInDim S3300000 ![] bcast_S_S3300000 : (⟨S_, .i32⟩ : BufTy).Contents (Elt F) → (⟨S3300000, .i32⟩ : BufTy).Contents (Elt F))
  :: StableHlo.binary main_v22 main_v53 main_v54 (addi : (⟨S3300000, .i32⟩ : BufTy).Contents (Elt F) → (⟨S3300000, .i32⟩ : BufTy).Contents (Elt F) → (⟨S3300000, .i32⟩ : BufTy).Contents (Elt F))
  :: StableHlo.ternary main_v52 main_v54 main_v22 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F))
  :: StableHlo.unary main_v55 main_v56 (broadcastInDim S3300000x1 ![0] bcast_S3300000_S3300000x1_0 : (⟨S3300000, .i32⟩ : BufTy).Contents (Elt F) → (⟨S3300000x1, .i32⟩ : BufTy).Contents (Elt F))
  :: StableHlo.binary main_v15 main_v56 main_v57 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F))
  :: StableHlo.unary main_v50 main_v58 (broadcastInDim S3300000x16 ![0, 1] bcast_S3300000x1_S3300000x16_0_1 : (⟨S3300000x1, .f32⟩ : BufTy).Contents (Elt F) → (⟨S3300000x16, .f32⟩ : BufTy).Contents (Elt F))
  :: StableHlo.binary main_v58 main_v57 main_v59 (mulf : (⟨S3300000x16, .f32⟩ : BufTy).Contents (Elt F) → (⟨S3300000x16, .f32⟩ : BufTy).Contents (Elt F) → (⟨S3300000x16, .f32⟩ : BufTy).Contents (Elt F))
  :: StableHlo.nullary main_cst_12 (constant S_ .f32 0x00000000#32)
  :: StableHlo.unary main_cst_12 main_v60 (broadcastInDim S100000x16 ![] bcast_S_S100000x16 : (⟨S_, .f32⟩ : BufTy).Contents (Elt F) → (⟨S100000x16, .f32⟩ : BufTy).Contents (Elt F))
  :: StableHlo.unary main_v19 main_v61 (broadcastInDim S3300000x1 ![0] bcast_S3300000_S3300000x1_0 : (⟨S3300000, .i32⟩ : BufTy).Contents (Elt F) → (⟨S3300000x1, .i32⟩ : BufTy).Contents (Elt F))
  :: StableHlo.ternary main_v60 main_v61 main_v59 main_v62 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F))
  :: StableHlo.unary main_v49 main_v63 (broadcastInDim S100000x1 ![0] bcast_S100000_S100000x1_0 : (⟨S100000, .f32⟩ : BufTy).Contents (Elt F) → (⟨S100000x1, .f32⟩ : BufTy).Contents (Elt F))
  :: StableHlo.unary main_v63 main_v64 (broadcastInDim S100000x16 ![0, 1] bcast_S100000x1_S100000x16_0_1 : (⟨S100000x1, .f32⟩ : BufTy).Contents (Elt F) → (⟨S100000x16, .f32⟩ : BufTy).Contents (Elt F))
  :: StableHlo.binary main_v64 main_v15 main_v65 (mulf : (⟨S100000x16, .f32⟩ : BufTy).Contents (Elt F) → (⟨S100000x16, .f32⟩ : BufTy).Contents (Elt F) → (⟨S100000x16, .f32⟩ : BufTy).Contents (Elt F))
  :: StableHlo.binary main_v65 main_v62 main_v66 (subf : (⟨S100000x16, .f32⟩ : BufTy).Contents (Elt F) → (⟨S100000x16, .f32⟩ : BufTy).Contents (Elt F) → (⟨S100000x16, .f32⟩ : BufTy).Contents (Elt F))
  :: StableHlo.binary main_v15 main_v66 main_v67 (mulf : (⟨S100000x16, .f32⟩ : BufTy).Contents (Elt F) → (⟨S100000x16, .f32⟩ : BufTy).Contents (Elt F) → (⟨S100000x16, .f32⟩ : BufTy).Contents (Elt F))
  :: StableHlo.nullary main_cst_13 (constant S_ .f32 0x00000000#32)
  :: StableHlo.binary main_v67 main_cst_13 main_v68 ((fun x v => Host.reduceAdd x v reducesTo_S100000x16_S_d0_1 h_S_) : (⟨S100000x16, .f32⟩ : BufTy).Contents (Elt F) → (⟨S_, .f32⟩ : BufTy).Contents (Elt F) → (⟨S_, .f32⟩ : BufTy).Contents (Elt F))
  :: StableHlo.binary main_v4 main_v15 main_v69 ((fun a b => concatenate S100000x272 1 [⟨S100000x256, a⟩, ⟨S100000x16, b⟩] concatenates_S100000x256_S100000x16_S100000x272_d1) : (⟨S100000x256, .f32⟩ : BufTy).Contents (Elt F) → (⟨S100000x16, .f32⟩ : BufTy).Contents (Elt F) → (⟨S100000x272, .f32⟩ : BufTy).Contents (Elt F))
  :: StableHlo.unary main_arg5 main_v70 ((transpose S272x1024 [1, 0] · transposes_S1024x272_S272x1024_1_0) : (⟨S1024x272, .f32⟩ : BufTy).Contents (Elt F) → (⟨S272x1024, .f32⟩ : BufTy).Contents (Elt F))
  :: StableHlo.binary main_v69 main_v70 main_v71 ((fun l r => Host.dotGeneral dot_S100000x272_S272x1024_S100000x1024_1_0_0_1_n_n none l r) : (⟨S100000x272, .f32⟩ : BufTy).Contents (Elt F) → (⟨S272x1024, .f32⟩ : BufTy).Contents (Elt F) → (⟨S100000x1024, .f32⟩ : BufTy).Contents (Elt F))
  :: StableHlo.unary main_arg6 main_v72 (broadcastInDim S1x1024 ![1] bcast_S1024_S1x1024_1 : (⟨S1024, .f32⟩ : BufTy).Contents (Elt F) → (⟨S1x1024, .f32⟩ : BufTy).Contents (Elt F))
  :: StableHlo.unary main_v72 main_v73 (broadcastInDim S100000x1024 ![0, 1] bcast_S1x1024_S100000x1024_0_1 : (⟨S1x1024, .f32⟩ : BufTy).Contents (Elt F) → (⟨S100000x1024, .f32⟩ : BufTy).Contents (Elt F))
  :: StableHlo.binary main_v71 main_v73 main_v74 (addf : (⟨S100000x1024, .f32⟩ : BufTy).Contents (Elt F) → (⟨S100000x1024, .f32⟩ : BufTy).Contents (Elt F) → (⟨S100000x1024, .f32⟩ : BufTy).Contents (Elt F))
  :: StableHlo.nullary main_cst_14 (constant S_ .f32 0x44800000#32)
  :: StableHlo.TRef.nullary (.of main_call1_cst : StableHlo.TRef sig ⟨S_, .f32⟩) (constant S_ .f32 0x00000000#32)
  :: StableHlo.TRef.unary (.of main_call1_cst : StableHlo.TRef sig ⟨S_, .f32⟩) (.of main_call1_v0 : StableHlo.TRef sig ⟨S100000x1024, .f32⟩) (broadcastInDim S100000x1024 ![] bcast_S_S100000x1024)
  :: StableHlo.TRef.binary (.of main_v74 : StableHlo.TRef sig ⟨S100000x1024, .f32⟩) (.of main_call1_v0 : StableHlo.TRef sig ⟨S100000x1024, .f32⟩) (.of main_call1_v1 : StableHlo.TRef sig ⟨S100000x1024, .i1⟩) (cmpf .oge)
  :: StableHlo.TRef.unary (.of main_cst_14 : StableHlo.TRef sig ⟨S_, .f32⟩) (.of main_call1_v2 : StableHlo.TRef sig ⟨S_, .f32⟩) id
  :: StableHlo.TRef.unary (.of main_call1_v2 : StableHlo.TRef sig ⟨S_, .f32⟩) (.of main_call1_v3 : StableHlo.TRef sig ⟨S100000x1024, .f32⟩) (broadcastInDim S100000x1024 ![] bcast_S_S100000x1024)
  :: StableHlo.TRef.binary (.of main_call1_v3 : StableHlo.TRef sig ⟨S100000x1024, .f32⟩) (.of main_v74 : StableHlo.TRef sig ⟨S100000x1024, .f32⟩) (.of main_call1_v4 : StableHlo.TRef sig ⟨S100000x1024, .f32⟩) mulf
  :: StableHlo.TRef.ternary (.of main_call1_v1 : StableHlo.TRef sig ⟨S100000x1024, .i1⟩) (.of main_v74 : StableHlo.TRef sig ⟨S100000x1024, .f32⟩) (.of main_call1_v4 : StableHlo.TRef sig ⟨S100000x1024, .f32⟩) (.of main_v75 : StableHlo.TRef sig ⟨S100000x1024, .f32⟩) select
  :: StableHlo.unary main_arg7 main_v76 ((transpose S1024x256 [1, 0] · transposes_S256x1024_S1024x256_1_0) : (⟨S256x1024, .f32⟩ : BufTy).Contents (Elt F) → (⟨S1024x256, .f32⟩ : BufTy).Contents (Elt F))
  :: StableHlo.binary main_v75 main_v76 main_v77 ((fun l r => Host.dotGeneral dot_S100000x1024_S1024x256_S100000x256_1_0_0_1_n_n none l r) : (⟨S100000x1024, .f32⟩ : BufTy).Contents (Elt F) → (⟨S1024x256, .f32⟩ : BufTy).Contents (Elt F) → (⟨S100000x256, .f32⟩ : BufTy).Contents (Elt F))
  :: StableHlo.unary main_arg8 main_v78 (broadcastInDim S1x256 ![1] bcast_S256_S1x256_1 : (⟨S256, .f32⟩ : BufTy).Contents (Elt F) → (⟨S1x256, .f32⟩ : BufTy).Contents (Elt F))
  :: StableHlo.unary main_v78 main_v79 (broadcastInDim S100000x256 ![0, 1] bcast_S1x256_S100000x256_0_1 : (⟨S1x256, .f32⟩ : BufTy).Contents (Elt F) → (⟨S100000x256, .f32⟩ : BufTy).Contents (Elt F))
  :: StableHlo.binary main_v77 main_v79 main_v80 (addf : (⟨S100000x256, .f32⟩ : BufTy).Contents (Elt F) → (⟨S100000x256, .f32⟩ : BufTy).Contents (Elt F) → (⟨S100000x256, .f32⟩ : BufTy).Contents (Elt F))
  :: StableHlo.unary main_arg9 main_v81 ((transpose S256x16 [1, 0] · transposes_S16x256_S256x16_1_0) : (⟨S16x256, .f32⟩ : BufTy).Contents (Elt F) → (⟨S256x16, .f32⟩ : BufTy).Contents (Elt F))
  :: StableHlo.binary main_v80 main_v81 main_v82 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F))
  :: StableHlo.unary main_arg10 main_v83 (broadcastInDim S1x16 ![1] bcast_S16_S1x16_1 : (⟨S16, .f32⟩ : BufTy).Contents (Elt F) → (⟨S1x16, .f32⟩ : BufTy).Contents (Elt F))
  :: StableHlo.unary main_v83 main_v84 (broadcastInDim S100000x16 ![0, 1] bcast_S1x16_S100000x16_0_1 : (⟨S1x16, .f32⟩ : BufTy).Contents (Elt F) → (⟨S100000x16, .f32⟩ : BufTy).Contents (Elt F))
  :: StableHlo.binary main_v82 main_v84 main_v85 (addf : (⟨S100000x16, .f32⟩ : BufTy).Contents (Elt F) → (⟨S100000x16, .f32⟩ : BufTy).Contents (Elt F) → (⟨S100000x16, .f32⟩ : BufTy).Contents (Elt F))
  :: StableHlo.TRef.nullary (.of main_call2_cst : StableHlo.TRef sig ⟨S_, .f32⟩) (constant S_ .f32 0xFF800000#32)
  :: StableHlo.TRef.binary (.of main_v85 : StableHlo.TRef sig ⟨S100000x16, .f32⟩) (.of main_call2_cst : StableHlo.TRef sig ⟨S_, .f32⟩) (.of main_call2_v0 : StableHlo.TRef sig ⟨S100000, .f32⟩) (fun x v => Host.reduce FloatOps.maximumf x v reducesTo_S100000x16_S100000_d1 h_S_)
  :: StableHlo.TRef.nullary (.of main_call2_cst_0 : StableHlo.TRef sig ⟨S_, .f32⟩) (constant S_ .f32 0xFF800000#32)
  :: StableHlo.TRef.unary (.of main_call2_cst_0 : StableHlo.TRef sig ⟨S_, .f32⟩) (.of main_call2_v1 : StableHlo.TRef sig ⟨S100000, .f32⟩) (broadcastInDim S100000 ![] bcast_S_S100000)
  :: StableHlo.TRef.binary (.of main_call2_v1 : StableHlo.TRef sig ⟨S100000, .f32⟩) (.of main_call2_v0 : StableHlo.TRef sig ⟨S100000, .f32⟩) (.of main_call2_v2 : StableHlo.TRef sig ⟨S100000, .f32⟩) maximumf
  :: StableHlo.TRef.unary (.of main_call2_v2 : StableHlo.TRef sig ⟨S100000, .f32⟩) (.of main_call2_v3 : StableHlo.TRef sig ⟨S100000x1, .f32⟩) (broadcastInDim S100000x1 ![0] bcast_S100000_S100000x1_0)
  :: StableHlo.TRef.unary (.of main_call2_v3 : StableHlo.TRef sig ⟨S100000x1, .f32⟩) (.of main_call2_v4 : StableHlo.TRef sig ⟨S100000x16, .f32⟩) (broadcastInDim S100000x16 ![0, 1] bcast_S100000x1_S100000x16_0_1)
  :: StableHlo.TRef.binary (.of main_v85 : StableHlo.TRef sig ⟨S100000x16, .f32⟩) (.of main_call2_v4 : StableHlo.TRef sig ⟨S100000x16, .f32⟩) (.of main_call2_v5 : StableHlo.TRef sig ⟨S100000x16, .f32⟩) subf
  :: StableHlo.TRef.unary (.of main_call2_v5 : StableHlo.TRef sig ⟨S100000x16, .f32⟩) (.of main_call2_v6 : StableHlo.TRef sig ⟨S100000x16, .f32⟩) Host.exp
  :: StableHlo.TRef.nullary (.of main_call2_cst_1 : StableHlo.TRef sig ⟨S_, .f32⟩) (constant S_ .f32 0x00000000#32)
  :: StableHlo.TRef.binary (.of main_call2_v6 : StableHlo.TRef sig ⟨S100000x16, .f32⟩) (.of main_call2_cst_1 : StableHlo.TRef sig ⟨S_, .f32⟩) (.of main_call2_v7 : StableHlo.TRef sig ⟨S100000, .f32⟩) (fun x v => Host.reduceAdd x v reducesTo_S100000x16_S100000_d1 h_S_)
  :: StableHlo.TRef.unary (.of main_call2_v7 : StableHlo.TRef sig ⟨S100000, .f32⟩) (.of main_call2_v8 : StableHlo.TRef sig ⟨S100000x1, .f32⟩) (broadcastInDim S100000x1 ![0] bcast_S100000_S100000x1_0)
  :: StableHlo.TRef.unary (.of main_call2_v8 : StableHlo.TRef sig ⟨S100000x1, .f32⟩) (.of main_call2_v9 : StableHlo.TRef sig ⟨S100000x1, .f32⟩) Host.log
  :: StableHlo.TRef.unary (.of main_call2_v9 : StableHlo.TRef sig ⟨S100000x1, .f32⟩) (.of main_call2_v10 : StableHlo.TRef sig ⟨S100000x16, .f32⟩) (broadcastInDim S100000x16 ![0, 1] bcast_S100000x1_S100000x16_0_1)
  :: StableHlo.TRef.binary (.of main_call2_v5 : StableHlo.TRef sig ⟨S100000x16, .f32⟩) (.of main_call2_v10 : StableHlo.TRef sig ⟨S100000x16, .f32⟩) (.of main_v86 : StableHlo.TRef sig ⟨S100000x16, .f32⟩) subf
  :: [] )

set_option maxRecDepth 16384 in
set_option maxHeartbeats 8000000 in
/-- @main is that line: its two windows and the outlined functions unfold to the same chain of steps. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 16384 in
set_option maxHeartbeats 8000000 in
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., nullary_bufs_sub .., binary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 16384 in
set_option maxHeartbeats 8000000 in
/-- Every weakly fair execution of @main terminates, and every buffer ends at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The buffers the operations write, in order: each operation writes one, and no buffer is written twice. -/
abbrev written : List (Ref sig .tc) :=
  [main_v0, main_v1, main_v2, main_v3, main_v4, main_cst, main_v5, main_cst_0, main_v6, main_v7, main_v8, main_v9, main_v10, main_v11, main_cst_1, main_v12, main_v13, main_v14, main_v15, main_v16, main_v17, main_v18, main_v19, main_v20, main_v21, main_v22, main_cst_2, main_v23, main_cst_3, main_v24, main_v25, main_v26, main_cst_4, main_v27, main_v28, main_v29, main_cst_5, main_call0_v0, main_call0_v1, main_v30, main_c, main_v31, main_v32, main_c_6, main_v33, main_v34, main_v35, main_v36, main_v37, main_v38, main_c_7, main_v39, main_v40, main_c_8, main_v41, main_v42, main_v43, main_v44, main_v45, main_v46, main_cst_9, main_v47, main_v48, main_v49, main_v50, main_c_10, main_v51, main_v52, main_c_11, main_v53, main_v54, main_v55, main_v56, main_v57, main_v58, main_v59, main_cst_12, main_v60, main_v61, main_v62, main_v63, main_v64, main_v65, main_v66, main_v67, main_cst_13, main_v68, main_v69, main_v70, main_v71, main_v72, main_v73, main_v74, main_cst_14, main_call1_cst, main_call1_v0, main_call1_v1, main_call1_v2, main_call1_v3, main_call1_v4, main_v75, main_v76, main_v77, main_v78, main_v79, main_v80, main_v81, main_v82, main_v83, main_v84, main_v85, main_call2_cst, main_call2_v0, main_call2_cst_0, main_call2_v1, main_call2_v2, main_call2_v3, main_call2_v4, main_call2_v5, main_call2_v6, main_call2_cst_1, main_call2_v7, main_call2_v8, main_call2_v9, main_call2_v10, main_v86]

set_option maxRecDepth 16384 in
set_option maxHeartbeats 8000000 in
theorem writesAre : Cert.LibStraightLine.WritesAre (ops : List (HloOp τ sig (Elt F))) written := rfl

end Cert.ReferenceIdeal.Line

end
-- ==== Proof.RefLine.lean ====
/- GENERATED by: bun scratch/gen_tables.js $KIT/certs/proofs/170179_j64828236366589_1_alg — a table, one line per host operation, of the reference's line of operations read one at a time: its length, that a buffer absent from the written list's tail is written by
   no operation from that position on, the NAME `val V0 b` for what buffer b holds after the whole line from launch contents V0, and
   that an argument buffer, which no operation writes, holds its launch contents. -/
import proofs.«170179_j64828236366589_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
theorem ops_length : (ops : List (HloOp τ sig (Elt F))).length = 126 := rfl

/-- A position below 126 is a position of the line. -/
theorem lt_len {k : Nat} (h : k < 126) : k < (ops : List (HloOp τ sig (Elt F))).length :=
  Nat.lt_of_lt_of_eq h (ops_length (F := F)).symm

/-- A buffer absent from the written list's tail is written by no operation from that position on. -/
theorem nw (k : Nat) {y : Ref sig .tc} (hy : y ∉ written.drop k) :
    ∀ op ∈ (ops (F := F)).drop k, (Proc.devRef .tc y : DevRef τ sig) ∉ op.writes :=
  Cert.LibStraightLine.not_written writesAre k hy

/-- What buffer `b` holds after the whole line, from launch contents `V0`. -/
def val (V0 : Valuation τ sig (Elt F)) (b : Ref sig .tc) := after (ops (F := F)) V0 (Proc.devRef .tc b)

variable (V0 : Valuation τ sig (Elt F))

theorem at_main_arg0 : val V0 main_arg0 = V0 (Proc.devRef .tc main_arg0) :=
  Cert.LibStraightLine.untouched_at (ops := ops (F := F)) (V := V0) writesAre (by decide +kernel)
theorem at_main_arg1 : val V0 main_arg1 = V0 (Proc.devRef .tc main_arg1) :=
  Cert.LibStraightLine.untouched_at (ops := ops (F := F)) (V := V0) writesAre (by decide +kernel)
theorem at_main_arg2 : val V0 main_arg2 = V0 (Proc.devRef .tc main_arg2) :=
  Cert.LibStraightLine.untouched_at (ops := ops (F := F)) (V := V0) writesAre (by decide +kernel)
theorem at_main_arg3 : val V0 main_arg3 = V0 (Proc.devRef .tc main_arg3) :=
  Cert.LibStraightLine.untouched_at (ops := ops (F := F)) (V := V0) writesAre (by decide +kernel)
theorem at_main_arg4 : val V0 main_arg4 = V0 (Proc.devRef .tc main_arg4) :=
  Cert.LibStraightLine.untouched_at (ops := ops (F := F)) (V := V0) writesAre (by decide +kernel)
theorem at_main_arg5 : val V0 main_arg5 = V0 (Proc.devRef .tc main_arg5) :=
  Cert.LibStraightLine.untouched_at (ops := ops (F := F)) (V := V0) writesAre (by decide +kernel)
theorem at_main_arg6 : val V0 main_arg6 = V0 (Proc.devRef .tc main_arg6) :=
  Cert.LibStraightLine.untouched_at (ops := ops (F := F)) (V := V0) writesAre (by decide +kernel)
theorem at_main_arg7 : val V0 main_arg7 = V0 (Proc.devRef .tc main_arg7) :=
  Cert.LibStraightLine.untouched_at (ops := ops (F := F)) (V := V0) writesAre (by decide +kernel)
theorem at_main_arg8 : val V0 main_arg8 = V0 (Proc.devRef .tc main_arg8) :=
  Cert.LibStraightLine.untouched_at (ops := ops (F := F)) (V := V0) writesAre (by decide +kernel)
theorem at_main_arg9 : val V0 main_arg9 = V0 (Proc.devRef .tc main_arg9) :=
  Cert.LibStraightLine.untouched_at (ops := ops (F := F)) (V := V0) writesAre (by decide +kernel)
theorem at_main_arg10 : val V0 main_arg10 = V0 (Proc.devRef .tc main_arg10) :=
  Cert.LibStraightLine.untouched_at (ops := ops (F := F)) (V := V0) writesAre (by decide +kernel)

end Cert.ReferenceIdeal.Line

end
-- ==== Proof.RefStages0.lean ====
/- GENERATED by: bun scratch/gen_tables.js $KIT/certs/proofs/170179_j64828236366589_1_alg — a table, one line per host operation, of the reference's buffers after its whole line, operations 1 to 26: the buffer operation k writes holds that
   operation's function of what its operand buffers hold (no buffer is written twice and operands are written earlier, so all are read
   after the whole line). -/
import proofs.«170179_j64828236366589_1_alg».proof.Proof.RefLine

noncomputable section

set_option maxHeartbeats 4000000

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

theorem at_main_v0 : val V0 main_v0 = ((transpose S512x256 [1, 0] · transposes_S256x512_S512x256_1_0) : (⟨S256x512, .f32⟩ : BufTy).Contents (Elt F) → (⟨S512x256, .f32⟩ : BufTy).Contents (Elt F)) (val V0 main_arg2) :=
  Cert.LibStraightLine.unary_at (ops := ops (F := F)) (V := V0) (x := main_arg2) (y := main_v0) (f := ((transpose S512x256 [1, 0] · transposes_S256x512_S512x256_1_0) : (⟨S256x512, .f32⟩ : BufTy).Contents (Elt F) → (⟨S512x256, .f32⟩ : BufTy).Contents (Elt F))) (hx := by decide) (hy := by decide) 0 (lt_len (by decide)) rfl (nw 1 (by decide +kernel)) (nw 0 (by decide +kernel))
theorem at_main_v1 : val V0 main_v1 = ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)) (val V0 main_arg0) (val V0 main_v0) :=
  Cert.LibStraightLine.binary_at (ops := ops (F := F)) (V := V0) (a := main_arg0) (b := main_v0) (y := main_v1) (f := ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F))) (ha := by decide) (hb := by decide) (hy := by decide) 1 (lt_len (by decide)) rfl (nw 2 (by decide +kernel)) (nw 1 (by decide +kernel)) (nw 1 (by decide +kernel))
theorem at_main_v2 : val V0 main_v2 = (broadcastInDim S1x256 ![1] bcast_S256_S1x256_1 : (⟨S256, .f32⟩ : BufTy).Contents (Elt F) → (⟨S1x256, .f32⟩ : BufTy).Contents (Elt F)) (val V0 main_arg3) :=
  Cert.LibStraightLine.unary_at (ops := ops (F := F)) (V := V0) (x := main_arg3) (y := main_v2) (f := (broadcastInDim S1x256 ![1] bcast_S256_S1x256_1 : (⟨S256, .f32⟩ : BufTy).Contents (Elt F) → (⟨S1x256, .f32⟩ : BufTy).Contents (Elt F))) (hx := by decide) (hy := by decide) 2 (lt_len (by decide)) rfl (nw 3 (by decide +kernel)) (nw 2 (by decide +kernel))
theorem at_main_v3 : val V0 main_v3 = (broadcastInDim S100000x256 ![0, 1] bcast_S1x256_S100000x256_0_1 : (⟨S1x256, .f32⟩ : BufTy).Contents (Elt F) → (⟨S100000x256, .f32⟩ : BufTy).Contents (Elt F)) (val V0 main_v2) :=
  Cert.LibStraightLine.unary_at (ops := ops (F := F)) (V := V0) (x := main_v2) (y := main_v3) (f := (broadcastInDim S100000x256 ![0, 1] bcast_S1x256_S100000x256_0_1 : (⟨S1x256, .f32⟩ : BufTy).Contents (Elt F) → (⟨S100000x256, .f32⟩ : BufTy).Contents (Elt F))) (hx := by decide) (hy := by decide) 3 (lt_len (by decide)) rfl (nw 4 (by decide +kernel)) (nw 3 (by decide +kernel))
theorem at_main_v4 : val V0 main_v4 = (addf : (⟨S100000x256, .f32⟩ : BufTy).Contents (Elt F) → (⟨S100000x256, .f32⟩ : BufTy).Contents (Elt F) → (⟨S100000x256, .f32⟩ : BufTy).Contents (Elt F)) (val V0 main_v1) (val V0 main_v3) :=
  Cert.LibStraightLine.binary_at (ops := ops (F := F)) (V := V0) (a := main_v1) (b := main_v3) (y := main_v4) (f := (addf : (⟨S100000x256, .f32⟩ : BufTy).Contents (Elt F) → (⟨S100000x256, .f32⟩ : BufTy).Contents (Elt F) → (⟨S100000x256, .f32⟩ : BufTy).Contents (Elt F))) (ha := by decide) (hb := by decide) (hy := by decide) 4 (lt_len (by decide)) rfl (nw 5 (by decide +kernel)) (nw 4 (by decide +kernel)) (nw 4 (by decide +kernel))
theorem at_main_cst : val V0 main_cst = (constant S_ .f32 0xFF800000#32) :=
  Cert.LibStraightLine.nullary_at (ops := ops (F := F)) (V := V0) (y := main_cst) (v := (constant S_ .f32 0xFF800000#32)) (hy := by decide) 5 (lt_len (by decide)) rfl (nw 6 (by decide +kernel))
theorem at_main_v5 : val V0 main_v5 = ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F)) (val V0 main_arg4) (val V0 main_cst) :=
  Cert.LibStraightLine.binary_at (ops := ops (F := F)) (V := V0) (a := main_arg4) (b := main_cst) (y := main_v5) (f := ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F))) (ha := by decide) (hb := by decide) (hy := by decide) 6 (lt_len (by decide)) rfl (nw 7 (by decide +kernel)) (nw 6 (by decide +kernel)) (nw 6 (by decide +kernel))
theorem at_main_cst_0 : val V0 main_cst_0 = (constant S_ .f32 0xFF800000#32) :=
  Cert.LibStraightLine.nullary_at (ops := ops (F := F)) (V := V0) (y := main_cst_0) (v := (constant S_ .f32 0xFF800000#32)) (hy := by decide) 7 (lt_len (by decide)) rfl (nw 8 (by decide +kernel))
theorem at_main_v6 : val V0 main_v6 = (broadcastInDim S100000 ![] bcast_S_S100000 : (⟨S_, .f32⟩ : BufTy).Contents (Elt F) → (⟨S100000, .f32⟩ : BufTy).Contents (Elt F)) (val V0 main_cst_0) :=
  Cert.LibStraightLine.unary_at (ops := ops (F := F)) (V := V0) (x := main_cst_0) (y := main_v6) (f := (broadcastInDim S100000 ![] bcast_S_S100000 : (⟨S_, .f32⟩ : BufTy).Contents (Elt F) → (⟨S100000, .f32⟩ : BufTy).Contents (Elt F))) (hx := by decide) (hy := by decide) 8 (lt_len (by decide)) rfl (nw 9 (by decide +kernel)) (nw 8 (by decide +kernel))
theorem at_main_v7 : val V0 main_v7 = (maximumf : (⟨S100000, .f32⟩ : BufTy).Contents (Elt F) → (⟨S100000, .f32⟩ : BufTy).Contents (Elt F) → (⟨S100000, .f32⟩ : BufTy).Contents (Elt F)) (val V0 main_v6) (val V0 main_v5) :=
  Cert.LibStraightLine.binary_at (ops := ops (F := F)) (V := V0) (a := main_v6) (b := main_v5) (y := main_v7) (f := (maximumf : (⟨S100000, .f32⟩ : BufTy).Contents (Elt F) → (⟨S100000, .f32⟩ : BufTy).Contents (Elt F) → (⟨S100000, .f32⟩ : BufTy).Contents (Elt F))) (ha := by decide) (hb := by decide) (hy := by decide) 9 (lt_len (by decide)) rfl (nw 10 (by decide +kernel)) (nw 9 (by decide +kernel)) (nw 9 (by decide +kernel))
theorem at_main_v8 : val V0 main_v8 = (broadcastInDim S100000x1 ![0] bcast_S100000_S100000x1_0 : (⟨S100000, .f32⟩ : BufTy).Contents (Elt F) → (⟨S100000x1, .f32⟩ : BufTy).Contents (Elt F)) (val V0 main_v7) :=
  Cert.LibStraightLine.unary_at (ops := ops (F := F)) (V := V0) (x := main_v7) (y := main_v8) (f := (broadcastInDim S100000x1 ![0] bcast_S100000_S100000x1_0 : (⟨S100000, .f32⟩ : BufTy).Contents (Elt F) → (⟨S100000x1, .f32⟩ : BufTy).Contents (Elt F))) (hx := by decide) (hy := by decide) 10 (lt_len (by decide)) rfl (nw 11 (by decide +kernel)) (nw 10 (by decide +kernel))
theorem at_main_v9 : val V0 main_v9 = (broadcastInDim S100000x16 ![0, 1] bcast_S100000x1_S100000x16_0_1 : (⟨S100000x1, .f32⟩ : BufTy).Contents (Elt F) → (⟨S100000x16, .f32⟩ : BufTy).Contents (Elt F)) (val V0 main_v8) :=
  Cert.LibStraightLine.unary_at (ops := ops (F := F)) (V := V0) (x := main_v8) (y := main_v9) (f := (broadcastInDim S100000x16 ![0, 1] bcast_S100000x1_S100000x16_0_1 : (⟨S100000x1, .f32⟩ : BufTy).Contents (Elt F) → (⟨S100000x16, .f32⟩ : BufTy).Contents (Elt F))) (hx := by decide) (hy := by decide) 11 (lt_len (by decide)) rfl (nw 12 (by decide +kernel)) (nw 11 (by decide +kernel))
theorem at_main_v10 : val V0 main_v10 = (subf : (⟨S100000x16, .f32⟩ : BufTy).Contents (Elt F) → (⟨S100000x16, .f32⟩ : BufTy).Contents (Elt F) → (⟨S100000x16, .f32⟩ : BufTy).Contents (Elt F)) (val V0 main_arg4) (val V0 main_v9) :=
  Cert.LibStraightLine.binary_at (ops := ops (F := F)) (V := V0) (a := main_arg4) (b := main_v9) (y := main_v10) (f := (subf : (⟨S100000x16, .f32⟩ : BufTy).Contents (Elt F) → (⟨S100000x16, .f32⟩ : BufTy).Contents (Elt F) → (⟨S100000x16, .f32⟩ : BufTy).Contents (Elt F))) (ha := by decide) (hb := by decide) (hy := by decide) 12 (lt_len (by decide)) rfl (nw 13 (by decide +kernel)) (nw 12 (by decide +kernel)) (nw 12 (by decide +kernel))
theorem at_main_v11 : val V0 main_v11 = (Host.exp : (⟨S100000x16, .f32⟩ : BufTy).Contents (Elt F) → (⟨S100000x16, .f32⟩ : BufTy).Contents (Elt F)) (val V0 main_v10) :=
  Cert.LibStraightLine.unary_at (ops := ops (F := F)) (V := V0) (x := main_v10) (y := main_v11) (f := (Host.exp : (⟨S100000x16, .f32⟩ : BufTy).Contents (Elt F) → (⟨S100000x16, .f32⟩ : BufTy).Contents (Elt F))) (hx := by decide) (hy := by decide) 13 (lt_len (by decide)) rfl (nw 14 (by decide +kernel)) (nw 13 (by decide +kernel))
theorem at_main_cst_1 : val V0 main_cst_1 = (constant S_ .f32 0x00000000#32) :=
  Cert.LibStraightLine.nullary_at (ops := ops (F := F)) (V := V0) (y := main_cst_1) (v := (constant S_ .f32 0x00000000#32)) (hy := by decide) 14 (lt_len (by decide)) rfl (nw 15 (by decide +kernel))
theorem at_main_v12 : val V0 main_v12 = ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)) (val V0 main_v11) (val V0 main_cst_1) :=
  Cert.LibStraightLine.binary_at (ops := ops (F := F)) (V := V0) (a := main_v11) (b := main_cst_1) (y := main_v12) (f := ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F))) (ha := by decide) (hb := by decide) (hy := by decide) 15 (lt_len (by decide)) rfl (nw 16 (by decide +kernel)) (nw 15 (by decide +kernel)) (nw 15 (by decide +kernel))
theorem at_main_v13 : val V0 main_v13 = (broadcastInDim S100000x1 ![0] bcast_S100000_S100000x1_0 : (⟨S100000, .f32⟩ : BufTy).Contents (Elt F) → (⟨S100000x1, .f32⟩ : BufTy).Contents (Elt F)) (val V0 main_v12) :=
  Cert.LibStraightLine.unary_at (ops := ops (F := F)) (V := V0) (x := main_v12) (y := main_v13) (f := (broadcastInDim S100000x1 ![0] bcast_S100000_S100000x1_0 : (⟨S100000, .f32⟩ : BufTy).Contents (Elt F) → (⟨S100000x1, .f32⟩ : BufTy).Contents (Elt F))) (hx := by decide) (hy := by decide) 16 (lt_len (by decide)) rfl (nw 17 (by decide +kernel)) (nw 16 (by decide +kernel))
theorem at_main_v14 : val V0 main_v14 = (broadcastInDim S100000x16 ![0, 1] bcast_S100000x1_S100000x16_0_1 : (⟨S100000x1, .f32⟩ : BufTy).Contents (Elt F) → (⟨S100000x16, .f32⟩ : BufTy).Contents (Elt F)) (val V0 main_v13) :=
  Cert.LibStraightLine.unary_at (ops := ops (F := F)) (V := V0) (x := main_v13) (y := main_v14) (f := (broadcastInDim S100000x16 ![0, 1] bcast_S100000x1_S100000x16_0_1 : (⟨S100000x1, .f32⟩ : BufTy).Contents (Elt F) → (⟨S100000x16, .f32⟩ : BufTy).Contents (Elt F))) (hx := by decide) (hy := by decide) 17 (lt_len (by decide)) rfl (nw 18 (by decide +kernel)) (nw 17 (by decide +kernel))
theorem at_main_v15 : val V0 main_v15 = (Host.divf : (⟨S100000x16, .f32⟩ : BufTy).Contents (Elt F) → (⟨S100000x16, .f32⟩ : BufTy).Contents (Elt F) → (⟨S100000x16, .f32⟩ : BufTy).Contents (Elt F)) (val V0 main_v11) (val V0 main_v14) :=
  Cert.LibStraightLine.binary_at (ops := ops (F := F)) (V := V0) (a := main_v11) (b := main_v14) (y := main_v15) (f := (Host.divf : (⟨S100000x16, .f32⟩ : BufTy).Contents (Elt F) → (⟨S100000x16, .f32⟩ : BufTy).Contents (Elt F) → (⟨S100000x16, .f32⟩ : BufTy).Contents (Elt F))) (ha := by decide) (hb := by decide) (hy := by decide) 18 (lt_len (by decide)) rfl (nw 19 (by decide +kernel)) (nw 18 (by decide +kernel)) (nw 18 (by decide +kernel))
theorem at_main_v16 : val V0 main_v16 = (iotaInDim S100000 32 0) :=
  Cert.LibStraightLine.nullary_at (ops := ops (F := F)) (V := V0) (y := main_v16) (v := (iotaInDim S100000 32 0)) (hy := by decide) 19 (lt_len (by decide)) rfl (nw 20 (by decide +kernel))
/-- The function of the operation that writes `main_v17`, named. -/
abbrev fn_main_v17 : (⟨S2x3200000, .i32⟩ : BufTy).Contents (Elt F) → (⟨S1x3200000, .i32⟩ : BufTy).Contents (Elt F) := (extractStridedSlice S1x3200000 ![0, 0] · slices_S2x3200000_S1x3200000_0_0)
theorem at_main_v17 : val V0 main_v17 = fn_main_v17 (F := F) (val V0 main_arg1) :=
  Cert.LibStraightLine.unary_at (ops := ops (F := F)) (V := V0) (x := main_arg1) (y := main_v17) (f := fn_main_v17 (F := F)) (hx := by decide) (hy := by decide) 20 (lt_len (by decide)) rfl (nw 21 (by decide +kernel)) (nw 20 (by decide +kernel))
theorem at_main_v18 : val V0 main_v18 = shapeCast S3200000 (val V0 main_v17) shapeCasts_S1x3200000_S3200000 :=
  Cert.LibStraightLine.reshape_at (ops := ops (F := F)) (V := V0) (x := main_v17) (y := main_v18) (he := rfl) (hn := shapeCasts_S1x3200000_S3200000) (hx := by decide) (hy := by decide) 21 (lt_len (by decide)) rfl (nw 22 (by decide +kernel)) (nw 21 (by decide +kernel))
theorem at_main_v19 : val V0 main_v19 = ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) (val V0 main_v18) (val V0 main_v16) :=
  Cert.LibStraightLine.binary_at (ops := ops (F := F)) (V := V0) (a := main_v18) (b := main_v16) (y := main_v19) (f := ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F))) (ha := by decide) (hb := by decide) (hy := by decide) 22 (lt_len (by decide)) rfl (nw 23 (by decide +kernel)) (nw 22 (by decide +kernel)) (nw 22 (by decide +kernel))
/-- The function of the operation that writes `main_v20`, named. -/
abbrev fn_main_v20 : (⟨S2x3200000, .i32⟩ : BufTy).Contents (Elt F) → (⟨S1x3200000, .i32⟩ : BufTy).Contents (Elt F) := (extractStridedSlice S1x3200000 ![1, 0] · slices_S2x3200000_S1x3200000_1_0)
theorem at_main_v20 : val V0 main_v20 = fn_main_v20 (F := F) (val V0 main_arg1) :=
  Cert.LibStraightLine.unary_at (ops := ops (F := F)) (V := V0) (x := main_arg1) (y := main_v20) (f := fn_main_v20 (F := F)) (hx := by decide) (hy := by decide) 23 (lt_len (by decide)) rfl (nw 24 (by decide +kernel)) (nw 23 (by decide +kernel))
theorem at_main_v21 : val V0 main_v21 = shapeCast S3200000 (val V0 main_v20) shapeCasts_S1x3200000_S3200000 :=
  Cert.LibStraightLine.reshape_at (ops := ops (F := F)) (V := V0) (x := main_v20) (y := main_v21) (he := rfl) (hn := shapeCasts_S1x3200000_S3200000) (hx := by decide) (hy := by decide) 24 (lt_len (by decide)) rfl (nw 25 (by decide +kernel)) (nw 24 (by decide +kernel))
theorem at_main_v22 : val V0 main_v22 = ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) (val V0 main_v21) (val V0 main_v16) :=
  Cert.LibStraightLine.binary_at (ops := ops (F := F)) (V := V0) (a := main_v21) (b := main_v16) (y := main_v22) (f := ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F))) (ha := by decide) (hb := by decide) (hy := by decide) 25 (lt_len (by decide)) rfl (nw 26 (by decide +kernel)) (nw 25 (by decide +kernel)) (nw 25 (by decide +kernel))

end Cert.ReferenceIdeal.Line

end
-- ==== Proof.RefStages1.lean ====
/- GENERATED by: bun scratch/gen_tables.js $KIT/certs/proofs/170179_j64828236366589_1_alg — a table, one line per host operation, of the reference's buffers after its whole line, operations 27 to 52: the buffer operation k writes holds that
   operation's function of what its operand buffers hold (no buffer is written twice and operands are written earlier, so all are read
   after the whole line). -/
import proofs.«170179_j64828236366589_1_alg».proof.Proof.RefLine

noncomputable section

set_option maxHeartbeats 4000000

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

theorem at_main_cst_2 : val V0 main_cst_2 = (constant S_ .f32 0x3F800000#32) :=
  Cert.LibStraightLine.nullary_at (ops := ops (F := F)) (V := V0) (y := main_cst_2) (v := (constant S_ .f32 0x3F800000#32)) (hy := by decide) 26 (lt_len (by decide)) rfl (nw 27 (by decide +kernel))
theorem at_main_v23 : val V0 main_v23 = (broadcastInDim S3300000 ![] bcast_S_S3300000 : (⟨S_, .f32⟩ : BufTy).Contents (Elt F) → (⟨S3300000, .f32⟩ : BufTy).Contents (Elt F)) (val V0 main_cst_2) :=
  Cert.LibStraightLine.unary_at (ops := ops (F := F)) (V := V0) (x := main_cst_2) (y := main_v23) (f := (broadcastInDim S3300000 ![] bcast_S_S3300000 : (⟨S_, .f32⟩ : BufTy).Contents (Elt F) → (⟨S3300000, .f32⟩ : BufTy).Contents (Elt F))) (hx := by decide) (hy := by decide) 27 (lt_len (by decide)) rfl (nw 28 (by decide +kernel)) (nw 27 (by decide +kernel))
theorem at_main_cst_3 : val V0 main_cst_3 = (constant S_ .f32 0x00000000#32) :=
  Cert.LibStraightLine.nullary_at (ops := ops (F := F)) (V := V0) (y := main_cst_3) (v := (constant S_ .f32 0x00000000#32)) (hy := by decide) 28 (lt_len (by decide)) rfl (nw 29 (by decide +kernel))
theorem at_main_v24 : val V0 main_v24 = (broadcastInDim S100000 ![] bcast_S_S100000 : (⟨S_, .f32⟩ : BufTy).Contents (Elt F) → (⟨S100000, .f32⟩ : BufTy).Contents (Elt F)) (val V0 main_cst_3) :=
  Cert.LibStraightLine.unary_at (ops := ops (F := F)) (V := V0) (x := main_cst_3) (y := main_v24) (f := (broadcastInDim S100000 ![] bcast_S_S100000 : (⟨S_, .f32⟩ : BufTy).Contents (Elt F) → (⟨S100000, .f32⟩ : BufTy).Contents (Elt F))) (hx := by decide) (hy := by decide) 29 (lt_len (by decide)) rfl (nw 30 (by decide +kernel)) (nw 29 (by decide +kernel))
theorem at_main_v25 : val V0 main_v25 = (broadcastInDim S3300000x1 ![0] bcast_S3300000_S3300000x1_0 : (⟨S3300000, .i32⟩ : BufTy).Contents (Elt F) → (⟨S3300000x1, .i32⟩ : BufTy).Contents (Elt F)) (val V0 main_v22) :=
  Cert.LibStraightLine.unary_at (ops := ops (F := F)) (V := V0) (x := main_v22) (y := main_v25) (f := (broadcastInDim S3300000x1 ![0] bcast_S3300000_S3300000x1_0 : (⟨S3300000, .i32⟩ : BufTy).Contents (Elt F) → (⟨S3300000x1, .i32⟩ : BufTy).Contents (Elt F))) (hx := by decide) (hy := by decide) 30 (lt_len (by decide)) rfl (nw 31 (by decide +kernel)) (nw 30 (by decide +kernel))
theorem at_main_v26 : val V0 main_v26 = ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) (val V0 main_v24) (val V0 main_v25) (val V0 main_v23) :=
  Cert.LibStraightLine.ternary_at (ops := ops (F := F)) (V := V0) (c := main_v24) (a := main_v25) (b := main_v23) (y := main_v26) (f := ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F))) (hc := by decide) (ha := by decide) (hb := by decide) (hy := by decide) 31 (lt_len (by decide)) rfl (nw 32 (by decide +kernel)) (nw 31 (by decide +kernel)) (nw 31 (by decide +kernel)) (nw 31 (by decide +kernel))
theorem at_main_cst_4 : val V0 main_cst_4 = (constant S_ .f32 0x00000000#32) :=
  Cert.LibStraightLine.nullary_at (ops := ops (F := F)) (V := V0) (y := main_cst_4) (v := (constant S_ .f32 0x00000000#32)) (hy := by decide) 32 (lt_len (by decide)) rfl (nw 33 (by decide +kernel))
theorem at_main_v27 : val V0 main_v27 = (broadcastInDim S100000 ![] bcast_S_S100000 : (⟨S_, .f32⟩ : BufTy).Contents (Elt F) → (⟨S100000, .f32⟩ : BufTy).Contents (Elt F)) (val V0 main_cst_4) :=
  Cert.LibStraightLine.unary_at (ops := ops (F := F)) (V := V0) (x := main_cst_4) (y := main_v27) (f := (broadcastInDim S100000 ![] bcast_S_S100000 : (⟨S_, .f32⟩ : BufTy).Contents (Elt F) → (⟨S100000, .f32⟩ : BufTy).Contents (Elt F))) (hx := by decide) (hy := by decide) 33 (lt_len (by decide)) rfl (nw 34 (by decide +kernel)) (nw 33 (by decide +kernel))
theorem at_main_v28 : val V0 main_v28 = (cmpf .ogt : (⟨S100000, .f32⟩ : BufTy).Contents (Elt F) → (⟨S100000, .f32⟩ : BufTy).Contents (Elt F) → (⟨S100000, .i1⟩ : BufTy).Contents (Elt F)) (val V0 main_v26) (val V0 main_v27) :=
  Cert.LibStraightLine.binary_at (ops := ops (F := F)) (V := V0) (a := main_v26) (b := main_v27) (y := main_v28) (f := (cmpf .ogt : (⟨S100000, .f32⟩ : BufTy).Contents (Elt F) → (⟨S100000, .f32⟩ : BufTy).Contents (Elt F) → (⟨S100000, .i1⟩ : BufTy).Contents (Elt F))) (ha := by decide) (hb := by decide) (hy := by decide) 34 (lt_len (by decide)) rfl (nw 35 (by decide +kernel)) (nw 34 (by decide +kernel)) (nw 34 (by decide +kernel))
theorem at_main_v29 : val V0 main_v29 = (Host.rsqrt : (⟨S100000, .f32⟩ : BufTy).Contents (Elt F) → (⟨S100000, .f32⟩ : BufTy).Contents (Elt F)) (val V0 main_v26) :=
  Cert.LibStraightLine.unary_at (ops := ops (F := F)) (V := V0) (x := main_v26) (y := main_v29) (f := (Host.rsqrt : (⟨S100000, .f32⟩ : BufTy).Contents (Elt F) → (⟨S100000, .f32⟩ : BufTy).Contents (Elt F))) (hx := by decide) (hy := by decide) 35 (lt_len (by decide)) rfl (nw 36 (by decide +kernel)) (nw 35 (by decide +kernel))
theorem at_main_cst_5 : val V0 main_cst_5 = (constant S_ .f32 0x00000000#32) :=
  Cert.LibStraightLine.nullary_at (ops := ops (F := F)) (V := V0) (y := main_cst_5) (v := (constant S_ .f32 0x00000000#32)) (hy := by decide) 36 (lt_len (by decide)) rfl (nw 37 (by decide +kernel))
theorem at_main_call0_v0 : val V0 main_call0_v0 = (id : (⟨S_, .f32⟩ : BufTy).Contents (Elt F) → (⟨S_, .f32⟩ : BufTy).Contents (Elt F)) (val V0 main_cst_5) :=
  Cert.LibStraightLine.unary_at (ops := ops (F := F)) (V := V0) (x := main_cst_5) (y := main_call0_v0) (f := (id : (⟨S_, .f32⟩ : BufTy).Contents (Elt F) → (⟨S_, .f32⟩ : BufTy).Contents (Elt F))) (hx := by decide) (hy := by decide) 37 (lt_len (by decide)) rfl (nw 38 (by decide +kernel)) (nw 37 (by decide +kernel))
theorem at_main_call0_v1 : val V0 main_call0_v1 = ((broadcastInDim S100000 ![] bcast_S_S100000) : (⟨S_, .f32⟩ : BufTy).Contents (Elt F) → (⟨S100000, .f32⟩ : BufTy).Contents (Elt F)) (val V0 main_call0_v0) :=
  Cert.LibStraightLine.unary_at (ops := ops (F := F)) (V := V0) (x := main_call0_v0) (y := main_call0_v1) (f := ((broadcastInDim S100000 ![] bcast_S_S100000) : (⟨S_, .f32⟩ : BufTy).Contents (Elt F) → (⟨S100000, .f32⟩ : BufTy).Contents (Elt F))) (hx := by decide) (hy := by decide) 38 (lt_len (by decide)) rfl (nw 39 (by decide +kernel)) (nw 38 (by decide +kernel))
theorem at_main_v30 : val V0 main_v30 = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (val V0 main_v28) (val V0 main_v29) (val V0 main_call0_v1) :=
  Cert.LibStraightLine.ternary_at (ops := ops (F := F)) (V := V0) (c := main_v28) (a := main_v29) (b := main_call0_v1) (y := main_v30) (f := (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F))) (hc := by decide) (ha := by decide) (hb := by decide) (hy := by decide) 39 (lt_len (by decide)) rfl (nw 40 (by decide +kernel)) (nw 39 (by decide +kernel)) (nw 39 (by decide +kernel)) (nw 39 (by decide +kernel))
theorem at_main_c : val V0 main_c = (constantI S_ 32 0#32) :=
  Cert.LibStraightLine.nullary_at (ops := ops (F := F)) (V := V0) (y := main_c) (v := (constantI S_ 32 0#32)) (hy := by decide) 40 (lt_len (by decide)) rfl (nw 41 (by decide +kernel))
theorem at_main_v31 : val V0 main_v31 = (broadcastInDim S3300000 ![] bcast_S_S3300000 : (⟨S_, .i32⟩ : BufTy).Contents (Elt F) → (⟨S3300000, .i32⟩ : BufTy).Contents (Elt F)) (val V0 main_c) :=
  Cert.LibStraightLine.unary_at (ops := ops (F := F)) (V := V0) (x := main_c) (y := main_v31) (f := (broadcastInDim S3300000 ![] bcast_S_S3300000 : (⟨S_, .i32⟩ : BufTy).Contents (Elt F) → (⟨S3300000, .i32⟩ : BufTy).Contents (Elt F))) (hx := by decide) (hy := by decide) 41 (lt_len (by decide)) rfl (nw 42 (by decide +kernel)) (nw 41 (by decide +kernel))
theorem at_main_v32 : val V0 main_v32 = (cmpi .slt : (⟨S3300000, .i32⟩ : BufTy).Contents (Elt F) → (⟨S3300000, .i32⟩ : BufTy).Contents (Elt F) → (⟨S3300000, .i1⟩ : BufTy).Contents (Elt F)) (val V0 main_v19) (val V0 main_v31) :=
  Cert.LibStraightLine.binary_at (ops := ops (F := F)) (V := V0) (a := main_v19) (b := main_v31) (y := main_v32) (f := (cmpi .slt : (⟨S3300000, .i32⟩ : BufTy).Contents (Elt F) → (⟨S3300000, .i32⟩ : BufTy).Contents (Elt F) → (⟨S3300000, .i1⟩ : BufTy).Contents (Elt F))) (ha := by decide) (hb := by decide) (hy := by decide) 42 (lt_len (by decide)) rfl (nw 43 (by decide +kernel)) (nw 42 (by decide +kernel)) (nw 42 (by decide +kernel))
theorem at_main_c_6 : val V0 main_c_6 = (constantI S_ 32 100000#32) :=
  Cert.LibStraightLine.nullary_at (ops := ops (F := F)) (V := V0) (y := main_c_6) (v := (constantI S_ 32 100000#32)) (hy := by decide) 43 (lt_len (by decide)) rfl (nw 44 (by decide +kernel))
theorem at_main_v33 : val V0 main_v33 = (broadcastInDim S3300000 ![] bcast_S_S3300000 : (⟨S_, .i32⟩ : BufTy).Contents (Elt F) → (⟨S3300000, .i32⟩ : BufTy).Contents (Elt F)) (val V0 main_c_6) :=
  Cert.LibStraightLine.unary_at (ops := ops (F := F)) (V := V0) (x := main_c_6) (y := main_v33) (f := (broadcastInDim S3300000 ![] bcast_S_S3300000 : (⟨S_, .i32⟩ : BufTy).Contents (Elt F) → (⟨S3300000, .i32⟩ : BufTy).Contents (Elt F))) (hx := by decide) (hy := by decide) 44 (lt_len (by decide)) rfl (nw 45 (by decide +kernel)) (nw 44 (by decide +kernel))
theorem at_main_v34 : val V0 main_v34 = (addi : (⟨S3300000, .i32⟩ : BufTy).Contents (Elt F) → (⟨S3300000, .i32⟩ : BufTy).Contents (Elt F) → (⟨S3300000, .i32⟩ : BufTy).Contents (Elt F)) (val V0 main_v19) (val V0 main_v33) :=
  Cert.LibStraightLine.binary_at (ops := ops (F := F)) (V := V0) (a := main_v19) (b := main_v33) (y := main_v34) (f := (addi : (⟨S3300000, .i32⟩ : BufTy).Contents (Elt F) → (⟨S3300000, .i32⟩ : BufTy).Contents (Elt F) → (⟨S3300000, .i32⟩ : BufTy).Contents (Elt F))) (ha := by decide) (hb := by decide) (hy := by decide) 45 (lt_len (by decide)) rfl (nw 46 (by decide +kernel)) (nw 45 (by decide +kernel)) (nw 45 (by decide +kernel))
theorem at_main_v35 : val V0 main_v35 = (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) (val V0 main_v32) (val V0 main_v34) (val V0 main_v19) :=
  Cert.LibStraightLine.ternary_at (ops := ops (F := F)) (V := V0) (c := main_v32) (a := main_v34) (b := main_v19) (y := main_v35) (f := (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F))) (hc := by decide) (ha := by decide) (hb := by decide) (hy := by decide) 46 (lt_len (by decide)) rfl (nw 47 (by decide +kernel)) (nw 46 (by decide +kernel)) (nw 46 (by decide +kernel)) (nw 46 (by decide +kernel))
theorem at_main_v36 : val V0 main_v36 = (broadcastInDim S3300000x1 ![0] bcast_S3300000_S3300000x1_0 : (⟨S3300000, .i32⟩ : BufTy).Contents (Elt F) → (⟨S3300000x1, .i32⟩ : BufTy).Contents (Elt F)) (val V0 main_v35) :=
  Cert.LibStraightLine.unary_at (ops := ops (F := F)) (V := V0) (x := main_v35) (y := main_v36) (f := (broadcastInDim S3300000x1 ![0] bcast_S3300000_S3300000x1_0 : (⟨S3300000, .i32⟩ : BufTy).Contents (Elt F) → (⟨S3300000x1, .i32⟩ : BufTy).Contents (Elt F))) (hx := by decide) (hy := by decide) 47 (lt_len (by decide)) rfl (nw 48 (by decide +kernel)) (nw 47 (by decide +kernel))
theorem at_main_v37 : val V0 main_v37 = ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) (val V0 main_v30) (val V0 main_v36) :=
  Cert.LibStraightLine.binary_at (ops := ops (F := F)) (V := V0) (a := main_v30) (b := main_v36) (y := main_v37) (f := ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F))) (ha := by decide) (hb := by decide) (hy := by decide) 48 (lt_len (by decide)) rfl (nw 49 (by decide +kernel)) (nw 48 (by decide +kernel)) (nw 48 (by decide +kernel))
theorem at_main_v38 : val V0 main_v38 = (mulf : (⟨S3300000, .f32⟩ : BufTy).Contents (Elt F) → (⟨S3300000, .f32⟩ : BufTy).Contents (Elt F) → (⟨S3300000, .f32⟩ : BufTy).Contents (Elt F)) (val V0 main_v37) (val V0 main_v23) :=
  Cert.LibStraightLine.binary_at (ops := ops (F := F)) (V := V0) (a := main_v37) (b := main_v23) (y := main_v38) (f := (mulf : (⟨S3300000, .f32⟩ : BufTy).Contents (Elt F) → (⟨S3300000, .f32⟩ : BufTy).Contents (Elt F) → (⟨S3300000, .f32⟩ : BufTy).Contents (Elt F))) (ha := by decide) (hb := by decide) (hy := by decide) 49 (lt_len (by decide)) rfl (nw 50 (by decide +kernel)) (nw 49 (by decide +kernel)) (nw 49 (by decide +kernel))
theorem at_main_c_7 : val V0 main_c_7 = (constantI S_ 32 0#32) :=
  Cert.LibStraightLine.nullary_at (ops := ops (F := F)) (V := V0) (y := main_c_7) (v := (constantI S_ 32 0#32)) (hy := by decide) 50 (lt_len (by decide)) rfl (nw 51 (by decide +kernel))
theorem at_main_v39 : val V0 main_v39 = (broadcastInDim S3300000 ![] bcast_S_S3300000 : (⟨S_, .i32⟩ : BufTy).Contents (Elt F) → (⟨S3300000, .i32⟩ : BufTy).Contents (Elt F)) (val V0 main_c_7) :=
  Cert.LibStraightLine.unary_at (ops := ops (F := F)) (V := V0) (x := main_c_7) (y := main_v39) (f := (broadcastInDim S3300000 ![] bcast_S_S3300000 : (⟨S_, .i32⟩ : BufTy).Contents (Elt F) → (⟨S3300000, .i32⟩ : BufTy).Contents (Elt F))) (hx := by decide) (hy := by decide) 51 (lt_len (by decide)) rfl (nw 52 (by decide +kernel)) (nw 51 (by decide +kernel))

end Cert.ReferenceIdeal.Line

end
-- ==== Proof.RefStages2.lean ====
/- GENERATED by: bun scratch/gen_tables.js $KIT/certs/proofs/170179_j64828236366589_1_alg — a table, one line per host operation, of the reference's buffers after its whole line, operations 53 to 78: the buffer operation k writes holds that
   operation's function of what its operand buffers hold (no buffer is written twice and operands are written earlier, so all are read
   after the whole line). -/
import proofs.«170179_j64828236366589_1_alg».proof.Proof.RefLine

noncomputable section

set_option maxHeartbeats 4000000

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

theorem at_main_v40 : val V0 main_v40 = (cmpi .slt : (⟨S3300000, .i32⟩ : BufTy).Contents (Elt F) → (⟨S3300000, .i32⟩ : BufTy).Contents (Elt F) → (⟨S3300000, .i1⟩ : BufTy).Contents (Elt F)) (val V0 main_v22) (val V0 main_v39) :=
  Cert.LibStraightLine.binary_at (ops := ops (F := F)) (V := V0) (a := main_v22) (b := main_v39) (y := main_v40) (f := (cmpi .slt : (⟨S3300000, .i32⟩ : BufTy).Contents (Elt F) → (⟨S3300000, .i32⟩ : BufTy).Contents (Elt F) → (⟨S3300000, .i1⟩ : BufTy).Contents (Elt F))) (ha := by decide) (hb := by decide) (hy := by decide) 52 (lt_len (by decide)) rfl (nw 53 (by decide +kernel)) (nw 52 (by decide +kernel)) (nw 52 (by decide +kernel))
theorem at_main_c_8 : val V0 main_c_8 = (constantI S_ 32 100000#32) :=
  Cert.LibStraightLine.nullary_at (ops := ops (F := F)) (V := V0) (y := main_c_8) (v := (constantI S_ 32 100000#32)) (hy := by decide) 53 (lt_len (by decide)) rfl (nw 54 (by decide +kernel))
theorem at_main_v41 : val V0 main_v41 = (broadcastInDim S3300000 ![] bcast_S_S3300000 : (⟨S_, .i32⟩ : BufTy).Contents (Elt F) → (⟨S3300000, .i32⟩ : BufTy).Contents (Elt F)) (val V0 main_c_8) :=
  Cert.LibStraightLine.unary_at (ops := ops (F := F)) (V := V0) (x := main_c_8) (y := main_v41) (f := (broadcastInDim S3300000 ![] bcast_S_S3300000 : (⟨S_, .i32⟩ : BufTy).Contents (Elt F) → (⟨S3300000, .i32⟩ : BufTy).Contents (Elt F))) (hx := by decide) (hy := by decide) 54 (lt_len (by decide)) rfl (nw 55 (by decide +kernel)) (nw 54 (by decide +kernel))
theorem at_main_v42 : val V0 main_v42 = (addi : (⟨S3300000, .i32⟩ : BufTy).Contents (Elt F) → (⟨S3300000, .i32⟩ : BufTy).Contents (Elt F) → (⟨S3300000, .i32⟩ : BufTy).Contents (Elt F)) (val V0 main_v22) (val V0 main_v41) :=
  Cert.LibStraightLine.binary_at (ops := ops (F := F)) (V := V0) (a := main_v22) (b := main_v41) (y := main_v42) (f := (addi : (⟨S3300000, .i32⟩ : BufTy).Contents (Elt F) → (⟨S3300000, .i32⟩ : BufTy).Contents (Elt F) → (⟨S3300000, .i32⟩ : BufTy).Contents (Elt F))) (ha := by decide) (hb := by decide) (hy := by decide) 55 (lt_len (by decide)) rfl (nw 56 (by decide +kernel)) (nw 55 (by decide +kernel)) (nw 55 (by decide +kernel))
theorem at_main_v43 : val V0 main_v43 = (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) (val V0 main_v40) (val V0 main_v42) (val V0 main_v22) :=
  Cert.LibStraightLine.ternary_at (ops := ops (F := F)) (V := V0) (c := main_v40) (a := main_v42) (b := main_v22) (y := main_v43) (f := (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F))) (hc := by decide) (ha := by decide) (hb := by decide) (hy := by decide) 56 (lt_len (by decide)) rfl (nw 57 (by decide +kernel)) (nw 56 (by decide +kernel)) (nw 56 (by decide +kernel)) (nw 56 (by decide +kernel))
theorem at_main_v44 : val V0 main_v44 = (broadcastInDim S3300000x1 ![0] bcast_S3300000_S3300000x1_0 : (⟨S3300000, .i32⟩ : BufTy).Contents (Elt F) → (⟨S3300000x1, .i32⟩ : BufTy).Contents (Elt F)) (val V0 main_v43) :=
  Cert.LibStraightLine.unary_at (ops := ops (F := F)) (V := V0) (x := main_v43) (y := main_v44) (f := (broadcastInDim S3300000x1 ![0] bcast_S3300000_S3300000x1_0 : (⟨S3300000, .i32⟩ : BufTy).Contents (Elt F) → (⟨S3300000x1, .i32⟩ : BufTy).Contents (Elt F))) (hx := by decide) (hy := by decide) 57 (lt_len (by decide)) rfl (nw 58 (by decide +kernel)) (nw 57 (by decide +kernel))
theorem at_main_v45 : val V0 main_v45 = ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) (val V0 main_v30) (val V0 main_v44) :=
  Cert.LibStraightLine.binary_at (ops := ops (F := F)) (V := V0) (a := main_v30) (b := main_v44) (y := main_v45) (f := ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F))) (ha := by decide) (hb := by decide) (hy := by decide) 58 (lt_len (by decide)) rfl (nw 59 (by decide +kernel)) (nw 58 (by decide +kernel)) (nw 58 (by decide +kernel))
theorem at_main_v46 : val V0 main_v46 = (mulf : (⟨S3300000, .f32⟩ : BufTy).Contents (Elt F) → (⟨S3300000, .f32⟩ : BufTy).Contents (Elt F) → (⟨S3300000, .f32⟩ : BufTy).Contents (Elt F)) (val V0 main_v38) (val V0 main_v45) :=
  Cert.LibStraightLine.binary_at (ops := ops (F := F)) (V := V0) (a := main_v38) (b := main_v45) (y := main_v46) (f := (mulf : (⟨S3300000, .f32⟩ : BufTy).Contents (Elt F) → (⟨S3300000, .f32⟩ : BufTy).Contents (Elt F) → (⟨S3300000, .f32⟩ : BufTy).Contents (Elt F))) (ha := by decide) (hb := by decide) (hy := by decide) 59 (lt_len (by decide)) rfl (nw 60 (by decide +kernel)) (nw 59 (by decide +kernel)) (nw 59 (by decide +kernel))
theorem at_main_cst_9 : val V0 main_cst_9 = (constant S_ .f32 0x00000000#32) :=
  Cert.LibStraightLine.nullary_at (ops := ops (F := F)) (V := V0) (y := main_cst_9) (v := (constant S_ .f32 0x00000000#32)) (hy := by decide) 60 (lt_len (by decide)) rfl (nw 61 (by decide +kernel))
theorem at_main_v47 : val V0 main_v47 = (broadcastInDim S100000 ![] bcast_S_S100000 : (⟨S_, .f32⟩ : BufTy).Contents (Elt F) → (⟨S100000, .f32⟩ : BufTy).Contents (Elt F)) (val V0 main_cst_9) :=
  Cert.LibStraightLine.unary_at (ops := ops (F := F)) (V := V0) (x := main_cst_9) (y := main_v47) (f := (broadcastInDim S100000 ![] bcast_S_S100000 : (⟨S_, .f32⟩ : BufTy).Contents (Elt F) → (⟨S100000, .f32⟩ : BufTy).Contents (Elt F))) (hx := by decide) (hy := by decide) 61 (lt_len (by decide)) rfl (nw 62 (by decide +kernel)) (nw 61 (by decide +kernel))
theorem at_main_v48 : val V0 main_v48 = (broadcastInDim S3300000x1 ![0] bcast_S3300000_S3300000x1_0 : (⟨S3300000, .i32⟩ : BufTy).Contents (Elt F) → (⟨S3300000x1, .i32⟩ : BufTy).Contents (Elt F)) (val V0 main_v19) :=
  Cert.LibStraightLine.unary_at (ops := ops (F := F)) (V := V0) (x := main_v19) (y := main_v48) (f := (broadcastInDim S3300000x1 ![0] bcast_S3300000_S3300000x1_0 : (⟨S3300000, .i32⟩ : BufTy).Contents (Elt F) → (⟨S3300000x1, .i32⟩ : BufTy).Contents (Elt F))) (hx := by decide) (hy := by decide) 62 (lt_len (by decide)) rfl (nw 63 (by decide +kernel)) (nw 62 (by decide +kernel))
theorem at_main_v49 : val V0 main_v49 = ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) (val V0 main_v47) (val V0 main_v48) (val V0 main_v46) :=
  Cert.LibStraightLine.ternary_at (ops := ops (F := F)) (V := V0) (c := main_v47) (a := main_v48) (b := main_v46) (y := main_v49) (f := ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F))) (hc := by decide) (ha := by decide) (hb := by decide) (hy := by decide) 63 (lt_len (by decide)) rfl (nw 64 (by decide +kernel)) (nw 63 (by decide +kernel)) (nw 63 (by decide +kernel)) (nw 63 (by decide +kernel))
theorem at_main_v50 : val V0 main_v50 = (broadcastInDim S3300000x1 ![0] bcast_S3300000_S3300000x1_0 : (⟨S3300000, .f32⟩ : BufTy).Contents (Elt F) → (⟨S3300000x1, .f32⟩ : BufTy).Contents (Elt F)) (val V0 main_v46) :=
  Cert.LibStraightLine.unary_at (ops := ops (F := F)) (V := V0) (x := main_v46) (y := main_v50) (f := (broadcastInDim S3300000x1 ![0] bcast_S3300000_S3300000x1_0 : (⟨S3300000, .f32⟩ : BufTy).Contents (Elt F) → (⟨S3300000x1, .f32⟩ : BufTy).Contents (Elt F))) (hx := by decide) (hy := by decide) 64 (lt_len (by decide)) rfl (nw 65 (by decide +kernel)) (nw 64 (by decide +kernel))
theorem at_main_c_10 : val V0 main_c_10 = (constantI S_ 32 0#32) :=
  Cert.LibStraightLine.nullary_at (ops := ops (F := F)) (V := V0) (y := main_c_10) (v := (constantI S_ 32 0#32)) (hy := by decide) 65 (lt_len (by decide)) rfl (nw 66 (by decide +kernel))
theorem at_main_v51 : val V0 main_v51 = (broadcastInDim S3300000 ![] bcast_S_S3300000 : (⟨S_, .i32⟩ : BufTy).Contents (Elt F) → (⟨S3300000, .i32⟩ : BufTy).Contents (Elt F)) (val V0 main_c_10) :=
  Cert.LibStraightLine.unary_at (ops := ops (F := F)) (V := V0) (x := main_c_10) (y := main_v51) (f := (broadcastInDim S3300000 ![] bcast_S_S3300000 : (⟨S_, .i32⟩ : BufTy).Contents (Elt F) → (⟨S3300000, .i32⟩ : BufTy).Contents (Elt F))) (hx := by decide) (hy := by decide) 66 (lt_len (by decide)) rfl (nw 67 (by decide +kernel)) (nw 66 (by decide +kernel))
theorem at_main_v52 : val V0 main_v52 = (cmpi .slt : (⟨S3300000, .i32⟩ : BufTy).Contents (Elt F) → (⟨S3300000, .i32⟩ : BufTy).Contents (Elt F) → (⟨S3300000, .i1⟩ : BufTy).Contents (Elt F)) (val V0 main_v22) (val V0 main_v51) :=
  Cert.LibStraightLine.binary_at (ops := ops (F := F)) (V := V0) (a := main_v22) (b := main_v51) (y := main_v52) (f := (cmpi .slt : (⟨S3300000, .i32⟩ : BufTy).Contents (Elt F) → (⟨S3300000, .i32⟩ : BufTy).Contents (Elt F) → (⟨S3300000, .i1⟩ : BufTy).Contents (Elt F))) (ha := by decide) (hb := by decide) (hy := by decide) 67 (lt_len (by decide)) rfl (nw 68 (by decide +kernel)) (nw 67 (by decide +kernel)) (nw 67 (by decide +kernel))
theorem at_main_c_11 : val V0 main_c_11 = (constantI S_ 32 100000#32) :=
  Cert.LibStraightLine.nullary_at (ops := ops (F := F)) (V := V0) (y := main_c_11) (v := (constantI S_ 32 100000#32)) (hy := by decide) 68 (lt_len (by decide)) rfl (nw 69 (by decide +kernel))
theorem at_main_v53 : val V0 main_v53 = (broadcastInDim S3300000 ![] bcast_S_S3300000 : (⟨S_, .i32⟩ : BufTy).Contents (Elt F) → (⟨S3300000, .i32⟩ : BufTy).Contents (Elt F)) (val V0 main_c_11) :=
  Cert.LibStraightLine.unary_at (ops := ops (F := F)) (V := V0) (x := main_c_11) (y := main_v53) (f := (broadcastInDim S3300000 ![] bcast_S_S3300000 : (⟨S_, .i32⟩ : BufTy).Contents (Elt F) → (⟨S3300000, .i32⟩ : BufTy).Contents (Elt F))) (hx := by decide) (hy := by decide) 69 (lt_len (by decide)) rfl (nw 70 (by decide +kernel)) (nw 69 (by decide +kernel))
theorem at_main_v54 : val V0 main_v54 = (addi : (⟨S3300000, .i32⟩ : BufTy).Contents (Elt F) → (⟨S3300000, .i32⟩ : BufTy).Contents (Elt F) → (⟨S3300000, .i32⟩ : BufTy).Contents (Elt F)) (val V0 main_v22) (val V0 main_v53) :=
  Cert.LibStraightLine.binary_at (ops := ops (F := F)) (V := V0) (a := main_v22) (b := main_v53) (y := main_v54) (f := (addi : (⟨S3300000, .i32⟩ : BufTy).Contents (Elt F) → (⟨S3300000, .i32⟩ : BufTy).Contents (Elt F) → (⟨S3300000, .i32⟩ : BufTy).Contents (Elt F))) (ha := by decide) (hb := by decide) (hy := by decide) 70 (lt_len (by decide)) rfl (nw 71 (by decide +kernel)) (nw 70 (by decide +kernel)) (nw 70 (by decide +kernel))
theorem at_main_v55 : val V0 main_v55 = (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) (val V0 main_v52) (val V0 main_v54) (val V0 main_v22) :=
  Cert.LibStraightLine.ternary_at (ops := ops (F := F)) (V := V0) (c := main_v52) (a := main_v54) (b := main_v22) (y := main_v55) (f := (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F))) (hc := by decide) (ha := by decide) (hb := by decide) (hy := by decide) 71 (lt_len (by decide)) rfl (nw 72 (by decide +kernel)) (nw 71 (by decide +kernel)) (nw 71 (by decide +kernel)) (nw 71 (by decide +kernel))
theorem at_main_v56 : val V0 main_v56 = (broadcastInDim S3300000x1 ![0] bcast_S3300000_S3300000x1_0 : (⟨S3300000, .i32⟩ : BufTy).Contents (Elt F) → (⟨S3300000x1, .i32⟩ : BufTy).Contents (Elt F)) (val V0 main_v55) :=
  Cert.LibStraightLine.unary_at (ops := ops (F := F)) (V := V0) (x := main_v55) (y := main_v56) (f := (broadcastInDim S3300000x1 ![0] bcast_S3300000_S3300000x1_0 : (⟨S3300000, .i32⟩ : BufTy).Contents (Elt F) → (⟨S3300000x1, .i32⟩ : BufTy).Contents (Elt F))) (hx := by decide) (hy := by decide) 72 (lt_len (by decide)) rfl (nw 73 (by decide +kernel)) (nw 72 (by decide +kernel))
theorem at_main_v57 : val V0 main_v57 = ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)) (val V0 main_v15) (val V0 main_v56) :=
  Cert.LibStraightLine.binary_at (ops := ops (F := F)) (V := V0) (a := main_v15) (b := main_v56) (y := main_v57) (f := ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F))) (ha := by decide) (hb := by decide) (hy := by decide) 73 (lt_len (by decide)) rfl (nw 74 (by decide +kernel)) (nw 73 (by decide +kernel)) (nw 73 (by decide +kernel))
theorem at_main_v58 : val V0 main_v58 = (broadcastInDim S3300000x16 ![0, 1] bcast_S3300000x1_S3300000x16_0_1 : (⟨S3300000x1, .f32⟩ : BufTy).Contents (Elt F) → (⟨S3300000x16, .f32⟩ : BufTy).Contents (Elt F)) (val V0 main_v50) :=
  Cert.LibStraightLine.unary_at (ops := ops (F := F)) (V := V0) (x := main_v50) (y := main_v58) (f := (broadcastInDim S3300000x16 ![0, 1] bcast_S3300000x1_S3300000x16_0_1 : (⟨S3300000x1, .f32⟩ : BufTy).Contents (Elt F) → (⟨S3300000x16, .f32⟩ : BufTy).Contents (Elt F))) (hx := by decide) (hy := by decide) 74 (lt_len (by decide)) rfl (nw 75 (by decide +kernel)) (nw 74 (by decide +kernel))
theorem at_main_v59 : val V0 main_v59 = (mulf : (⟨S3300000x16, .f32⟩ : BufTy).Contents (Elt F) → (⟨S3300000x16, .f32⟩ : BufTy).Contents (Elt F) → (⟨S3300000x16, .f32⟩ : BufTy).Contents (Elt F)) (val V0 main_v58) (val V0 main_v57) :=
  Cert.LibStraightLine.binary_at (ops := ops (F := F)) (V := V0) (a := main_v58) (b := main_v57) (y := main_v59) (f := (mulf : (⟨S3300000x16, .f32⟩ : BufTy).Contents (Elt F) → (⟨S3300000x16, .f32⟩ : BufTy).Contents (Elt F) → (⟨S3300000x16, .f32⟩ : BufTy).Contents (Elt F))) (ha := by decide) (hb := by decide) (hy := by decide) 75 (lt_len (by decide)) rfl (nw 76 (by decide +kernel)) (nw 75 (by decide +kernel)) (nw 75 (by decide +kernel))
theorem at_main_cst_12 : val V0 main_cst_12 = (constant S_ .f32 0x00000000#32) :=
  Cert.LibStraightLine.nullary_at (ops := ops (F := F)) (V := V0) (y := main_cst_12) (v := (constant S_ .f32 0x00000000#32)) (hy := by decide) 76 (lt_len (by decide)) rfl (nw 77 (by decide +kernel))
theorem at_main_v60 : val V0 main_v60 = (broadcastInDim S100000x16 ![] bcast_S_S100000x16 : (⟨S_, .f32⟩ : BufTy).Contents (Elt F) → (⟨S100000x16, .f32⟩ : BufTy).Contents (Elt F)) (val V0 main_cst_12) :=
  Cert.LibStraightLine.unary_at (ops := ops (F := F)) (V := V0) (x := main_cst_12) (y := main_v60) (f := (broadcastInDim S100000x16 ![] bcast_S_S100000x16 : (⟨S_, .f32⟩ : BufTy).Contents (Elt F) → (⟨S100000x16, .f32⟩ : BufTy).Contents (Elt F))) (hx := by decide) (hy := by decide) 77 (lt_len (by decide)) rfl (nw 78 (by decide +kernel)) (nw 77 (by decide +kernel))

end Cert.ReferenceIdeal.Line

end
-- ==== Proof.RefStages3.lean ====
/- GENERATED by: bun scratch/gen_tables.js $KIT/certs/proofs/170179_j64828236366589_1_alg — a table, one line per host operation, of the reference's buffers after its whole line, operations 79 to 104: the buffer operation k writes holds that
   operation's function of what its operand buffers hold (no buffer is written twice and operands are written earlier, so all are read
   after the whole line). -/
import proofs.«170179_j64828236366589_1_alg».proof.Proof.RefLine

noncomputable section

set_option maxHeartbeats 4000000

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

theorem at_main_v61 : val V0 main_v61 = (broadcastInDim S3300000x1 ![0] bcast_S3300000_S3300000x1_0 : (⟨S3300000, .i32⟩ : BufTy).Contents (Elt F) → (⟨S3300000x1, .i32⟩ : BufTy).Contents (Elt F)) (val V0 main_v19) :=
  Cert.LibStraightLine.unary_at (ops := ops (F := F)) (V := V0) (x := main_v19) (y := main_v61) (f := (broadcastInDim S3300000x1 ![0] bcast_S3300000_S3300000x1_0 : (⟨S3300000, .i32⟩ : BufTy).Contents (Elt F) → (⟨S3300000x1, .i32⟩ : BufTy).Contents (Elt F))) (hx := by decide) (hy := by decide) 78 (lt_len (by decide)) rfl (nw 79 (by decide +kernel)) (nw 78 (by decide +kernel))
theorem at_main_v62 : val V0 main_v62 = ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) (val V0 main_v60) (val V0 main_v61) (val V0 main_v59) :=
  Cert.LibStraightLine.ternary_at (ops := ops (F := F)) (V := V0) (c := main_v60) (a := main_v61) (b := main_v59) (y := main_v62) (f := ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F))) (hc := by decide) (ha := by decide) (hb := by decide) (hy := by decide) 79 (lt_len (by decide)) rfl (nw 80 (by decide +kernel)) (nw 79 (by decide +kernel)) (nw 79 (by decide +kernel)) (nw 79 (by decide +kernel))
theorem at_main_v63 : val V0 main_v63 = (broadcastInDim S100000x1 ![0] bcast_S100000_S100000x1_0 : (⟨S100000, .f32⟩ : BufTy).Contents (Elt F) → (⟨S100000x1, .f32⟩ : BufTy).Contents (Elt F)) (val V0 main_v49) :=
  Cert.LibStraightLine.unary_at (ops := ops (F := F)) (V := V0) (x := main_v49) (y := main_v63) (f := (broadcastInDim S100000x1 ![0] bcast_S100000_S100000x1_0 : (⟨S100000, .f32⟩ : BufTy).Contents (Elt F) → (⟨S100000x1, .f32⟩ : BufTy).Contents (Elt F))) (hx := by decide) (hy := by decide) 80 (lt_len (by decide)) rfl (nw 81 (by decide +kernel)) (nw 80 (by decide +kernel))
theorem at_main_v64 : val V0 main_v64 = (broadcastInDim S100000x16 ![0, 1] bcast_S100000x1_S100000x16_0_1 : (⟨S100000x1, .f32⟩ : BufTy).Contents (Elt F) → (⟨S100000x16, .f32⟩ : BufTy).Contents (Elt F)) (val V0 main_v63) :=
  Cert.LibStraightLine.unary_at (ops := ops (F := F)) (V := V0) (x := main_v63) (y := main_v64) (f := (broadcastInDim S100000x16 ![0, 1] bcast_S100000x1_S100000x16_0_1 : (⟨S100000x1, .f32⟩ : BufTy).Contents (Elt F) → (⟨S100000x16, .f32⟩ : BufTy).Contents (Elt F))) (hx := by decide) (hy := by decide) 81 (lt_len (by decide)) rfl (nw 82 (by decide +kernel)) (nw 81 (by decide +kernel))
theorem at_main_v65 : val V0 main_v65 = (mulf : (⟨S100000x16, .f32⟩ : BufTy).Contents (Elt F) → (⟨S100000x16, .f32⟩ : BufTy).Contents (Elt F) → (⟨S100000x16, .f32⟩ : BufTy).Contents (Elt F)) (val V0 main_v64) (val V0 main_v15) :=
  Cert.LibStraightLine.binary_at (ops := ops (F := F)) (V := V0) (a := main_v64) (b := main_v15) (y := main_v65) (f := (mulf : (⟨S100000x16, .f32⟩ : BufTy).Contents (Elt F) → (⟨S100000x16, .f32⟩ : BufTy).Contents (Elt F) → (⟨S100000x16, .f32⟩ : BufTy).Contents (Elt F))) (ha := by decide) (hb := by decide) (hy := by decide) 82 (lt_len (by decide)) rfl (nw 83 (by decide +kernel)) (nw 82 (by decide +kernel)) (nw 82 (by decide +kernel))
theorem at_main_v66 : val V0 main_v66 = (subf : (⟨S100000x16, .f32⟩ : BufTy).Contents (Elt F) → (⟨S100000x16, .f32⟩ : BufTy).Contents (Elt F) → (⟨S100000x16, .f32⟩ : BufTy).Contents (Elt F)) (val V0 main_v65) (val V0 main_v62) :=
  Cert.LibStraightLine.binary_at (ops := ops (F := F)) (V := V0) (a := main_v65) (b := main_v62) (y := main_v66) (f := (subf : (⟨S100000x16, .f32⟩ : BufTy).Contents (Elt F) → (⟨S100000x16, .f32⟩ : BufTy).Contents (Elt F) → (⟨S100000x16, .f32⟩ : BufTy).Contents (Elt F))) (ha := by decide) (hb := by decide) (hy := by decide) 83 (lt_len (by decide)) rfl (nw 84 (by decide +kernel)) (nw 83 (by decide +kernel)) (nw 83 (by decide +kernel))
theorem at_main_v67 : val V0 main_v67 = (mulf : (⟨S100000x16, .f32⟩ : BufTy).Contents (Elt F) → (⟨S100000x16, .f32⟩ : BufTy).Contents (Elt F) → (⟨S100000x16, .f32⟩ : BufTy).Contents (Elt F)) (val V0 main_v15) (val V0 main_v66) :=
  Cert.LibStraightLine.binary_at (ops := ops (F := F)) (V := V0) (a := main_v15) (b := main_v66) (y := main_v67) (f := (mulf : (⟨S100000x16, .f32⟩ : BufTy).Contents (Elt F) → (⟨S100000x16, .f32⟩ : BufTy).Contents (Elt F) → (⟨S100000x16, .f32⟩ : BufTy).Contents (Elt F))) (ha := by decide) (hb := by decide) (hy := by decide) 84 (lt_len (by decide)) rfl (nw 85 (by decide +kernel)) (nw 84 (by decide +kernel)) (nw 84 (by decide +kernel))
theorem at_main_cst_13 : val V0 main_cst_13 = (constant S_ .f32 0x00000000#32) :=
  Cert.LibStraightLine.nullary_at (ops := ops (F := F)) (V := V0) (y := main_cst_13) (v := (constant S_ .f32 0x00000000#32)) (hy := by decide) 85 (lt_len (by decide)) rfl (nw 86 (by decide +kernel))
theorem at_main_v68 : val V0 main_v68 = ((fun x v => Host.reduceAdd x v reducesTo_S100000x16_S_d0_1 h_S_) : (⟨S100000x16, .f32⟩ : BufTy).Contents (Elt F) → (⟨S_, .f32⟩ : BufTy).Contents (Elt F) → (⟨S_, .f32⟩ : BufTy).Contents (Elt F)) (val V0 main_v67) (val V0 main_cst_13) :=
  Cert.LibStraightLine.binary_at (ops := ops (F := F)) (V := V0) (a := main_v67) (b := main_cst_13) (y := main_v68) (f := ((fun x v => Host.reduceAdd x v reducesTo_S100000x16_S_d0_1 h_S_) : (⟨S100000x16, .f32⟩ : BufTy).Contents (Elt F) → (⟨S_, .f32⟩ : BufTy).Contents (Elt F) → (⟨S_, .f32⟩ : BufTy).Contents (Elt F))) (ha := by decide) (hb := by decide) (hy := by decide) 86 (lt_len (by decide)) rfl (nw 87 (by decide +kernel)) (nw 86 (by decide +kernel)) (nw 86 (by decide +kernel))
theorem at_main_v69 : val V0 main_v69 = ((fun a b => concatenate S100000x272 1 [⟨S100000x256, a⟩, ⟨S100000x16, b⟩] concatenates_S100000x256_S100000x16_S100000x272_d1) : (⟨S100000x256, .f32⟩ : BufTy).Contents (Elt F) → (⟨S100000x16, .f32⟩ : BufTy).Contents (Elt F) → (⟨S100000x272, .f32⟩ : BufTy).Contents (Elt F)) (val V0 main_v4) (val V0 main_v15) :=
  Cert.LibStraightLine.binary_at (ops := ops (F := F)) (V := V0) (a := main_v4) (b := main_v15) (y := main_v69) (f := ((fun a b => concatenate S100000x272 1 [⟨S100000x256, a⟩, ⟨S100000x16, b⟩] concatenates_S100000x256_S100000x16_S100000x272_d1) : (⟨S100000x256, .f32⟩ : BufTy).Contents (Elt F) → (⟨S100000x16, .f32⟩ : BufTy).Contents (Elt F) → (⟨S100000x272, .f32⟩ : BufTy).Contents (Elt F))) (ha := by decide) (hb := by decide) (hy := by decide) 87 (lt_len (by decide)) rfl (nw 88 (by decide +kernel)) (nw 87 (by decide +kernel)) (nw 87 (by decide +kernel))
theorem at_main_v70 : val V0 main_v70 = ((transpose S272x1024 [1, 0] · transposes_S1024x272_S272x1024_1_0) : (⟨S1024x272, .f32⟩ : BufTy).Contents (Elt F) → (⟨S272x1024, .f32⟩ : BufTy).Contents (Elt F)) (val V0 main_arg5) :=
  Cert.LibStraightLine.unary_at (ops := ops (F := F)) (V := V0) (x := main_arg5) (y := main_v70) (f := ((transpose S272x1024 [1, 0] · transposes_S1024x272_S272x1024_1_0) : (⟨S1024x272, .f32⟩ : BufTy).Contents (Elt F) → (⟨S272x1024, .f32⟩ : BufTy).Contents (Elt F))) (hx := by decide) (hy := by decide) 88 (lt_len (by decide)) rfl (nw 89 (by decide +kernel)) (nw 88 (by decide +kernel))
theorem at_main_v71 : val V0 main_v71 = ((fun l r => Host.dotGeneral dot_S100000x272_S272x1024_S100000x1024_1_0_0_1_n_n none l r) : (⟨S100000x272, .f32⟩ : BufTy).Contents (Elt F) → (⟨S272x1024, .f32⟩ : BufTy).Contents (Elt F) → (⟨S100000x1024, .f32⟩ : BufTy).Contents (Elt F)) (val V0 main_v69) (val V0 main_v70) :=
  Cert.LibStraightLine.binary_at (ops := ops (F := F)) (V := V0) (a := main_v69) (b := main_v70) (y := main_v71) (f := ((fun l r => Host.dotGeneral dot_S100000x272_S272x1024_S100000x1024_1_0_0_1_n_n none l r) : (⟨S100000x272, .f32⟩ : BufTy).Contents (Elt F) → (⟨S272x1024, .f32⟩ : BufTy).Contents (Elt F) → (⟨S100000x1024, .f32⟩ : BufTy).Contents (Elt F))) (ha := by decide) (hb := by decide) (hy := by decide) 89 (lt_len (by decide)) rfl (nw 90 (by decide +kernel)) (nw 89 (by decide +kernel)) (nw 89 (by decide +kernel))
theorem at_main_v72 : val V0 main_v72 = (broadcastInDim S1x1024 ![1] bcast_S1024_S1x1024_1 : (⟨S1024, .f32⟩ : BufTy).Contents (Elt F) → (⟨S1x1024, .f32⟩ : BufTy).Contents (Elt F)) (val V0 main_arg6) :=
  Cert.LibStraightLine.unary_at (ops := ops (F := F)) (V := V0) (x := main_arg6) (y := main_v72) (f := (broadcastInDim S1x1024 ![1] bcast_S1024_S1x1024_1 : (⟨S1024, .f32⟩ : BufTy).Contents (Elt F) → (⟨S1x1024, .f32⟩ : BufTy).Contents (Elt F))) (hx := by decide) (hy := by decide) 90 (lt_len (by decide)) rfl (nw 91 (by decide +kernel)) (nw 90 (by decide +kernel))
theorem at_main_v73 : val V0 main_v73 = (broadcastInDim S100000x1024 ![0, 1] bcast_S1x1024_S100000x1024_0_1 : (⟨S1x1024, .f32⟩ : BufTy).Contents (Elt F) → (⟨S100000x1024, .f32⟩ : BufTy).Contents (Elt F)) (val V0 main_v72) :=
  Cert.LibStraightLine.unary_at (ops := ops (F := F)) (V := V0) (x := main_v72) (y := main_v73) (f := (broadcastInDim S100000x1024 ![0, 1] bcast_S1x1024_S100000x1024_0_1 : (⟨S1x1024, .f32⟩ : BufTy).Contents (Elt F) → (⟨S100000x1024, .f32⟩ : BufTy).Contents (Elt F))) (hx := by decide) (hy := by decide) 91 (lt_len (by decide)) rfl (nw 92 (by decide +kernel)) (nw 91 (by decide +kernel))
theorem at_main_v74 : val V0 main_v74 = (addf : (⟨S100000x1024, .f32⟩ : BufTy).Contents (Elt F) → (⟨S100000x1024, .f32⟩ : BufTy).Contents (Elt F) → (⟨S100000x1024, .f32⟩ : BufTy).Contents (Elt F)) (val V0 main_v71) (val V0 main_v73) :=
  Cert.LibStraightLine.binary_at (ops := ops (F := F)) (V := V0) (a := main_v71) (b := main_v73) (y := main_v74) (f := (addf : (⟨S100000x1024, .f32⟩ : BufTy).Contents (Elt F) → (⟨S100000x1024, .f32⟩ : BufTy).Contents (Elt F) → (⟨S100000x1024, .f32⟩ : BufTy).Contents (Elt F))) (ha := by decide) (hb := by decide) (hy := by decide) 92 (lt_len (by decide)) rfl (nw 93 (by decide +kernel)) (nw 92 (by decide +kernel)) (nw 92 (by decide +kernel))
theorem at_main_cst_14 : val V0 main_cst_14 = (constant S_ .f32 0x44800000#32) :=
  Cert.LibStraightLine.nullary_at (ops := ops (F := F)) (V := V0) (y := main_cst_14) (v := (constant S_ .f32 0x44800000#32)) (hy := by decide) 93 (lt_len (by decide)) rfl (nw 94 (by decide +kernel))
theorem at_main_call1_cst : val V0 main_call1_cst = ((constant S_ .f32 0x00000000#32) : (⟨S_, .f32⟩ : BufTy).Contents (Elt F)) :=
  Cert.LibStraightLine.nullary_at (ops := ops (F := F)) (V := V0) (y := main_call1_cst) (v := ((constant S_ .f32 0x00000000#32) : (⟨S_, .f32⟩ : BufTy).Contents (Elt F))) (hy := by decide) 94 (lt_len (by decide)) rfl (nw 95 (by decide +kernel))
theorem at_main_call1_v0 : val V0 main_call1_v0 = ((broadcastInDim S100000x1024 ![] bcast_S_S100000x1024) : (⟨S_, .f32⟩ : BufTy).Contents (Elt F) → (⟨S100000x1024, .f32⟩ : BufTy).Contents (Elt F)) (val V0 main_call1_cst) :=
  Cert.LibStraightLine.unary_at (ops := ops (F := F)) (V := V0) (x := main_call1_cst) (y := main_call1_v0) (f := ((broadcastInDim S100000x1024 ![] bcast_S_S100000x1024) : (⟨S_, .f32⟩ : BufTy).Contents (Elt F) → (⟨S100000x1024, .f32⟩ : BufTy).Contents (Elt F))) (hx := by decide) (hy := by decide) 95 (lt_len (by decide)) rfl (nw 96 (by decide +kernel)) (nw 95 (by decide +kernel))
theorem at_main_call1_v1 : val V0 main_call1_v1 = ((cmpf .oge) : (⟨S100000x1024, .f32⟩ : BufTy).Contents (Elt F) → (⟨S100000x1024, .f32⟩ : BufTy).Contents (Elt F) → (⟨S100000x1024, .i1⟩ : BufTy).Contents (Elt F)) (val V0 main_v74) (val V0 main_call1_v0) :=
  Cert.LibStraightLine.binary_at (ops := ops (F := F)) (V := V0) (a := main_v74) (b := main_call1_v0) (y := main_call1_v1) (f := ((cmpf .oge) : (⟨S100000x1024, .f32⟩ : BufTy).Contents (Elt F) → (⟨S100000x1024, .f32⟩ : BufTy).Contents (Elt F) → (⟨S100000x1024, .i1⟩ : BufTy).Contents (Elt F))) (ha := by decide) (hb := by decide) (hy := by decide) 96 (lt_len (by decide)) rfl (nw 97 (by decide +kernel)) (nw 96 (by decide +kernel)) (nw 96 (by decide +kernel))
theorem at_main_call1_v2 : val V0 main_call1_v2 = (id : (⟨S_, .f32⟩ : BufTy).Contents (Elt F) → (⟨S_, .f32⟩ : BufTy).Contents (Elt F)) (val V0 main_cst_14) :=
  Cert.LibStraightLine.unary_at (ops := ops (F := F)) (V := V0) (x := main_cst_14) (y := main_call1_v2) (f := (id : (⟨S_, .f32⟩ : BufTy).Contents (Elt F) → (⟨S_, .f32⟩ : BufTy).Contents (Elt F))) (hx := by decide) (hy := by decide) 97 (lt_len (by decide)) rfl (nw 98 (by decide +kernel)) (nw 97 (by decide +kernel))
theorem at_main_call1_v3 : val V0 main_call1_v3 = ((broadcastInDim S100000x1024 ![] bcast_S_S100000x1024) : (⟨S_, .f32⟩ : BufTy).Contents (Elt F) → (⟨S100000x1024, .f32⟩ : BufTy).Contents (Elt F)) (val V0 main_call1_v2) :=
  Cert.LibStraightLine.unary_at (ops := ops (F := F)) (V := V0) (x := main_call1_v2) (y := main_call1_v3) (f := ((broadcastInDim S100000x1024 ![] bcast_S_S100000x1024) : (⟨S_, .f32⟩ : BufTy).Contents (Elt F) → (⟨S100000x1024, .f32⟩ : BufTy).Contents (Elt F))) (hx := by decide) (hy := by decide) 98 (lt_len (by decide)) rfl (nw 99 (by decide +kernel)) (nw 98 (by decide +kernel))
theorem at_main_call1_v4 : val V0 main_call1_v4 = (mulf : (⟨S100000x1024, .f32⟩ : BufTy).Contents (Elt F) → (⟨S100000x1024, .f32⟩ : BufTy).Contents (Elt F) → (⟨S100000x1024, .f32⟩ : BufTy).Contents (Elt F)) (val V0 main_call1_v3) (val V0 main_v74) :=
  Cert.LibStraightLine.binary_at (ops := ops (F := F)) (V := V0) (a := main_call1_v3) (b := main_v74) (y := main_call1_v4) (f := (mulf : (⟨S100000x1024, .f32⟩ : BufTy).Contents (Elt F) → (⟨S100000x1024, .f32⟩ : BufTy).Contents (Elt F) → (⟨S100000x1024, .f32⟩ : BufTy).Contents (Elt F))) (ha := by decide) (hb := by decide) (hy := by decide) 99 (lt_len (by decide)) rfl (nw 100 (by decide +kernel)) (nw 99 (by decide +kernel)) (nw 99 (by decide +kernel))
theorem at_main_v75 : val V0 main_v75 = (select : (⟨S100000x1024, .i1⟩ : BufTy).Contents (Elt F) → (⟨S100000x1024, .f32⟩ : BufTy).Contents (Elt F) → (⟨S100000x1024, .f32⟩ : BufTy).Contents (Elt F) → (⟨S100000x1024, .f32⟩ : BufTy).Contents (Elt F)) (val V0 main_call1_v1) (val V0 main_v74) (val V0 main_call1_v4) :=
  Cert.LibStraightLine.ternary_at (ops := ops (F := F)) (V := V0) (c := main_call1_v1) (a := main_v74) (b := main_call1_v4) (y := main_v75) (f := (select : (⟨S100000x1024, .i1⟩ : BufTy).Contents (Elt F) → (⟨S100000x1024, .f32⟩ : BufTy).Contents (Elt F) → (⟨S100000x1024, .f32⟩ : BufTy).Contents (Elt F) → (⟨S100000x1024, .f32⟩ : BufTy).Contents (Elt F))) (hc := by decide) (ha := by decide) (hb := by decide) (hy := by decide) 100 (lt_len (by decide)) rfl (nw 101 (by decide +kernel)) (nw 100 (by decide +kernel)) (nw 100 (by decide +kernel)) (nw 100 (by decide +kernel))
theorem at_main_v76 : val V0 main_v76 = ((transpose S1024x256 [1, 0] · transposes_S256x1024_S1024x256_1_0) : (⟨S256x1024, .f32⟩ : BufTy).Contents (Elt F) → (⟨S1024x256, .f32⟩ : BufTy).Contents (Elt F)) (val V0 main_arg7) :=
  Cert.LibStraightLine.unary_at (ops := ops (F := F)) (V := V0) (x := main_arg7) (y := main_v76) (f := ((transpose S1024x256 [1, 0] · transposes_S256x1024_S1024x256_1_0) : (⟨S256x1024, .f32⟩ : BufTy).Contents (Elt F) → (⟨S1024x256, .f32⟩ : BufTy).Contents (Elt F))) (hx := by decide) (hy := by decide) 101 (lt_len (by decide)) rfl (nw 102 (by decide +kernel)) (nw 101 (by decide +kernel))
theorem at_main_v77 : val V0 main_v77 = ((fun l r => Host.dotGeneral dot_S100000x1024_S1024x256_S100000x256_1_0_0_1_n_n none l r) : (⟨S100000x1024, .f32⟩ : BufTy).Contents (Elt F) → (⟨S1024x256, .f32⟩ : BufTy).Contents (Elt F) → (⟨S100000x256, .f32⟩ : BufTy).Contents (Elt F)) (val V0 main_v75) (val V0 main_v76) :=
  Cert.LibStraightLine.binary_at (ops := ops (F := F)) (V := V0) (a := main_v75) (b := main_v76) (y := main_v77) (f := ((fun l r => Host.dotGeneral dot_S100000x1024_S1024x256_S100000x256_1_0_0_1_n_n none l r) : (⟨S100000x1024, .f32⟩ : BufTy).Contents (Elt F) → (⟨S1024x256, .f32⟩ : BufTy).Contents (Elt F) → (⟨S100000x256, .f32⟩ : BufTy).Contents (Elt F))) (ha := by decide) (hb := by decide) (hy := by decide) 102 (lt_len (by decide)) rfl (nw 103 (by decide +kernel)) (nw 102 (by decide +kernel)) (nw 102 (by decide +kernel))
theorem at_main_v78 : val V0 main_v78 = (broadcastInDim S1x256 ![1] bcast_S256_S1x256_1 : (⟨S256, .f32⟩ : BufTy).Contents (Elt F) → (⟨S1x256, .f32⟩ : BufTy).Contents (Elt F)) (val V0 main_arg8) :=
  Cert.LibStraightLine.unary_at (ops := ops (F := F)) (V := V0) (x := main_arg8) (y := main_v78) (f := (broadcastInDim S1x256 ![1] bcast_S256_S1x256_1 : (⟨S256, .f32⟩ : BufTy).Contents (Elt F) → (⟨S1x256, .f32⟩ : BufTy).Contents (Elt F))) (hx := by decide) (hy := by decide) 103 (lt_len (by decide)) rfl (nw 104 (by decide +kernel)) (nw 103 (by decide +kernel))

end Cert.ReferenceIdeal.Line

end
-- ==== Proof.KernelLine.lean ====
/- GENERATED by: bun scratch/gen_tables.js $KIT/certs/proofs/170179_j64828236366589_1_alg — a table, one line per host operation, of the idealized kernel's host operations before its region as ONE line (the three stretches in order): the buffers they write, in
   order, the line's length, that a buffer absent from the written list's tail is written by no operation from that position on, the NAME
   `val m c b` for what buffer b holds when the region is entered, and that an argument buffer holds its launch contents. -/
import proofs.«170179_j64828236366589_1_alg».proof.Proof.Gen.KernelIdeal.Frame
import proofs.«170179_j64828236366589_1_alg».proof.Proof.LibStraightLine
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The host operations before the region, the three stretches as one line. -/
abbrev line : List (HloOp τ sig (Elt F)) := List.flatten [hostOps0, hostOps0_1, hostOps0_2]

/-- The buffers they write, in order: each operation writes one, and no buffer is written twice. -/
abbrev written : List (Ref sig .tc) :=
  [main_cst, main_v0, main_cst_0, main_v1, main_v2, main_v3, main_v4, main_v5, main_v6, main_cst_1, main_v7, main_v8, main_v9, main_v10, main_v11, main_v12, main_v13, main_v14, main_v15, main_v16, main_v17, main_cst_2, main_v18, main_cst_3, main_v19, main_v20, main_v21, main_cst_4, main_v22, main_v23, main_v24, main_cst_5, main_call0_v0, main_call0_v1, main_v25, main_c, main_v26, main_v27, main_c_6, main_v28, main_v29, main_v30, main_v31, main_v32, main_v33, main_c_7, main_v34, main_v35, main_c_8, main_v36, main_v37, main_v38, main_v39, main_v40, main_v41, main_cst_9, main_v42, main_v43, main_v44, main_v45, main_c_10, main_v46, main_v47, main_c_11, main_v48, main_v49, main_v50, main_v51, main_v52, main_v53, main_v54, main_cst_12, main_v55, main_v56, main_v57, main_v58, main_v59, main_v60, main_v61, main_v62, main_cst_13, main_v63, main_v64, main_v65, main_v66, main_v67, main_v68, main_v69, main_v70, main_v71, main_v72, main_v73, main_v74, main_v75, main_v76, main_v77, main_v78, main_v79, main_v80, main_v81]

set_option maxRecDepth 16384 in
set_option maxHeartbeats 8000000 in
theorem writesAre : Cert.LibStraightLine.WritesAre (line : List (HloOp τ sig (Elt F))) written := rfl

set_option maxRecDepth 16384 in
theorem line_length : (line : List (HloOp τ sig (Elt F))).length = 100 := rfl

/-- A position below 100 is a position of the line. -/
theorem lt_len {k : Nat} (h : k < 100) : k < (line : List (HloOp τ sig (Elt F))).length :=
  Nat.lt_of_lt_of_eq h (line_length (F := F)).symm

theorem nw (k : Nat) {y : Ref sig .tc} (hy : y ∉ written.drop k) :
    ∀ op ∈ (line (F := F)).drop k, (Proc.devRef .tc y : DevRef τ sig) ∉ op.writes :=
  Cert.LibStraightLine.not_written writesAre k hy

/-- What buffer `b` of core `c` holds when the region is entered. -/
def val (m : (ℓ : Loc nD τ sig) → Buf (Elt F) ℓ) (c : Dev nD) (b : Ref sig .tc) :=
  after (line (F := F)) (fun b => m (c, b)) (Proc.devRef .tc b)

/-- It is the region-entry contents the generated frame names. -/
theorem val_eq_V (m : (ℓ : Loc nD τ sig) → Buf (Elt F) ℓ) (c : Dev nD) (b : Ref sig .tc) : val m c b = Gen.V (F := F) m c b := rfl

variable (m : (ℓ : Loc nD τ sig) → Buf (Elt F) ℓ) (c : Dev nD)

theorem at_main_arg0 : val m c main_arg0 = m ((c : Thread nD τ).loc main_arg0) :=
  Cert.LibStraightLine.untouched_at (ops := line (F := F)) (V := fun b => m (c, b)) writesAre (by decide +kernel)
theorem at_main_arg1 : val m c main_arg1 = m ((c : Thread nD τ).loc main_arg1) :=
  Cert.LibStraightLine.untouched_at (ops := line (F := F)) (V := fun b => m (c, b)) writesAre (by decide +kernel)
theorem at_main_arg2 : val m c main_arg2 = m ((c : Thread nD τ).loc main_arg2) :=
  Cert.LibStraightLine.untouched_at (ops := line (F := F)) (V := fun b => m (c, b)) writesAre (by decide +kernel)
theorem at_main_arg3 : val m c main_arg3 = m ((c : Thread nD τ).loc main_arg3) :=
  Cert.LibStraightLine.untouched_at (ops := line (F := F)) (V := fun b => m (c, b)) writesAre (by decide +kernel)
theorem at_main_arg4 : val m c main_arg4 = m ((c : Thread nD τ).loc main_arg4) :=
  Cert.LibStraightLine.untouched_at (ops := line (F := F)) (V := fun b => m (c, b)) writesAre (by decide +kernel)
theorem at_main_arg5 : val m c main_arg5 = m ((c : Thread nD τ).loc main_arg5) :=
  Cert.LibStraightLine.untouched_at (ops := line (F := F)) (V := fun b => m (c, b)) writesAre (by decide +kernel)
theorem at_main_arg6 : val m c main_arg6 = m ((c : Thread nD τ).loc main_arg6) :=
  Cert.LibStraightLine.untouched_at (ops := line (F := F)) (V := fun b => m (c, b)) writesAre (by decide +kernel)
theorem at_main_arg7 : val m c main_arg7 = m ((c : Thread nD τ).loc main_arg7) :=
  Cert.LibStraightLine.untouched_at (ops := line (F := F)) (V := fun b => m (c, b)) writesAre (by decide +kernel)
theorem at_main_arg8 : val m c main_arg8 = m ((c : Thread nD τ).loc main_arg8) :=
  Cert.LibStraightLine.untouched_at (ops := line (F := F)) (V := fun b => m (c, b)) writesAre (by decide +kernel)
theorem at_main_arg9 : val m c main_arg9 = m ((c : Thread nD τ).loc main_arg9) :=
  Cert.LibStraightLine.untouched_at (ops := line (F := F)) (V := fun b => m (c, b)) writesAre (by decide +kernel)
theorem at_main_arg10 : val m c main_arg10 = m ((c : Thread nD τ).loc main_arg10) :=
  Cert.LibStraightLine.untouched_at (ops := line (F := F)) (V := fun b => m (c, b)) writesAre (by decide +kernel)

end Cert.KernelIdeal.Host

end
-- ==== Proof.KernelStages0.lean ====
/- GENERATED by: bun scratch/gen_tables.js $KIT/certs/proofs/170179_j64828236366589_1_alg — a table, one line per host operation, of the idealized kernel's buffers when its region is entered, host operations 1 to 25: the buffer operation k
   writes holds that operation's function of what its operand buffers hold. -/
import proofs.«170179_j64828236366589_1_alg».proof.Proof.KernelLine

noncomputable section

set_option maxHeartbeats 4000000

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (c : Dev nD)

theorem at_main_cst : val m c main_cst = (constant S_ .f32 0xFF800000#32) :=
  Cert.LibStraightLine.nullary_at (ops := line (F := F)) (V := fun b => m (c, b)) (y := main_cst) (v := (constant S_ .f32 0xFF800000#32)) (hy := by decide) 0 (lt_len (by decide)) rfl (nw 1 (by decide +kernel))
theorem at_main_v0 : val m c main_v0 = ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F)) (val m c main_arg4) (val m c main_cst) :=
  Cert.LibStraightLine.binary_at (ops := line (F := F)) (V := fun b => m (c, b)) (a := main_arg4) (b := main_cst) (y := main_v0) (f := ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F))) (ha := by decide) (hb := by decide) (hy := by decide) 1 (lt_len (by decide)) rfl (nw 2 (by decide +kernel)) (nw 1 (by decide +kernel)) (nw 1 (by decide +kernel))
theorem at_main_cst_0 : val m c main_cst_0 = (constant S_ .f32 0xFF800000#32) :=
  Cert.LibStraightLine.nullary_at (ops := line (F := F)) (V := fun b => m (c, b)) (y := main_cst_0) (v := (constant S_ .f32 0xFF800000#32)) (hy := by decide) 2 (lt_len (by decide)) rfl (nw 3 (by decide +kernel))
theorem at_main_v1 : val m c main_v1 = (broadcastInDim S100000 ![] bcast_S_S100000 : (⟨S_, .f32⟩ : BufTy).Contents (Elt F) → (⟨S100000, .f32⟩ : BufTy).Contents (Elt F)) (val m c main_cst_0) :=
  Cert.LibStraightLine.unary_at (ops := line (F := F)) (V := fun b => m (c, b)) (x := main_cst_0) (y := main_v1) (f := (broadcastInDim S100000 ![] bcast_S_S100000 : (⟨S_, .f32⟩ : BufTy).Contents (Elt F) → (⟨S100000, .f32⟩ : BufTy).Contents (Elt F))) (hx := by decide) (hy := by decide) 3 (lt_len (by decide)) rfl (nw 4 (by decide +kernel)) (nw 3 (by decide +kernel))
theorem at_main_v2 : val m c main_v2 = (maximumf : (⟨S100000, .f32⟩ : BufTy).Contents (Elt F) → (⟨S100000, .f32⟩ : BufTy).Contents (Elt F) → (⟨S100000, .f32⟩ : BufTy).Contents (Elt F)) (val m c main_v1) (val m c main_v0) :=
  Cert.LibStraightLine.binary_at (ops := line (F := F)) (V := fun b => m (c, b)) (a := main_v1) (b := main_v0) (y := main_v2) (f := (maximumf : (⟨S100000, .f32⟩ : BufTy).Contents (Elt F) → (⟨S100000, .f32⟩ : BufTy).Contents (Elt F) → (⟨S100000, .f32⟩ : BufTy).Contents (Elt F))) (ha := by decide) (hb := by decide) (hy := by decide) 4 (lt_len (by decide)) rfl (nw 5 (by decide +kernel)) (nw 4 (by decide +kernel)) (nw 4 (by decide +kernel))
theorem at_main_v3 : val m c main_v3 = (broadcastInDim S100000x1 ![0] bcast_S100000_S100000x1_0 : (⟨S100000, .f32⟩ : BufTy).Contents (Elt F) → (⟨S100000x1, .f32⟩ : BufTy).Contents (Elt F)) (val m c main_v2) :=
  Cert.LibStraightLine.unary_at (ops := line (F := F)) (V := fun b => m (c, b)) (x := main_v2) (y := main_v3) (f := (broadcastInDim S100000x1 ![0] bcast_S100000_S100000x1_0 : (⟨S100000, .f32⟩ : BufTy).Contents (Elt F) → (⟨S100000x1, .f32⟩ : BufTy).Contents (Elt F))) (hx := by decide) (hy := by decide) 5 (lt_len (by decide)) rfl (nw 6 (by decide +kernel)) (nw 5 (by decide +kernel))
theorem at_main_v4 : val m c main_v4 = (broadcastInDim S100000x16 ![0, 1] bcast_S100000x1_S100000x16_0_1 : (⟨S100000x1, .f32⟩ : BufTy).Contents (Elt F) → (⟨S100000x16, .f32⟩ : BufTy).Contents (Elt F)) (val m c main_v3) :=
  Cert.LibStraightLine.unary_at (ops := line (F := F)) (V := fun b => m (c, b)) (x := main_v3) (y := main_v4) (f := (broadcastInDim S100000x16 ![0, 1] bcast_S100000x1_S100000x16_0_1 : (⟨S100000x1, .f32⟩ : BufTy).Contents (Elt F) → (⟨S100000x16, .f32⟩ : BufTy).Contents (Elt F))) (hx := by decide) (hy := by decide) 6 (lt_len (by decide)) rfl (nw 7 (by decide +kernel)) (nw 6 (by decide +kernel))
theorem at_main_v5 : val m c main_v5 = (subf : (⟨S100000x16, .f32⟩ : BufTy).Contents (Elt F) → (⟨S100000x16, .f32⟩ : BufTy).Contents (Elt F) → (⟨S100000x16, .f32⟩ : BufTy).Contents (Elt F)) (val m c main_arg4) (val m c main_v4) :=
  Cert.LibStraightLine.binary_at (ops := line (F := F)) (V := fun b => m (c, b)) (a := main_arg4) (b := main_v4) (y := main_v5) (f := (subf : (⟨S100000x16, .f32⟩ : BufTy).Contents (Elt F) → (⟨S100000x16, .f32⟩ : BufTy).Contents (Elt F) → (⟨S100000x16, .f32⟩ : BufTy).Contents (Elt F))) (ha := by decide) (hb := by decide) (hy := by decide) 7 (lt_len (by decide)) rfl (nw 8 (by decide +kernel)) (nw 7 (by decide +kernel)) (nw 7 (by decide +kernel))
theorem at_main_v6 : val m c main_v6 = (Host.exp : (⟨S100000x16, .f32⟩ : BufTy).Contents (Elt F) → (⟨S100000x16, .f32⟩ : BufTy).Contents (Elt F)) (val m c main_v5) :=
  Cert.LibStraightLine.unary_at (ops := line (F := F)) (V := fun b => m (c, b)) (x := main_v5) (y := main_v6) (f := (Host.exp : (⟨S100000x16, .f32⟩ : BufTy).Contents (Elt F) → (⟨S100000x16, .f32⟩ : BufTy).Contents (Elt F))) (hx := by decide) (hy := by decide) 8 (lt_len (by decide)) rfl (nw 9 (by decide +kernel)) (nw 8 (by decide +kernel))
theorem at_main_cst_1 : val m c main_cst_1 = (constant S_ .f32 0x00000000#32) :=
  Cert.LibStraightLine.nullary_at (ops := line (F := F)) (V := fun b => m (c, b)) (y := main_cst_1) (v := (constant S_ .f32 0x00000000#32)) (hy := by decide) 9 (lt_len (by decide)) rfl (nw 10 (by decide +kernel))
theorem at_main_v7 : val m c main_v7 = ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)) (val m c main_v6) (val m c main_cst_1) :=
  Cert.LibStraightLine.binary_at (ops := line (F := F)) (V := fun b => m (c, b)) (a := main_v6) (b := main_cst_1) (y := main_v7) (f := ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F))) (ha := by decide) (hb := by decide) (hy := by decide) 10 (lt_len (by decide)) rfl (nw 11 (by decide +kernel)) (nw 10 (by decide +kernel)) (nw 10 (by decide +kernel))
theorem at_main_v8 : val m c main_v8 = (broadcastInDim S100000x1 ![0] bcast_S100000_S100000x1_0 : (⟨S100000, .f32⟩ : BufTy).Contents (Elt F) → (⟨S100000x1, .f32⟩ : BufTy).Contents (Elt F)) (val m c main_v7) :=
  Cert.LibStraightLine.unary_at (ops := line (F := F)) (V := fun b => m (c, b)) (x := main_v7) (y := main_v8) (f := (broadcastInDim S100000x1 ![0] bcast_S100000_S100000x1_0 : (⟨S100000, .f32⟩ : BufTy).Contents (Elt F) → (⟨S100000x1, .f32⟩ : BufTy).Contents (Elt F))) (hx := by decide) (hy := by decide) 11 (lt_len (by decide)) rfl (nw 12 (by decide +kernel)) (nw 11 (by decide +kernel))
theorem at_main_v9 : val m c main_v9 = (broadcastInDim S100000x16 ![0, 1] bcast_S100000x1_S100000x16_0_1 : (⟨S100000x1, .f32⟩ : BufTy).Contents (Elt F) → (⟨S100000x16, .f32⟩ : BufTy).Contents (Elt F)) (val m c main_v8) :=
  Cert.LibStraightLine.unary_at (ops := line (F := F)) (V := fun b => m (c, b)) (x := main_v8) (y := main_v9) (f := (broadcastInDim S100000x16 ![0, 1] bcast_S100000x1_S100000x16_0_1 : (⟨S100000x1, .f32⟩ : BufTy).Contents (Elt F) → (⟨S100000x16, .f32⟩ : BufTy).Contents (Elt F))) (hx := by decide) (hy := by decide) 12 (lt_len (by decide)) rfl (nw 13 (by decide +kernel)) (nw 12 (by decide +kernel))
theorem at_main_v10 : val m c main_v10 = (Host.divf : (⟨S100000x16, .f32⟩ : BufTy).Contents (Elt F) → (⟨S100000x16, .f32⟩ : BufTy).Contents (Elt F) → (⟨S100000x16, .f32⟩ : BufTy).Contents (Elt F)) (val m c main_v6) (val m c main_v9) :=
  Cert.LibStraightLine.binary_at (ops := line (F := F)) (V := fun b => m (c, b)) (a := main_v6) (b := main_v9) (y := main_v10) (f := (Host.divf : (⟨S100000x16, .f32⟩ : BufTy).Contents (Elt F) → (⟨S100000x16, .f32⟩ : BufTy).Contents (Elt F) → (⟨S100000x16, .f32⟩ : BufTy).Contents (Elt F))) (ha := by decide) (hb := by decide) (hy := by decide) 13 (lt_len (by decide)) rfl (nw 14 (by decide +kernel)) (nw 13 (by decide +kernel)) (nw 13 (by decide +kernel))
theorem at_main_v11 : val m c main_v11 = (iotaInDim S100000 32 0) :=
  Cert.LibStraightLine.nullary_at (ops := line (F := F)) (V := fun b => m (c, b)) (y := main_v11) (v := (iotaInDim S100000 32 0)) (hy := by decide) 14 (lt_len (by decide)) rfl (nw 15 (by decide +kernel))
/-- The function of the operation that writes `main_v12`, named. -/
abbrev fn_main_v12 : (⟨S2x3200000, .i32⟩ : BufTy).Contents (Elt F) → (⟨S1x3200000, .i32⟩ : BufTy).Contents (Elt F) := (extractStridedSlice S1x3200000 ![0, 0] · slices_S2x3200000_S1x3200000_0_0)
theorem at_main_v12 : val m c main_v12 = fn_main_v12 (F := F) (val m c main_arg1) :=
  Cert.LibStraightLine.unary_at (ops := line (F := F)) (V := fun b => m (c, b)) (x := main_arg1) (y := main_v12) (f := fn_main_v12 (F := F)) (hx := by decide) (hy := by decide) 15 (lt_len (by decide)) rfl (nw 16 (by decide +kernel)) (nw 15 (by decide +kernel))
theorem at_main_v13 : val m c main_v13 = shapeCast S3200000 (val m c main_v12) shapeCasts_S1x3200000_S3200000 :=
  Cert.LibStraightLine.reshape_at (ops := line (F := F)) (V := fun b => m (c, b)) (x := main_v12) (y := main_v13) (he := rfl) (hn := shapeCasts_S1x3200000_S3200000) (hx := by decide) (hy := by decide) 16 (lt_len (by decide)) rfl (nw 17 (by decide +kernel)) (nw 16 (by decide +kernel))
theorem at_main_v14 : val m c main_v14 = ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) (val m c main_v13) (val m c main_v11) :=
  Cert.LibStraightLine.binary_at (ops := line (F := F)) (V := fun b => m (c, b)) (a := main_v13) (b := main_v11) (y := main_v14) (f := ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F))) (ha := by decide) (hb := by decide) (hy := by decide) 17 (lt_len (by decide)) rfl (nw 18 (by decide +kernel)) (nw 17 (by decide +kernel)) (nw 17 (by decide +kernel))
/-- The function of the operation that writes `main_v15`, named. -/
abbrev fn_main_v15 : (⟨S2x3200000, .i32⟩ : BufTy).Contents (Elt F) → (⟨S1x3200000, .i32⟩ : BufTy).Contents (Elt F) := (extractStridedSlice S1x3200000 ![1, 0] · slices_S2x3200000_S1x3200000_1_0)
theorem at_main_v15 : val m c main_v15 = fn_main_v15 (F := F) (val m c main_arg1) :=
  Cert.LibStraightLine.unary_at (ops := line (F := F)) (V := fun b => m (c, b)) (x := main_arg1) (y := main_v15) (f := fn_main_v15 (F := F)) (hx := by decide) (hy := by decide) 18 (lt_len (by decide)) rfl (nw 19 (by decide +kernel)) (nw 18 (by decide +kernel))
theorem at_main_v16 : val m c main_v16 = shapeCast S3200000 (val m c main_v15) shapeCasts_S1x3200000_S3200000 :=
  Cert.LibStraightLine.reshape_at (ops := line (F := F)) (V := fun b => m (c, b)) (x := main_v15) (y := main_v16) (he := rfl) (hn := shapeCasts_S1x3200000_S3200000) (hx := by decide) (hy := by decide) 19 (lt_len (by decide)) rfl (nw 20 (by decide +kernel)) (nw 19 (by decide +kernel))
theorem at_main_v17 : val m c main_v17 = ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) (val m c main_v16) (val m c main_v11) :=
  Cert.LibStraightLine.binary_at (ops := line (F := F)) (V := fun b => m (c, b)) (a := main_v16) (b := main_v11) (y := main_v17) (f := ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F))) (ha := by decide) (hb := by decide) (hy := by decide) 20 (lt_len (by decide)) rfl (nw 21 (by decide +kernel)) (nw 20 (by decide +kernel)) (nw 20 (by decide +kernel))
theorem at_main_cst_2 : val m c main_cst_2 = (constant S_ .f32 0x3F800000#32) :=
  Cert.LibStraightLine.nullary_at (ops := line (F := F)) (V := fun b => m (c, b)) (y := main_cst_2) (v := (constant S_ .f32 0x3F800000#32)) (hy := by decide) 21 (lt_len (by decide)) rfl (nw 22 (by decide +kernel))
theorem at_main_v18 : val m c main_v18 = (broadcastInDim S3300000 ![] bcast_S_S3300000 : (⟨S_, .f32⟩ : BufTy).Contents (Elt F) → (⟨S3300000, .f32⟩ : BufTy).Contents (Elt F)) (val m c main_cst_2) :=
  Cert.LibStraightLine.unary_at (ops := line (F := F)) (V := fun b => m (c, b)) (x := main_cst_2) (y := main_v18) (f := (broadcastInDim S3300000 ![] bcast_S_S3300000 : (⟨S_, .f32⟩ : BufTy).Contents (Elt F) → (⟨S3300000, .f32⟩ : BufTy).Contents (Elt F))) (hx := by decide) (hy := by decide) 22 (lt_len (by decide)) rfl (nw 23 (by decide +kernel)) (nw 22 (by decide +kernel))
theorem at_main_cst_3 : val m c main_cst_3 = (constant S_ .f32 0x00000000#32) :=
  Cert.LibStraightLine.nullary_at (ops := line (F := F)) (V := fun b => m (c, b)) (y := main_cst_3) (v := (constant S_ .f32 0x00000000#32)) (hy := by decide) 23 (lt_len (by decide)) rfl (nw 24 (by decide +kernel))
theorem at_main_v19 : val m c main_v19 = (broadcastInDim S100000 ![] bcast_S_S100000 : (⟨S_, .f32⟩ : BufTy).Contents (Elt F) → (⟨S100000, .f32⟩ : BufTy).Contents (Elt F)) (val m c main_cst_3) :=
  Cert.LibStraightLine.unary_at (ops := line (F := F)) (V := fun b => m (c, b)) (x := main_cst_3) (y := main_v19) (f := (broadcastInDim S100000 ![] bcast_S_S100000 : (⟨S_, .f32⟩ : BufTy).Contents (Elt F) → (⟨S100000, .f32⟩ : BufTy).Contents (Elt F))) (hx := by decide) (hy := by decide) 24 (lt_len (by decide)) rfl (nw 25 (by decide +kernel)) (nw 24 (by decide +kernel))

end Cert.KernelIdeal.Host

end
-- ==== Proof.KernelStages1.lean ====
/- GENERATED by: bun scratch/gen_tables.js $KIT/certs/proofs/170179_j64828236366589_1_alg — a table, one line per host operation, of the idealized kernel's buffers when its region is entered, host operations 26 to 50: the buffer operation k
   writes holds that operation's function of what its operand buffers hold. -/
import proofs.«170179_j64828236366589_1_alg».proof.Proof.KernelLine

noncomputable section

set_option maxHeartbeats 4000000

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (c : Dev nD)

theorem at_main_v20 : val m c main_v20 = (broadcastInDim S3300000x1 ![0] bcast_S3300000_S3300000x1_0 : (⟨S3300000, .i32⟩ : BufTy).Contents (Elt F) → (⟨S3300000x1, .i32⟩ : BufTy).Contents (Elt F)) (val m c main_v17) :=
  Cert.LibStraightLine.unary_at (ops := line (F := F)) (V := fun b => m (c, b)) (x := main_v17) (y := main_v20) (f := (broadcastInDim S3300000x1 ![0] bcast_S3300000_S3300000x1_0 : (⟨S3300000, .i32⟩ : BufTy).Contents (Elt F) → (⟨S3300000x1, .i32⟩ : BufTy).Contents (Elt F))) (hx := by decide) (hy := by decide) 25 (lt_len (by decide)) rfl (nw 26 (by decide +kernel)) (nw 25 (by decide +kernel))
theorem at_main_v21 : val m c main_v21 = ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) (val m c main_v19) (val m c main_v20) (val m c main_v18) :=
  Cert.LibStraightLine.ternary_at (ops := line (F := F)) (V := fun b => m (c, b)) (c := main_v19) (a := main_v20) (b := main_v18) (y := main_v21) (f := ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F))) (hc := by decide) (ha := by decide) (hb := by decide) (hy := by decide) 26 (lt_len (by decide)) rfl (nw 27 (by decide +kernel)) (nw 26 (by decide +kernel)) (nw 26 (by decide +kernel)) (nw 26 (by decide +kernel))
theorem at_main_cst_4 : val m c main_cst_4 = (constant S_ .f32 0x00000000#32) :=
  Cert.LibStraightLine.nullary_at (ops := line (F := F)) (V := fun b => m (c, b)) (y := main_cst_4) (v := (constant S_ .f32 0x00000000#32)) (hy := by decide) 27 (lt_len (by decide)) rfl (nw 28 (by decide +kernel))
theorem at_main_v22 : val m c main_v22 = (broadcastInDim S100000 ![] bcast_S_S100000 : (⟨S_, .f32⟩ : BufTy).Contents (Elt F) → (⟨S100000, .f32⟩ : BufTy).Contents (Elt F)) (val m c main_cst_4) :=
  Cert.LibStraightLine.unary_at (ops := line (F := F)) (V := fun b => m (c, b)) (x := main_cst_4) (y := main_v22) (f := (broadcastInDim S100000 ![] bcast_S_S100000 : (⟨S_, .f32⟩ : BufTy).Contents (Elt F) → (⟨S100000, .f32⟩ : BufTy).Contents (Elt F))) (hx := by decide) (hy := by decide) 28 (lt_len (by decide)) rfl (nw 29 (by decide +kernel)) (nw 28 (by decide +kernel))
theorem at_main_v23 : val m c main_v23 = (cmpf .ogt : (⟨S100000, .f32⟩ : BufTy).Contents (Elt F) → (⟨S100000, .f32⟩ : BufTy).Contents (Elt F) → (⟨S100000, .i1⟩ : BufTy).Contents (Elt F)) (val m c main_v21) (val m c main_v22) :=
  Cert.LibStraightLine.binary_at (ops := line (F := F)) (V := fun b => m (c, b)) (a := main_v21) (b := main_v22) (y := main_v23) (f := (cmpf .ogt : (⟨S100000, .f32⟩ : BufTy).Contents (Elt F) → (⟨S100000, .f32⟩ : BufTy).Contents (Elt F) → (⟨S100000, .i1⟩ : BufTy).Contents (Elt F))) (ha := by decide) (hb := by decide) (hy := by decide) 29 (lt_len (by decide)) rfl (nw 30 (by decide +kernel)) (nw 29 (by decide +kernel)) (nw 29 (by decide +kernel))
theorem at_main_v24 : val m c main_v24 = (Host.rsqrt : (⟨S100000, .f32⟩ : BufTy).Contents (Elt F) → (⟨S100000, .f32⟩ : BufTy).Contents (Elt F)) (val m c main_v21) :=
  Cert.LibStraightLine.unary_at (ops := line (F := F)) (V := fun b => m (c, b)) (x := main_v21) (y := main_v24) (f := (Host.rsqrt : (⟨S100000, .f32⟩ : BufTy).Contents (Elt F) → (⟨S100000, .f32⟩ : BufTy).Contents (Elt F))) (hx := by decide) (hy := by decide) 30 (lt_len (by decide)) rfl (nw 31 (by decide +kernel)) (nw 30 (by decide +kernel))
theorem at_main_cst_5 : val m c main_cst_5 = (constant S_ .f32 0x00000000#32) :=
  Cert.LibStraightLine.nullary_at (ops := line (F := F)) (V := fun b => m (c, b)) (y := main_cst_5) (v := (constant S_ .f32 0x00000000#32)) (hy := by decide) 31 (lt_len (by decide)) rfl (nw 32 (by decide +kernel))
theorem at_main_call0_v0 : val m c main_call0_v0 = (id : (⟨S_, .f32⟩ : BufTy).Contents (Elt F) → (⟨S_, .f32⟩ : BufTy).Contents (Elt F)) (val m c main_cst_5) :=
  Cert.LibStraightLine.unary_at (ops := line (F := F)) (V := fun b => m (c, b)) (x := main_cst_5) (y := main_call0_v0) (f := (id : (⟨S_, .f32⟩ : BufTy).Contents (Elt F) → (⟨S_, .f32⟩ : BufTy).Contents (Elt F))) (hx := by decide) (hy := by decide) 32 (lt_len (by decide)) rfl (nw 33 (by decide +kernel)) (nw 32 (by decide +kernel))
theorem at_main_call0_v1 : val m c main_call0_v1 = ((broadcastInDim S100000 ![] bcast_S_S100000) : (⟨S_, .f32⟩ : BufTy).Contents (Elt F) → (⟨S100000, .f32⟩ : BufTy).Contents (Elt F)) (val m c main_call0_v0) :=
  Cert.LibStraightLine.unary_at (ops := line (F := F)) (V := fun b => m (c, b)) (x := main_call0_v0) (y := main_call0_v1) (f := ((broadcastInDim S100000 ![] bcast_S_S100000) : (⟨S_, .f32⟩ : BufTy).Contents (Elt F) → (⟨S100000, .f32⟩ : BufTy).Contents (Elt F))) (hx := by decide) (hy := by decide) 33 (lt_len (by decide)) rfl (nw 34 (by decide +kernel)) (nw 33 (by decide +kernel))
theorem at_main_v25 : val m c main_v25 = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (val m c main_v23) (val m c main_v24) (val m c main_call0_v1) :=
  Cert.LibStraightLine.ternary_at (ops := line (F := F)) (V := fun b => m (c, b)) (c := main_v23) (a := main_v24) (b := main_call0_v1) (y := main_v25) (f := (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F))) (hc := by decide) (ha := by decide) (hb := by decide) (hy := by decide) 34 (lt_len (by decide)) rfl (nw 35 (by decide +kernel)) (nw 34 (by decide +kernel)) (nw 34 (by decide +kernel)) (nw 34 (by decide +kernel))
theorem at_main_c : val m c main_c = (constantI S_ 32 0#32) :=
  Cert.LibStraightLine.nullary_at (ops := line (F := F)) (V := fun b => m (c, b)) (y := main_c) (v := (constantI S_ 32 0#32)) (hy := by decide) 35 (lt_len (by decide)) rfl (nw 36 (by decide +kernel))
theorem at_main_v26 : val m c main_v26 = (broadcastInDim S3300000 ![] bcast_S_S3300000 : (⟨S_, .i32⟩ : BufTy).Contents (Elt F) → (⟨S3300000, .i32⟩ : BufTy).Contents (Elt F)) (val m c main_c) :=
  Cert.LibStraightLine.unary_at (ops := line (F := F)) (V := fun b => m (c, b)) (x := main_c) (y := main_v26) (f := (broadcastInDim S3300000 ![] bcast_S_S3300000 : (⟨S_, .i32⟩ : BufTy).Contents (Elt F) → (⟨S3300000, .i32⟩ : BufTy).Contents (Elt F))) (hx := by decide) (hy := by decide) 36 (lt_len (by decide)) rfl (nw 37 (by decide +kernel)) (nw 36 (by decide +kernel))
theorem at_main_v27 : val m c main_v27 = (cmpi .slt : (⟨S3300000, .i32⟩ : BufTy).Contents (Elt F) → (⟨S3300000, .i32⟩ : BufTy).Contents (Elt F) → (⟨S3300000, .i1⟩ : BufTy).Contents (Elt F)) (val m c main_v14) (val m c main_v26) :=
  Cert.LibStraightLine.binary_at (ops := line (F := F)) (V := fun b => m (c, b)) (a := main_v14) (b := main_v26) (y := main_v27) (f := (cmpi .slt : (⟨S3300000, .i32⟩ : BufTy).Contents (Elt F) → (⟨S3300000, .i32⟩ : BufTy).Contents (Elt F) → (⟨S3300000, .i1⟩ : BufTy).Contents (Elt F))) (ha := by decide) (hb := by decide) (hy := by decide) 37 (lt_len (by decide)) rfl (nw 38 (by decide +kernel)) (nw 37 (by decide +kernel)) (nw 37 (by decide +kernel))
theorem at_main_c_6 : val m c main_c_6 = (constantI S_ 32 100000#32) :=
  Cert.LibStraightLine.nullary_at (ops := line (F := F)) (V := fun b => m (c, b)) (y := main_c_6) (v := (constantI S_ 32 100000#32)) (hy := by decide) 38 (lt_len (by decide)) rfl (nw 39 (by decide +kernel))
theorem at_main_v28 : val m c main_v28 = (broadcastInDim S3300000 ![] bcast_S_S3300000 : (⟨S_, .i32⟩ : BufTy).Contents (Elt F) → (⟨S3300000, .i32⟩ : BufTy).Contents (Elt F)) (val m c main_c_6) :=
  Cert.LibStraightLine.unary_at (ops := line (F := F)) (V := fun b => m (c, b)) (x := main_c_6) (y := main_v28) (f := (broadcastInDim S3300000 ![] bcast_S_S3300000 : (⟨S_, .i32⟩ : BufTy).Contents (Elt F) → (⟨S3300000, .i32⟩ : BufTy).Contents (Elt F))) (hx := by decide) (hy := by decide) 39 (lt_len (by decide)) rfl (nw 40 (by decide +kernel)) (nw 39 (by decide +kernel))
theorem at_main_v29 : val m c main_v29 = (addi : (⟨S3300000, .i32⟩ : BufTy).Contents (Elt F) → (⟨S3300000, .i32⟩ : BufTy).Contents (Elt F) → (⟨S3300000, .i32⟩ : BufTy).Contents (Elt F)) (val m c main_v14) (val m c main_v28) :=
  Cert.LibStraightLine.binary_at (ops := line (F := F)) (V := fun b => m (c, b)) (a := main_v14) (b := main_v28) (y := main_v29) (f := (addi : (⟨S3300000, .i32⟩ : BufTy).Contents (Elt F) → (⟨S3300000, .i32⟩ : BufTy).Contents (Elt F) → (⟨S3300000, .i32⟩ : BufTy).Contents (Elt F))) (ha := by decide) (hb := by decide) (hy := by decide) 40 (lt_len (by decide)) rfl (nw 41 (by decide +kernel)) (nw 40 (by decide +kernel)) (nw 40 (by decide +kernel))
theorem at_main_v30 : val m c main_v30 = (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) (val m c main_v27) (val m c main_v29) (val m c main_v14) :=
  Cert.LibStraightLine.ternary_at (ops := line (F := F)) (V := fun b => m (c, b)) (c := main_v27) (a := main_v29) (b := main_v14) (y := main_v30) (f := (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F))) (hc := by decide) (ha := by decide) (hb := by decide) (hy := by decide) 41 (lt_len (by decide)) rfl (nw 42 (by decide +kernel)) (nw 41 (by decide +kernel)) (nw 41 (by decide +kernel)) (nw 41 (by decide +kernel))
theorem at_main_v31 : val m c main_v31 = (broadcastInDim S3300000x1 ![0] bcast_S3300000_S3300000x1_0 : (⟨S3300000, .i32⟩ : BufTy).Contents (Elt F) → (⟨S3300000x1, .i32⟩ : BufTy).Contents (Elt F)) (val m c main_v30) :=
  Cert.LibStraightLine.unary_at (ops := line (F := F)) (V := fun b => m (c, b)) (x := main_v30) (y := main_v31) (f := (broadcastInDim S3300000x1 ![0] bcast_S3300000_S3300000x1_0 : (⟨S3300000, .i32⟩ : BufTy).Contents (Elt F) → (⟨S3300000x1, .i32⟩ : BufTy).Contents (Elt F))) (hx := by decide) (hy := by decide) 42 (lt_len (by decide)) rfl (nw 43 (by decide +kernel)) (nw 42 (by decide +kernel))
theorem at_main_v32 : val m c main_v32 = ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) (val m c main_v25) (val m c main_v31) :=
  Cert.LibStraightLine.binary_at (ops := line (F := F)) (V := fun b => m (c, b)) (a := main_v25) (b := main_v31) (y := main_v32) (f := ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F))) (ha := by decide) (hb := by decide) (hy := by decide) 43 (lt_len (by decide)) rfl (nw 44 (by decide +kernel)) (nw 43 (by decide +kernel)) (nw 43 (by decide +kernel))
theorem at_main_v33 : val m c main_v33 = (mulf : (⟨S3300000, .f32⟩ : BufTy).Contents (Elt F) → (⟨S3300000, .f32⟩ : BufTy).Contents (Elt F) → (⟨S3300000, .f32⟩ : BufTy).Contents (Elt F)) (val m c main_v32) (val m c main_v18) :=
  Cert.LibStraightLine.binary_at (ops := line (F := F)) (V := fun b => m (c, b)) (a := main_v32) (b := main_v18) (y := main_v33) (f := (mulf : (⟨S3300000, .f32⟩ : BufTy).Contents (Elt F) → (⟨S3300000, .f32⟩ : BufTy).Contents (Elt F) → (⟨S3300000, .f32⟩ : BufTy).Contents (Elt F))) (ha := by decide) (hb := by decide) (hy := by decide) 44 (lt_len (by decide)) rfl (nw 45 (by decide +kernel)) (nw 44 (by decide +kernel)) (nw 44 (by decide +kernel))
theorem at_main_c_7 : val m c main_c_7 = (constantI S_ 32 0#32) :=
  Cert.LibStraightLine.nullary_at (ops := line (F := F)) (V := fun b => m (c, b)) (y := main_c_7) (v := (constantI S_ 32 0#32)) (hy := by decide) 45 (lt_len (by decide)) rfl (nw 46 (by decide +kernel))
theorem at_main_v34 : val m c main_v34 = (broadcastInDim S3300000 ![] bcast_S_S3300000 : (⟨S_, .i32⟩ : BufTy).Contents (Elt F) → (⟨S3300000, .i32⟩ : BufTy).Contents (Elt F)) (val m c main_c_7) :=
  Cert.LibStraightLine.unary_at (ops := line (F := F)) (V := fun b => m (c, b)) (x := main_c_7) (y := main_v34) (f := (broadcastInDim S3300000 ![] bcast_S_S3300000 : (⟨S_, .i32⟩ : BufTy).Contents (Elt F) → (⟨S3300000, .i32⟩ : BufTy).Contents (Elt F))) (hx := by decide) (hy := by decide) 46 (lt_len (by decide)) rfl (nw 47 (by decide +kernel)) (nw 46 (by decide +kernel))
theorem at_main_v35 : val m c main_v35 = (cmpi .slt : (⟨S3300000, .i32⟩ : BufTy).Contents (Elt F) → (⟨S3300000, .i32⟩ : BufTy).Contents (Elt F) → (⟨S3300000, .i1⟩ : BufTy).Contents (Elt F)) (val m c main_v17) (val m c main_v34) :=
  Cert.LibStraightLine.binary_at (ops := line (F := F)) (V := fun b => m (c, b)) (a := main_v17) (b := main_v34) (y := main_v35) (f := (cmpi .slt : (⟨S3300000, .i32⟩ : BufTy).Contents (Elt F) → (⟨S3300000, .i32⟩ : BufTy).Contents (Elt F) → (⟨S3300000, .i1⟩ : BufTy).Contents (Elt F))) (ha := by decide) (hb := by decide) (hy := by decide) 47 (lt_len (by decide)) rfl (nw 48 (by decide +kernel)) (nw 47 (by decide +kernel)) (nw 47 (by decide +kernel))
theorem at_main_c_8 : val m c main_c_8 = (constantI S_ 32 100000#32) :=
  Cert.LibStraightLine.nullary_at (ops := line (F := F)) (V := fun b => m (c, b)) (y := main_c_8) (v := (constantI S_ 32 100000#32)) (hy := by decide) 48 (lt_len (by decide)) rfl (nw 49 (by decide +kernel))
theorem at_main_v36 : val m c main_v36 = (broadcastInDim S3300000 ![] bcast_S_S3300000 : (⟨S_, .i32⟩ : BufTy).Contents (Elt F) → (⟨S3300000, .i32⟩ : BufTy).Contents (Elt F)) (val m c main_c_8) :=
  Cert.LibStraightLine.unary_at (ops := line (F := F)) (V := fun b => m (c, b)) (x := main_c_8) (y := main_v36) (f := (broadcastInDim S3300000 ![] bcast_S_S3300000 : (⟨S_, .i32⟩ : BufTy).Contents (Elt F) → (⟨S3300000, .i32⟩ : BufTy).Contents (Elt F))) (hx := by decide) (hy := by decide) 49 (lt_len (by decide)) rfl (nw 50 (by decide +kernel)) (nw 49 (by decide +kernel))

end Cert.KernelIdeal.Host

end
-- ==== Proof.KernelStages2.lean ====
/- GENERATED by: bun scratch/gen_tables.js $KIT/certs/proofs/170179_j64828236366589_1_alg — a table, one line per host operation, of the idealized kernel's buffers when its region is entered, host operations 51 to 75: the buffer operation k
   writes holds that operation's function of what its operand buffers hold. -/
import proofs.«170179_j64828236366589_1_alg».proof.Proof.KernelLine

noncomputable section

set_option maxHeartbeats 4000000

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (c : Dev nD)

theorem at_main_v37 : val m c main_v37 = (addi : (⟨S3300000, .i32⟩ : BufTy).Contents (Elt F) → (⟨S3300000, .i32⟩ : BufTy).Contents (Elt F) → (⟨S3300000, .i32⟩ : BufTy).Contents (Elt F)) (val m c main_v17) (val m c main_v36) :=
  Cert.LibStraightLine.binary_at (ops := line (F := F)) (V := fun b => m (c, b)) (a := main_v17) (b := main_v36) (y := main_v37) (f := (addi : (⟨S3300000, .i32⟩ : BufTy).Contents (Elt F) → (⟨S3300000, .i32⟩ : BufTy).Contents (Elt F) → (⟨S3300000, .i32⟩ : BufTy).Contents (Elt F))) (ha := by decide) (hb := by decide) (hy := by decide) 50 (lt_len (by decide)) rfl (nw 51 (by decide +kernel)) (nw 50 (by decide +kernel)) (nw 50 (by decide +kernel))
theorem at_main_v38 : val m c main_v38 = (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) (val m c main_v35) (val m c main_v37) (val m c main_v17) :=
  Cert.LibStraightLine.ternary_at (ops := line (F := F)) (V := fun b => m (c, b)) (c := main_v35) (a := main_v37) (b := main_v17) (y := main_v38) (f := (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F))) (hc := by decide) (ha := by decide) (hb := by decide) (hy := by decide) 51 (lt_len (by decide)) rfl (nw 52 (by decide +kernel)) (nw 51 (by decide +kernel)) (nw 51 (by decide +kernel)) (nw 51 (by decide +kernel))
theorem at_main_v39 : val m c main_v39 = (broadcastInDim S3300000x1 ![0] bcast_S3300000_S3300000x1_0 : (⟨S3300000, .i32⟩ : BufTy).Contents (Elt F) → (⟨S3300000x1, .i32⟩ : BufTy).Contents (Elt F)) (val m c main_v38) :=
  Cert.LibStraightLine.unary_at (ops := line (F := F)) (V := fun b => m (c, b)) (x := main_v38) (y := main_v39) (f := (broadcastInDim S3300000x1 ![0] bcast_S3300000_S3300000x1_0 : (⟨S3300000, .i32⟩ : BufTy).Contents (Elt F) → (⟨S3300000x1, .i32⟩ : BufTy).Contents (Elt F))) (hx := by decide) (hy := by decide) 52 (lt_len (by decide)) rfl (nw 53 (by decide +kernel)) (nw 52 (by decide +kernel))
theorem at_main_v40 : val m c main_v40 = ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)) (val m c main_v25) (val m c main_v39) :=
  Cert.LibStraightLine.binary_at (ops := line (F := F)) (V := fun b => m (c, b)) (a := main_v25) (b := main_v39) (y := main_v40) (f := ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F))) (ha := by decide) (hb := by decide) (hy := by decide) 53 (lt_len (by decide)) rfl (nw 54 (by decide +kernel)) (nw 53 (by decide +kernel)) (nw 53 (by decide +kernel))
theorem at_main_v41 : val m c main_v41 = (mulf : (⟨S3300000, .f32⟩ : BufTy).Contents (Elt F) → (⟨S3300000, .f32⟩ : BufTy).Contents (Elt F) → (⟨S3300000, .f32⟩ : BufTy).Contents (Elt F)) (val m c main_v33) (val m c main_v40) :=
  Cert.LibStraightLine.binary_at (ops := line (F := F)) (V := fun b => m (c, b)) (a := main_v33) (b := main_v40) (y := main_v41) (f := (mulf : (⟨S3300000, .f32⟩ : BufTy).Contents (Elt F) → (⟨S3300000, .f32⟩ : BufTy).Contents (Elt F) → (⟨S3300000, .f32⟩ : BufTy).Contents (Elt F))) (ha := by decide) (hb := by decide) (hy := by decide) 54 (lt_len (by decide)) rfl (nw 55 (by decide +kernel)) (nw 54 (by decide +kernel)) (nw 54 (by decide +kernel))
theorem at_main_cst_9 : val m c main_cst_9 = (constant S_ .f32 0x00000000#32) :=
  Cert.LibStraightLine.nullary_at (ops := line (F := F)) (V := fun b => m (c, b)) (y := main_cst_9) (v := (constant S_ .f32 0x00000000#32)) (hy := by decide) 55 (lt_len (by decide)) rfl (nw 56 (by decide +kernel))
theorem at_main_v42 : val m c main_v42 = (broadcastInDim S100000 ![] bcast_S_S100000 : (⟨S_, .f32⟩ : BufTy).Contents (Elt F) → (⟨S100000, .f32⟩ : BufTy).Contents (Elt F)) (val m c main_cst_9) :=
  Cert.LibStraightLine.unary_at (ops := line (F := F)) (V := fun b => m (c, b)) (x := main_cst_9) (y := main_v42) (f := (broadcastInDim S100000 ![] bcast_S_S100000 : (⟨S_, .f32⟩ : BufTy).Contents (Elt F) → (⟨S100000, .f32⟩ : BufTy).Contents (Elt F))) (hx := by decide) (hy := by decide) 56 (lt_len (by decide)) rfl (nw 57 (by decide +kernel)) (nw 56 (by decide +kernel))
theorem at_main_v43 : val m c main_v43 = (broadcastInDim S3300000x1 ![0] bcast_S3300000_S3300000x1_0 : (⟨S3300000, .i32⟩ : BufTy).Contents (Elt F) → (⟨S3300000x1, .i32⟩ : BufTy).Contents (Elt F)) (val m c main_v14) :=
  Cert.LibStraightLine.unary_at (ops := line (F := F)) (V := fun b => m (c, b)) (x := main_v14) (y := main_v43) (f := (broadcastInDim S3300000x1 ![0] bcast_S3300000_S3300000x1_0 : (⟨S3300000, .i32⟩ : BufTy).Contents (Elt F) → (⟨S3300000x1, .i32⟩ : BufTy).Contents (Elt F))) (hx := by decide) (hy := by decide) 57 (lt_len (by decide)) rfl (nw 58 (by decide +kernel)) (nw 57 (by decide +kernel))
theorem at_main_v44 : val m c main_v44 = ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) (val m c main_v42) (val m c main_v43) (val m c main_v41) :=
  Cert.LibStraightLine.ternary_at (ops := line (F := F)) (V := fun b => m (c, b)) (c := main_v42) (a := main_v43) (b := main_v41) (y := main_v44) (f := ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F))) (hc := by decide) (ha := by decide) (hb := by decide) (hy := by decide) 58 (lt_len (by decide)) rfl (nw 59 (by decide +kernel)) (nw 58 (by decide +kernel)) (nw 58 (by decide +kernel)) (nw 58 (by decide +kernel))
theorem at_main_v45 : val m c main_v45 = (broadcastInDim S3300000x1 ![0] bcast_S3300000_S3300000x1_0 : (⟨S3300000, .f32⟩ : BufTy).Contents (Elt F) → (⟨S3300000x1, .f32⟩ : BufTy).Contents (Elt F)) (val m c main_v41) :=
  Cert.LibStraightLine.unary_at (ops := line (F := F)) (V := fun b => m (c, b)) (x := main_v41) (y := main_v45) (f := (broadcastInDim S3300000x1 ![0] bcast_S3300000_S3300000x1_0 : (⟨S3300000, .f32⟩ : BufTy).Contents (Elt F) → (⟨S3300000x1, .f32⟩ : BufTy).Contents (Elt F))) (hx := by decide) (hy := by decide) 59 (lt_len (by decide)) rfl (nw 60 (by decide +kernel)) (nw 59 (by decide +kernel))
theorem at_main_c_10 : val m c main_c_10 = (constantI S_ 32 0#32) :=
  Cert.LibStraightLine.nullary_at (ops := line (F := F)) (V := fun b => m (c, b)) (y := main_c_10) (v := (constantI S_ 32 0#32)) (hy := by decide) 60 (lt_len (by decide)) rfl (nw 61 (by decide +kernel))
theorem at_main_v46 : val m c main_v46 = (broadcastInDim S3300000 ![] bcast_S_S3300000 : (⟨S_, .i32⟩ : BufTy).Contents (Elt F) → (⟨S3300000, .i32⟩ : BufTy).Contents (Elt F)) (val m c main_c_10) :=
  Cert.LibStraightLine.unary_at (ops := line (F := F)) (V := fun b => m (c, b)) (x := main_c_10) (y := main_v46) (f := (broadcastInDim S3300000 ![] bcast_S_S3300000 : (⟨S_, .i32⟩ : BufTy).Contents (Elt F) → (⟨S3300000, .i32⟩ : BufTy).Contents (Elt F))) (hx := by decide) (hy := by decide) 61 (lt_len (by decide)) rfl (nw 62 (by decide +kernel)) (nw 61 (by decide +kernel))
theorem at_main_v47 : val m c main_v47 = (cmpi .slt : (⟨S3300000, .i32⟩ : BufTy).Contents (Elt F) → (⟨S3300000, .i32⟩ : BufTy).Contents (Elt F) → (⟨S3300000, .i1⟩ : BufTy).Contents (Elt F)) (val m c main_v17) (val m c main_v46) :=
  Cert.LibStraightLine.binary_at (ops := line (F := F)) (V := fun b => m (c, b)) (a := main_v17) (b := main_v46) (y := main_v47) (f := (cmpi .slt : (⟨S3300000, .i32⟩ : BufTy).Contents (Elt F) → (⟨S3300000, .i32⟩ : BufTy).Contents (Elt F) → (⟨S3300000, .i1⟩ : BufTy).Contents (Elt F))) (ha := by decide) (hb := by decide) (hy := by decide) 62 (lt_len (by decide)) rfl (nw 63 (by decide +kernel)) (nw 62 (by decide +kernel)) (nw 62 (by decide +kernel))
theorem at_main_c_11 : val m c main_c_11 = (constantI S_ 32 100000#32) :=
  Cert.LibStraightLine.nullary_at (ops := line (F := F)) (V := fun b => m (c, b)) (y := main_c_11) (v := (constantI S_ 32 100000#32)) (hy := by decide) 63 (lt_len (by decide)) rfl (nw 64 (by decide +kernel))
theorem at_main_v48 : val m c main_v48 = (broadcastInDim S3300000 ![] bcast_S_S3300000 : (⟨S_, .i32⟩ : BufTy).Contents (Elt F) → (⟨S3300000, .i32⟩ : BufTy).Contents (Elt F)) (val m c main_c_11) :=
  Cert.LibStraightLine.unary_at (ops := line (F := F)) (V := fun b => m (c, b)) (x := main_c_11) (y := main_v48) (f := (broadcastInDim S3300000 ![] bcast_S_S3300000 : (⟨S_, .i32⟩ : BufTy).Contents (Elt F) → (⟨S3300000, .i32⟩ : BufTy).Contents (Elt F))) (hx := by decide) (hy := by decide) 64 (lt_len (by decide)) rfl (nw 65 (by decide +kernel)) (nw 64 (by decide +kernel))
theorem at_main_v49 : val m c main_v49 = (addi : (⟨S3300000, .i32⟩ : BufTy).Contents (Elt F) → (⟨S3300000, .i32⟩ : BufTy).Contents (Elt F) → (⟨S3300000, .i32⟩ : BufTy).Contents (Elt F)) (val m c main_v17) (val m c main_v48) :=
  Cert.LibStraightLine.binary_at (ops := line (F := F)) (V := fun b => m (c, b)) (a := main_v17) (b := main_v48) (y := main_v49) (f := (addi : (⟨S3300000, .i32⟩ : BufTy).Contents (Elt F) → (⟨S3300000, .i32⟩ : BufTy).Contents (Elt F) → (⟨S3300000, .i32⟩ : BufTy).Contents (Elt F))) (ha := by decide) (hb := by decide) (hy := by decide) 65 (lt_len (by decide)) rfl (nw 66 (by decide +kernel)) (nw 65 (by decide +kernel)) (nw 65 (by decide +kernel))
theorem at_main_v50 : val m c main_v50 = (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)) (val m c main_v47) (val m c main_v49) (val m c main_v17) :=
  Cert.LibStraightLine.ternary_at (ops := line (F := F)) (V := fun b => m (c, b)) (c := main_v47) (a := main_v49) (b := main_v17) (y := main_v50) (f := (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F))) (hc := by decide) (ha := by decide) (hb := by decide) (hy := by decide) 66 (lt_len (by decide)) rfl (nw 67 (by decide +kernel)) (nw 66 (by decide +kernel)) (nw 66 (by decide +kernel)) (nw 66 (by decide +kernel))
theorem at_main_v51 : val m c main_v51 = (broadcastInDim S3300000x1 ![0] bcast_S3300000_S3300000x1_0 : (⟨S3300000, .i32⟩ : BufTy).Contents (Elt F) → (⟨S3300000x1, .i32⟩ : BufTy).Contents (Elt F)) (val m c main_v50) :=
  Cert.LibStraightLine.unary_at (ops := line (F := F)) (V := fun b => m (c, b)) (x := main_v50) (y := main_v51) (f := (broadcastInDim S3300000x1 ![0] bcast_S3300000_S3300000x1_0 : (⟨S3300000, .i32⟩ : BufTy).Contents (Elt F) → (⟨S3300000x1, .i32⟩ : BufTy).Contents (Elt F))) (hx := by decide) (hy := by decide) 67 (lt_len (by decide)) rfl (nw 68 (by decide +kernel)) (nw 67 (by decide +kernel))
theorem at_main_v52 : val m c main_v52 = ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)) (val m c main_v10) (val m c main_v51) :=
  Cert.LibStraightLine.binary_at (ops := line (F := F)) (V := fun b => m (c, b)) (a := main_v10) (b := main_v51) (y := main_v52) (f := ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F))) (ha := by decide) (hb := by decide) (hy := by decide) 68 (lt_len (by decide)) rfl (nw 69 (by decide +kernel)) (nw 68 (by decide +kernel)) (nw 68 (by decide +kernel))
theorem at_main_v53 : val m c main_v53 = (broadcastInDim S3300000x16 ![0, 1] bcast_S3300000x1_S3300000x16_0_1 : (⟨S3300000x1, .f32⟩ : BufTy).Contents (Elt F) → (⟨S3300000x16, .f32⟩ : BufTy).Contents (Elt F)) (val m c main_v45) :=
  Cert.LibStraightLine.unary_at (ops := line (F := F)) (V := fun b => m (c, b)) (x := main_v45) (y := main_v53) (f := (broadcastInDim S3300000x16 ![0, 1] bcast_S3300000x1_S3300000x16_0_1 : (⟨S3300000x1, .f32⟩ : BufTy).Contents (Elt F) → (⟨S3300000x16, .f32⟩ : BufTy).Contents (Elt F))) (hx := by decide) (hy := by decide) 69 (lt_len (by decide)) rfl (nw 70 (by decide +kernel)) (nw 69 (by decide +kernel))
theorem at_main_v54 : val m c main_v54 = (mulf : (⟨S3300000x16, .f32⟩ : BufTy).Contents (Elt F) → (⟨S3300000x16, .f32⟩ : BufTy).Contents (Elt F) → (⟨S3300000x16, .f32⟩ : BufTy).Contents (Elt F)) (val m c main_v53) (val m c main_v52) :=
  Cert.LibStraightLine.binary_at (ops := line (F := F)) (V := fun b => m (c, b)) (a := main_v53) (b := main_v52) (y := main_v54) (f := (mulf : (⟨S3300000x16, .f32⟩ : BufTy).Contents (Elt F) → (⟨S3300000x16, .f32⟩ : BufTy).Contents (Elt F) → (⟨S3300000x16, .f32⟩ : BufTy).Contents (Elt F))) (ha := by decide) (hb := by decide) (hy := by decide) 70 (lt_len (by decide)) rfl (nw 71 (by decide +kernel)) (nw 70 (by decide +kernel)) (nw 70 (by decide +kernel))
theorem at_main_cst_12 : val m c main_cst_12 = (constant S_ .f32 0x00000000#32) :=
  Cert.LibStraightLine.nullary_at (ops := line (F := F)) (V := fun b => m (c, b)) (y := main_cst_12) (v := (constant S_ .f32 0x00000000#32)) (hy := by decide) 71 (lt_len (by decide)) rfl (nw 72 (by decide +kernel))
theorem at_main_v55 : val m c main_v55 = (broadcastInDim S100000x16 ![] bcast_S_S100000x16 : (⟨S_, .f32⟩ : BufTy).Contents (Elt F) → (⟨S100000x16, .f32⟩ : BufTy).Contents (Elt F)) (val m c main_cst_12) :=
  Cert.LibStraightLine.unary_at (ops := line (F := F)) (V := fun b => m (c, b)) (x := main_cst_12) (y := main_v55) (f := (broadcastInDim S100000x16 ![] bcast_S_S100000x16 : (⟨S_, .f32⟩ : BufTy).Contents (Elt F) → (⟨S100000x16, .f32⟩ : BufTy).Contents (Elt F))) (hx := by decide) (hy := by decide) 72 (lt_len (by decide)) rfl (nw 73 (by decide +kernel)) (nw 72 (by decide +kernel))
theorem at_main_v56 : val m c main_v56 = (broadcastInDim S3300000x1 ![0] bcast_S3300000_S3300000x1_0 : (⟨S3300000, .i32⟩ : BufTy).Contents (Elt F) → (⟨S3300000x1, .i32⟩ : BufTy).Contents (Elt F)) (val m c main_v14) :=
  Cert.LibStraightLine.unary_at (ops := line (F := F)) (V := fun b => m (c, b)) (x := main_v14) (y := main_v56) (f := (broadcastInDim S3300000x1 ![0] bcast_S3300000_S3300000x1_0 : (⟨S3300000, .i32⟩ : BufTy).Contents (Elt F) → (⟨S3300000x1, .i32⟩ : BufTy).Contents (Elt F))) (hx := by decide) (hy := by decide) 73 (lt_len (by decide)) rfl (nw 74 (by decide +kernel)) (nw 73 (by decide +kernel))
theorem at_main_v57 : val m c main_v57 = ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) (val m c main_v55) (val m c main_v56) (val m c main_v54) :=
  Cert.LibStraightLine.ternary_at (ops := line (F := F)) (V := fun b => m (c, b)) (c := main_v55) (a := main_v56) (b := main_v54) (y := main_v57) (f := ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F))) (hc := by decide) (ha := by decide) (hb := by decide) (hy := by decide) 74 (lt_len (by decide)) rfl (nw 75 (by decide +kernel)) (nw 74 (by decide +kernel)) (nw 74 (by decide +kernel)) (nw 74 (by decide +kernel))

end Cert.KernelIdeal.Host

end
-- ==== Proof.KernelStages3.lean ====
/- GENERATED by: bun scratch/gen_tables.js $KIT/certs/proofs/170179_j64828236366589_1_alg — a table, one line per host operation, of the idealized kernel's buffers when its region is entered, host operations 76 to 100: the buffer operation k
   writes holds that operation's function of what its operand buffers hold. -/
import proofs.«170179_j64828236366589_1_alg».proof.Proof.KernelLine

noncomputable section

set_option maxHeartbeats 4000000

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (c : Dev nD)

theorem at_main_v58 : val m c main_v58 = (broadcastInDim S100000x1 ![0] bcast_S100000_S100000x1_0 : (⟨S100000, .f32⟩ : BufTy).Contents (Elt F) → (⟨S100000x1, .f32⟩ : BufTy).Contents (Elt F)) (val m c main_v44) :=
  Cert.LibStraightLine.unary_at (ops := line (F := F)) (V := fun b => m (c, b)) (x := main_v44) (y := main_v58) (f := (broadcastInDim S100000x1 ![0] bcast_S100000_S100000x1_0 : (⟨S100000, .f32⟩ : BufTy).Contents (Elt F) → (⟨S100000x1, .f32⟩ : BufTy).Contents (Elt F))) (hx := by decide) (hy := by decide) 75 (lt_len (by decide)) rfl (nw 76 (by decide +kernel)) (nw 75 (by decide +kernel))
theorem at_main_v59 : val m c main_v59 = (broadcastInDim S100000x16 ![0, 1] bcast_S100000x1_S100000x16_0_1 : (⟨S100000x1, .f32⟩ : BufTy).Contents (Elt F) → (⟨S100000x16, .f32⟩ : BufTy).Contents (Elt F)) (val m c main_v58) :=
  Cert.LibStraightLine.unary_at (ops := line (F := F)) (V := fun b => m (c, b)) (x := main_v58) (y := main_v59) (f := (broadcastInDim S100000x16 ![0, 1] bcast_S100000x1_S100000x16_0_1 : (⟨S100000x1, .f32⟩ : BufTy).Contents (Elt F) → (⟨S100000x16, .f32⟩ : BufTy).Contents (Elt F))) (hx := by decide) (hy := by decide) 76 (lt_len (by decide)) rfl (nw 77 (by decide +kernel)) (nw 76 (by decide +kernel))
theorem at_main_v60 : val m c main_v60 = (mulf : (⟨S100000x16, .f32⟩ : BufTy).Contents (Elt F) → (⟨S100000x16, .f32⟩ : BufTy).Contents (Elt F) → (⟨S100000x16, .f32⟩ : BufTy).Contents (Elt F)) (val m c main_v59) (val m c main_v10) :=
  Cert.LibStraightLine.binary_at (ops := line (F := F)) (V := fun b => m (c, b)) (a := main_v59) (b := main_v10) (y := main_v60) (f := (mulf : (⟨S100000x16, .f32⟩ : BufTy).Contents (Elt F) → (⟨S100000x16, .f32⟩ : BufTy).Contents (Elt F) → (⟨S100000x16, .f32⟩ : BufTy).Contents (Elt F))) (ha := by decide) (hb := by decide) (hy := by decide) 77 (lt_len (by decide)) rfl (nw 78 (by decide +kernel)) (nw 77 (by decide +kernel)) (nw 77 (by decide +kernel))
theorem at_main_v61 : val m c main_v61 = (subf : (⟨S100000x16, .f32⟩ : BufTy).Contents (Elt F) → (⟨S100000x16, .f32⟩ : BufTy).Contents (Elt F) → (⟨S100000x16, .f32⟩ : BufTy).Contents (Elt F)) (val m c main_v60) (val m c main_v57) :=
  Cert.LibStraightLine.binary_at (ops := line (F := F)) (V := fun b => m (c, b)) (a := main_v60) (b := main_v57) (y := main_v61) (f := (subf : (⟨S100000x16, .f32⟩ : BufTy).Contents (Elt F) → (⟨S100000x16, .f32⟩ : BufTy).Contents (Elt F) → (⟨S100000x16, .f32⟩ : BufTy).Contents (Elt F))) (ha := by decide) (hb := by decide) (hy := by decide) 78 (lt_len (by decide)) rfl (nw 79 (by decide +kernel)) (nw 78 (by decide +kernel)) (nw 78 (by decide +kernel))
theorem at_main_v62 : val m c main_v62 = (mulf : (⟨S100000x16, .f32⟩ : BufTy).Contents (Elt F) → (⟨S100000x16, .f32⟩ : BufTy).Contents (Elt F) → (⟨S100000x16, .f32⟩ : BufTy).Contents (Elt F)) (val m c main_v10) (val m c main_v61) :=
  Cert.LibStraightLine.binary_at (ops := line (F := F)) (V := fun b => m (c, b)) (a := main_v10) (b := main_v61) (y := main_v62) (f := (mulf : (⟨S100000x16, .f32⟩ : BufTy).Contents (Elt F) → (⟨S100000x16, .f32⟩ : BufTy).Contents (Elt F) → (⟨S100000x16, .f32⟩ : BufTy).Contents (Elt F))) (ha := by decide) (hb := by decide) (hy := by decide) 79 (lt_len (by decide)) rfl (nw 80 (by decide +kernel)) (nw 79 (by decide +kernel)) (nw 79 (by decide +kernel))
theorem at_main_cst_13 : val m c main_cst_13 = (constant S_ .f32 0x00000000#32) :=
  Cert.LibStraightLine.nullary_at (ops := line (F := F)) (V := fun b => m (c, b)) (y := main_cst_13) (v := (constant S_ .f32 0x00000000#32)) (hy := by decide) 80 (lt_len (by decide)) rfl (nw 81 (by decide +kernel))
theorem at_main_v63 : val m c main_v63 = ((fun x v => Host.reduceAdd x v reducesTo_S100000x16_S_d0_1 h_S_) : (⟨S100000x16, .f32⟩ : BufTy).Contents (Elt F) → (⟨S_, .f32⟩ : BufTy).Contents (Elt F) → (⟨S_, .f32⟩ : BufTy).Contents (Elt F)) (val m c main_v62) (val m c main_cst_13) :=
  Cert.LibStraightLine.binary_at (ops := line (F := F)) (V := fun b => m (c, b)) (a := main_v62) (b := main_cst_13) (y := main_v63) (f := ((fun x v => Host.reduceAdd x v reducesTo_S100000x16_S_d0_1 h_S_) : (⟨S100000x16, .f32⟩ : BufTy).Contents (Elt F) → (⟨S_, .f32⟩ : BufTy).Contents (Elt F) → (⟨S_, .f32⟩ : BufTy).Contents (Elt F))) (ha := by decide) (hb := by decide) (hy := by decide) 81 (lt_len (by decide)) rfl (nw 82 (by decide +kernel)) (nw 81 (by decide +kernel)) (nw 81 (by decide +kernel))
theorem at_main_v64 : val m c main_v64 = ((truncf .bf16 · bitsLt_bf16_f32) : (⟨S100000x512, .f32⟩ : BufTy).Contents (Elt F) → (⟨S100000x512, .bf16⟩ : BufTy).Contents (Elt F)) (val m c main_arg0) :=
  Cert.LibStraightLine.unary_at (ops := line (F := F)) (V := fun b => m (c, b)) (x := main_arg0) (y := main_v64) (f := ((truncf .bf16 · bitsLt_bf16_f32) : (⟨S100000x512, .f32⟩ : BufTy).Contents (Elt F) → (⟨S100000x512, .bf16⟩ : BufTy).Contents (Elt F))) (hx := by decide) (hy := by decide) 82 (lt_len (by decide)) rfl (nw 83 (by decide +kernel)) (nw 82 (by decide +kernel))
theorem at_main_v65 : val m c main_v65 = ((truncf .bf16 · bitsLt_bf16_f32) : (⟨S100000x16, .f32⟩ : BufTy).Contents (Elt F) → (⟨S100000x16, .bf16⟩ : BufTy).Contents (Elt F)) (val m c main_v10) :=
  Cert.LibStraightLine.unary_at (ops := line (F := F)) (V := fun b => m (c, b)) (x := main_v10) (y := main_v65) (f := ((truncf .bf16 · bitsLt_bf16_f32) : (⟨S100000x16, .f32⟩ : BufTy).Contents (Elt F) → (⟨S100000x16, .bf16⟩ : BufTy).Contents (Elt F))) (hx := by decide) (hy := by decide) 83 (lt_len (by decide)) rfl (nw 84 (by decide +kernel)) (nw 83 (by decide +kernel))
theorem at_main_v66 : val m c main_v66 = ((transpose S512x256 [1, 0] · transposes_S256x512_S512x256_1_0) : (⟨S256x512, .f32⟩ : BufTy).Contents (Elt F) → (⟨S512x256, .f32⟩ : BufTy).Contents (Elt F)) (val m c main_arg2) :=
  Cert.LibStraightLine.unary_at (ops := line (F := F)) (V := fun b => m (c, b)) (x := main_arg2) (y := main_v66) (f := ((transpose S512x256 [1, 0] · transposes_S256x512_S512x256_1_0) : (⟨S256x512, .f32⟩ : BufTy).Contents (Elt F) → (⟨S512x256, .f32⟩ : BufTy).Contents (Elt F))) (hx := by decide) (hy := by decide) 84 (lt_len (by decide)) rfl (nw 85 (by decide +kernel)) (nw 84 (by decide +kernel))
theorem at_main_v67 : val m c main_v67 = ((truncf .bf16 · bitsLt_bf16_f32) : (⟨S512x256, .f32⟩ : BufTy).Contents (Elt F) → (⟨S512x256, .bf16⟩ : BufTy).Contents (Elt F)) (val m c main_v66) :=
  Cert.LibStraightLine.unary_at (ops := line (F := F)) (V := fun b => m (c, b)) (x := main_v66) (y := main_v67) (f := ((truncf .bf16 · bitsLt_bf16_f32) : (⟨S512x256, .f32⟩ : BufTy).Contents (Elt F) → (⟨S512x256, .bf16⟩ : BufTy).Contents (Elt F))) (hx := by decide) (hy := by decide) 85 (lt_len (by decide)) rfl (nw 86 (by decide +kernel)) (nw 85 (by decide +kernel))
/-- The function of the operation that writes `main_v68`, named. -/
abbrev fn_main_v68 : (⟨S1024x272, .f32⟩ : BufTy).Contents (Elt F) → (⟨S1024x256, .f32⟩ : BufTy).Contents (Elt F) := (extractStridedSlice S1024x256 ![0, 0] · slices_S1024x272_S1024x256_0_0)
theorem at_main_v68 : val m c main_v68 = fn_main_v68 (F := F) (val m c main_arg5) :=
  Cert.LibStraightLine.unary_at (ops := line (F := F)) (V := fun b => m (c, b)) (x := main_arg5) (y := main_v68) (f := fn_main_v68 (F := F)) (hx := by decide) (hy := by decide) 86 (lt_len (by decide)) rfl (nw 87 (by decide +kernel)) (nw 86 (by decide +kernel))
theorem at_main_v69 : val m c main_v69 = ((transpose S256x1024 [1, 0] · transposes_S1024x256_S256x1024_1_0) : (⟨S1024x256, .f32⟩ : BufTy).Contents (Elt F) → (⟨S256x1024, .f32⟩ : BufTy).Contents (Elt F)) (val m c main_v68) :=
  Cert.LibStraightLine.unary_at (ops := line (F := F)) (V := fun b => m (c, b)) (x := main_v68) (y := main_v69) (f := ((transpose S256x1024 [1, 0] · transposes_S1024x256_S256x1024_1_0) : (⟨S1024x256, .f32⟩ : BufTy).Contents (Elt F) → (⟨S256x1024, .f32⟩ : BufTy).Contents (Elt F))) (hx := by decide) (hy := by decide) 87 (lt_len (by decide)) rfl (nw 88 (by decide +kernel)) (nw 87 (by decide +kernel))
theorem at_main_v70 : val m c main_v70 = ((truncf .bf16 · bitsLt_bf16_f32) : (⟨S256x1024, .f32⟩ : BufTy).Contents (Elt F) → (⟨S256x1024, .bf16⟩ : BufTy).Contents (Elt F)) (val m c main_v69) :=
  Cert.LibStraightLine.unary_at (ops := line (F := F)) (V := fun b => m (c, b)) (x := main_v69) (y := main_v70) (f := ((truncf .bf16 · bitsLt_bf16_f32) : (⟨S256x1024, .f32⟩ : BufTy).Contents (Elt F) → (⟨S256x1024, .bf16⟩ : BufTy).Contents (Elt F))) (hx := by decide) (hy := by decide) 88 (lt_len (by decide)) rfl (nw 89 (by decide +kernel)) (nw 88 (by decide +kernel))
/-- The function of the operation that writes `main_v71`, named. -/
abbrev fn_main_v71 : (⟨S1024x272, .f32⟩ : BufTy).Contents (Elt F) → (⟨S1024x16, .f32⟩ : BufTy).Contents (Elt F) := (extractStridedSlice S1024x16 ![0, 256] · slices_S1024x272_S1024x16_0_256)
theorem at_main_v71 : val m c main_v71 = fn_main_v71 (F := F) (val m c main_arg5) :=
  Cert.LibStraightLine.unary_at (ops := line (F := F)) (V := fun b => m (c, b)) (x := main_arg5) (y := main_v71) (f := fn_main_v71 (F := F)) (hx := by decide) (hy := by decide) 89 (lt_len (by decide)) rfl (nw 90 (by decide +kernel)) (nw 89 (by decide +kernel))
theorem at_main_v72 : val m c main_v72 = ((transpose S16x1024 [1, 0] · transposes_S1024x16_S16x1024_1_0) : (⟨S1024x16, .f32⟩ : BufTy).Contents (Elt F) → (⟨S16x1024, .f32⟩ : BufTy).Contents (Elt F)) (val m c main_v71) :=
  Cert.LibStraightLine.unary_at (ops := line (F := F)) (V := fun b => m (c, b)) (x := main_v71) (y := main_v72) (f := ((transpose S16x1024 [1, 0] · transposes_S1024x16_S16x1024_1_0) : (⟨S1024x16, .f32⟩ : BufTy).Contents (Elt F) → (⟨S16x1024, .f32⟩ : BufTy).Contents (Elt F))) (hx := by decide) (hy := by decide) 90 (lt_len (by decide)) rfl (nw 91 (by decide +kernel)) (nw 90 (by decide +kernel))
theorem at_main_v73 : val m c main_v73 = ((truncf .bf16 · bitsLt_bf16_f32) : (⟨S16x1024, .f32⟩ : BufTy).Contents (Elt F) → (⟨S16x1024, .bf16⟩ : BufTy).Contents (Elt F)) (val m c main_v72) :=
  Cert.LibStraightLine.unary_at (ops := line (F := F)) (V := fun b => m (c, b)) (x := main_v72) (y := main_v73) (f := ((truncf .bf16 · bitsLt_bf16_f32) : (⟨S16x1024, .f32⟩ : BufTy).Contents (Elt F) → (⟨S16x1024, .bf16⟩ : BufTy).Contents (Elt F))) (hx := by decide) (hy := by decide) 91 (lt_len (by decide)) rfl (nw 92 (by decide +kernel)) (nw 91 (by decide +kernel))
theorem at_main_v74 : val m c main_v74 = ((transpose S1024x256 [1, 0] · transposes_S256x1024_S1024x256_1_0) : (⟨S256x1024, .f32⟩ : BufTy).Contents (Elt F) → (⟨S1024x256, .f32⟩ : BufTy).Contents (Elt F)) (val m c main_arg7) :=
  Cert.LibStraightLine.unary_at (ops := line (F := F)) (V := fun b => m (c, b)) (x := main_arg7) (y := main_v74) (f := ((transpose S1024x256 [1, 0] · transposes_S256x1024_S1024x256_1_0) : (⟨S256x1024, .f32⟩ : BufTy).Contents (Elt F) → (⟨S1024x256, .f32⟩ : BufTy).Contents (Elt F))) (hx := by decide) (hy := by decide) 92 (lt_len (by decide)) rfl (nw 93 (by decide +kernel)) (nw 92 (by decide +kernel))
theorem at_main_v75 : val m c main_v75 = ((truncf .bf16 · bitsLt_bf16_f32) : (⟨S1024x256, .f32⟩ : BufTy).Contents (Elt F) → (⟨S1024x256, .bf16⟩ : BufTy).Contents (Elt F)) (val m c main_v74) :=
  Cert.LibStraightLine.unary_at (ops := line (F := F)) (V := fun b => m (c, b)) (x := main_v74) (y := main_v75) (f := ((truncf .bf16 · bitsLt_bf16_f32) : (⟨S1024x256, .f32⟩ : BufTy).Contents (Elt F) → (⟨S1024x256, .bf16⟩ : BufTy).Contents (Elt F))) (hx := by decide) (hy := by decide) 93 (lt_len (by decide)) rfl (nw 94 (by decide +kernel)) (nw 93 (by decide +kernel))
theorem at_main_v76 : val m c main_v76 = ((transpose S256x16 [1, 0] · transposes_S16x256_S256x16_1_0) : (⟨S16x256, .f32⟩ : BufTy).Contents (Elt F) → (⟨S256x16, .f32⟩ : BufTy).Contents (Elt F)) (val m c main_arg9) :=
  Cert.LibStraightLine.unary_at (ops := line (F := F)) (V := fun b => m (c, b)) (x := main_arg9) (y := main_v76) (f := ((transpose S256x16 [1, 0] · transposes_S16x256_S256x16_1_0) : (⟨S16x256, .f32⟩ : BufTy).Contents (Elt F) → (⟨S256x16, .f32⟩ : BufTy).Contents (Elt F))) (hx := by decide) (hy := by decide) 94 (lt_len (by decide)) rfl (nw 95 (by decide +kernel)) (nw 94 (by decide +kernel))
theorem at_main_v77 : val m c main_v77 = ((truncf .bf16 · bitsLt_bf16_f32) : (⟨S256x16, .f32⟩ : BufTy).Contents (Elt F) → (⟨S256x16, .bf16⟩ : BufTy).Contents (Elt F)) (val m c main_v76) :=
  Cert.LibStraightLine.unary_at (ops := line (F := F)) (V := fun b => m (c, b)) (x := main_v76) (y := main_v77) (f := ((truncf .bf16 · bitsLt_bf16_f32) : (⟨S256x16, .f32⟩ : BufTy).Contents (Elt F) → (⟨S256x16, .bf16⟩ : BufTy).Contents (Elt F))) (hx := by decide) (hy := by decide) 95 (lt_len (by decide)) rfl (nw 96 (by decide +kernel)) (nw 95 (by decide +kernel))
theorem at_main_v78 : val m c main_v78 = shapeCast S1x256 (val m c main_arg3) shapeCasts_S256_S1x256 :=
  Cert.LibStraightLine.reshape_at (ops := line (F := F)) (V := fun b => m (c, b)) (x := main_arg3) (y := main_v78) (he := rfl) (hn := shapeCasts_S256_S1x256) (hx := by decide) (hy := by decide) 96 (lt_len (by decide)) rfl (nw 97 (by decide +kernel)) (nw 96 (by decide +kernel))
theorem at_main_v79 : val m c main_v79 = shapeCast S1x1024 (val m c main_arg6) shapeCasts_S1024_S1x1024 :=
  Cert.LibStraightLine.reshape_at (ops := line (F := F)) (V := fun b => m (c, b)) (x := main_arg6) (y := main_v79) (he := rfl) (hn := shapeCasts_S1024_S1x1024) (hx := by decide) (hy := by decide) 97 (lt_len (by decide)) rfl (nw 98 (by decide +kernel)) (nw 97 (by decide +kernel))
theorem at_main_v80 : val m c main_v80 = shapeCast S1x256 (val m c main_arg8) shapeCasts_S256_S1x256 :=
  Cert.LibStraightLine.reshape_at (ops := line (F := F)) (V := fun b => m (c, b)) (x := main_arg8) (y := main_v80) (he := rfl) (hn := shapeCasts_S256_S1x256) (hx := by decide) (hy := by decide) 98 (lt_len (by decide)) rfl (nw 99 (by decide +kernel)) (nw 98 (by decide +kernel))
theorem at_main_v81 : val m c main_v81 = shapeCast S1x16 (val m c main_arg10) shapeCasts_S16_S1x16 :=
  Cert.LibStraightLine.reshape_at (ops := line (F := F)) (V := fun b => m (c, b)) (x := main_arg10) (y := main_v81) (he := rfl) (hn := shapeCasts_S16_S1x16) (hx := by decide) (hy := by decide) 99 (lt_len (by decide)) rfl (nw 100 (by decide +kernel)) (nw 99 (by decide +kernel))

end Cert.KernelIdeal.Host

end
-- ==== Proof.SharedChain.lean ====
/-
  What the two programs share: the cluster probabilities and the smoothness loss.

  Both programs take the softmax Q of the cluster logits row by row, build the edge lists with one self-loop per node,
  count the degrees by a scatter-add of ones, weight every edge by the inverse square roots of its endpoints' degrees,
  scatter-add the weighted rows of Q into the node rows, form (row sums of the weights)·Q minus that, and sum Q times the
  result over all entries. They do so by the same eighty-two host operations, in the same order, on the same two inputs
  (the edge list and the logits): only the buffers' numbers differ. So, operation by operation, the buffer the reference
  writes holds what the buffer the kernel's program writes holds; read from the last operation back to the inputs, each side
  is one and the same term of the two inputs. Nothing of the operations themselves is opened: no sum, gather or scatter is
  ever computed.
-/
import proofs.«170179_j64828236366589_1_alg».proof.Proof.RefStages0
import proofs.«170179_j64828236366589_1_alg».proof.Proof.RefStages1
import proofs.«170179_j64828236366589_1_alg».proof.Proof.RefStages2
import proofs.«170179_j64828236366589_1_alg».proof.Proof.RefStages3
import proofs.«170179_j64828236366589_1_alg».proof.Proof.KernelStages0
import proofs.«170179_j64828236366589_1_alg».proof.Proof.KernelStages1
import proofs.«170179_j64828236366589_1_alg».proof.Proof.KernelStages2
import proofs.«170179_j64828236366589_1_alg».proof.Proof.KernelStages3

noncomputable section

namespace Cert.Shared

open Idealize.ShloMosaic Idealize.ShloMosaic.TcCoe Idealize.SL.Sem Idealize.ShloMosaic.StableHlo

variable {F : FTy → Type} [FloatOps F]
variable (V0 : Valuation Cert.ReferenceIdeal.τ Cert.ReferenceIdeal.sig (Elt F))
variable (m : (ℓ : Loc Cert.KernelIdeal.nD Cert.KernelIdeal.τ Cert.KernelIdeal.sig) → Buf (Elt F) ℓ) (c : Dev Cert.KernelIdeal.nD)

/-- THE PROBABILITIES AGREE: from equal logits, the reference's softmax buffer holds what the kernel's program's holds — the
    fourteen operations (row maximum from −∞, shift, exponential, row sum, quotient) are the same on both sides. -/
theorem probs_agree
    (h4 : V0 (Proc.devRef .tc Cert.ReferenceIdeal.main_arg4)
      = m ((c : Thread Cert.KernelIdeal.nD Cert.KernelIdeal.τ).loc Cert.KernelIdeal.main_arg4)) :
    Cert.ReferenceIdeal.Line.val V0 Cert.ReferenceIdeal.main_v15 = Cert.KernelIdeal.Host.val m c Cert.KernelIdeal.main_v10 := by
  simp only [
    Cert.ReferenceIdeal.Line.at_main_cst, Cert.ReferenceIdeal.Line.at_main_v5, Cert.ReferenceIdeal.Line.at_main_cst_0, Cert.ReferenceIdeal.Line.at_main_v6, Cert.ReferenceIdeal.Line.at_main_v7, Cert.ReferenceIdeal.Line.at_main_v8, Cert.ReferenceIdeal.Line.at_main_v9,
    Cert.ReferenceIdeal.Line.at_main_v10, Cert.ReferenceIdeal.Line.at_main_v11, Cert.ReferenceIdeal.Line.at_main_cst_1, Cert.ReferenceIdeal.Line.at_main_v12, Cert.ReferenceIdeal.Line.at_main_v13, Cert.ReferenceIdeal.Line.at_main_v14, Cert.ReferenceIdeal.Line.at_main_v15,
    Cert.ReferenceIdeal.Line.at_main_arg4, Cert.KernelIdeal.Host.at_main_cst, Cert.KernelIdeal.Host.at_main_v0, Cert.KernelIdeal.Host.at_main_cst_0, Cert.KernelIdeal.Host.at_main_v1, Cert.KernelIdeal.Host.at_main_v2, Cert.KernelIdeal.Host.at_main_v3,
    Cert.KernelIdeal.Host.at_main_v4, Cert.KernelIdeal.Host.at_main_v5, Cert.KernelIdeal.Host.at_main_v6, Cert.KernelIdeal.Host.at_main_cst_1, Cert.KernelIdeal.Host.at_main_v7, Cert.KernelIdeal.Host.at_main_v8, Cert.KernelIdeal.Host.at_main_v9,
    Cert.KernelIdeal.Host.at_main_v10, Cert.KernelIdeal.Host.at_main_arg4]
  rw [h4]
  all_goals rfl

/-- THE LOSSES AGREE: from equal edge lists and equal logits, the reference's loss buffer holds what the kernel's program's
    holds — the eighty-two operations are the same on both sides. -/
theorem loss_agree
    (h1 : V0 (Proc.devRef .tc Cert.ReferenceIdeal.main_arg1)
      = m ((c : Thread Cert.KernelIdeal.nD Cert.KernelIdeal.τ).loc Cert.KernelIdeal.main_arg1))
    (h4 : V0 (Proc.devRef .tc Cert.ReferenceIdeal.main_arg4)
      = m ((c : Thread Cert.KernelIdeal.nD Cert.KernelIdeal.τ).loc Cert.KernelIdeal.main_arg4)) :
    Cert.ReferenceIdeal.Line.val V0 Cert.ReferenceIdeal.main_v68 = Cert.KernelIdeal.Host.val m c Cert.KernelIdeal.main_v63 := by
  simp only [
    Cert.ReferenceIdeal.Line.at_main_cst, Cert.ReferenceIdeal.Line.at_main_v5, Cert.ReferenceIdeal.Line.at_main_cst_0, Cert.ReferenceIdeal.Line.at_main_v6, Cert.ReferenceIdeal.Line.at_main_v7, Cert.ReferenceIdeal.Line.at_main_v8, Cert.ReferenceIdeal.Line.at_main_v9,
    Cert.ReferenceIdeal.Line.at_main_v10, Cert.ReferenceIdeal.Line.at_main_v11, Cert.ReferenceIdeal.Line.at_main_cst_1, Cert.ReferenceIdeal.Line.at_main_v12, Cert.ReferenceIdeal.Line.at_main_v13, Cert.ReferenceIdeal.Line.at_main_v14, Cert.ReferenceIdeal.Line.at_main_v15,
    Cert.ReferenceIdeal.Line.at_main_v16, Cert.ReferenceIdeal.Line.at_main_v17, Cert.ReferenceIdeal.Line.at_main_v18, Cert.ReferenceIdeal.Line.at_main_v19, Cert.ReferenceIdeal.Line.at_main_v20, Cert.ReferenceIdeal.Line.at_main_v21, Cert.ReferenceIdeal.Line.at_main_v22,
    Cert.ReferenceIdeal.Line.at_main_cst_2, Cert.ReferenceIdeal.Line.at_main_v23, Cert.ReferenceIdeal.Line.at_main_cst_3, Cert.ReferenceIdeal.Line.at_main_v24, Cert.ReferenceIdeal.Line.at_main_v25, Cert.ReferenceIdeal.Line.at_main_v26, Cert.ReferenceIdeal.Line.at_main_cst_4,
    Cert.ReferenceIdeal.Line.at_main_v27, Cert.ReferenceIdeal.Line.at_main_v28, Cert.ReferenceIdeal.Line.at_main_v29, Cert.ReferenceIdeal.Line.at_main_cst_5, Cert.ReferenceIdeal.Line.at_main_call0_v0, Cert.ReferenceIdeal.Line.at_main_call0_v1,
    Cert.ReferenceIdeal.Line.at_main_v30, Cert.ReferenceIdeal.Line.at_main_c, Cert.ReferenceIdeal.Line.at_main_v31, Cert.ReferenceIdeal.Line.at_main_v32, Cert.ReferenceIdeal.Line.at_main_c_6, Cert.ReferenceIdeal.Line.at_main_v33, Cert.ReferenceIdeal.Line.at_main_v34,
    Cert.ReferenceIdeal.Line.at_main_v35, Cert.ReferenceIdeal.Line.at_main_v36, Cert.ReferenceIdeal.Line.at_main_v37, Cert.ReferenceIdeal.Line.at_main_v38, Cert.ReferenceIdeal.Line.at_main_c_7, Cert.ReferenceIdeal.Line.at_main_v39, Cert.ReferenceIdeal.Line.at_main_v40,
    Cert.ReferenceIdeal.Line.at_main_c_8, Cert.ReferenceIdeal.Line.at_main_v41, Cert.ReferenceIdeal.Line.at_main_v42, Cert.ReferenceIdeal.Line.at_main_v43, Cert.ReferenceIdeal.Line.at_main_v44, Cert.ReferenceIdeal.Line.at_main_v45, Cert.ReferenceIdeal.Line.at_main_v46,
    Cert.ReferenceIdeal.Line.at_main_cst_9, Cert.ReferenceIdeal.Line.at_main_v47, Cert.ReferenceIdeal.Line.at_main_v48, Cert.ReferenceIdeal.Line.at_main_v49, Cert.ReferenceIdeal.Line.at_main_v50, Cert.ReferenceIdeal.Line.at_main_c_10, Cert.ReferenceIdeal.Line.at_main_v51,
    Cert.ReferenceIdeal.Line.at_main_v52, Cert.ReferenceIdeal.Line.at_main_c_11, Cert.ReferenceIdeal.Line.at_main_v53, Cert.ReferenceIdeal.Line.at_main_v54, Cert.ReferenceIdeal.Line.at_main_v55, Cert.ReferenceIdeal.Line.at_main_v56, Cert.ReferenceIdeal.Line.at_main_v57,
    Cert.ReferenceIdeal.Line.at_main_v58, Cert.ReferenceIdeal.Line.at_main_v59, Cert.ReferenceIdeal.Line.at_main_cst_12, Cert.ReferenceIdeal.Line.at_main_v60, Cert.ReferenceIdeal.Line.at_main_v61, Cert.ReferenceIdeal.Line.at_main_v62, Cert.ReferenceIdeal.Line.at_main_v63,
    Cert.ReferenceIdeal.Line.at_main_v64, Cert.ReferenceIdeal.Line.at_main_v65, Cert.ReferenceIdeal.Line.at_main_v66, Cert.ReferenceIdeal.Line.at_main_v67, Cert.ReferenceIdeal.Line.at_main_cst_13, Cert.ReferenceIdeal.Line.at_main_v68, Cert.ReferenceIdeal.Line.at_main_arg1,
    Cert.ReferenceIdeal.Line.at_main_arg4, Cert.KernelIdeal.Host.at_main_cst, Cert.KernelIdeal.Host.at_main_v0, Cert.KernelIdeal.Host.at_main_cst_0, Cert.KernelIdeal.Host.at_main_v1, Cert.KernelIdeal.Host.at_main_v2, Cert.KernelIdeal.Host.at_main_v3,
    Cert.KernelIdeal.Host.at_main_v4, Cert.KernelIdeal.Host.at_main_v5, Cert.KernelIdeal.Host.at_main_v6, Cert.KernelIdeal.Host.at_main_cst_1, Cert.KernelIdeal.Host.at_main_v7, Cert.KernelIdeal.Host.at_main_v8, Cert.KernelIdeal.Host.at_main_v9,
    Cert.KernelIdeal.Host.at_main_v10, Cert.KernelIdeal.Host.at_main_v11, Cert.KernelIdeal.Host.at_main_v12, Cert.KernelIdeal.Host.at_main_v13, Cert.KernelIdeal.Host.at_main_v14, Cert.KernelIdeal.Host.at_main_v15, Cert.KernelIdeal.Host.at_main_v16,
    Cert.KernelIdeal.Host.at_main_v17, Cert.KernelIdeal.Host.at_main_cst_2, Cert.KernelIdeal.Host.at_main_v18, Cert.KernelIdeal.Host.at_main_cst_3, Cert.KernelIdeal.Host.at_main_v19, Cert.KernelIdeal.Host.at_main_v20, Cert.KernelIdeal.Host.at_main_v21,
    Cert.KernelIdeal.Host.at_main_cst_4, Cert.KernelIdeal.Host.at_main_v22, Cert.KernelIdeal.Host.at_main_v23, Cert.KernelIdeal.Host.at_main_v24, Cert.KernelIdeal.Host.at_main_cst_5, Cert.KernelIdeal.Host.at_main_call0_v0,
    Cert.KernelIdeal.Host.at_main_call0_v1, Cert.KernelIdeal.Host.at_main_v25, Cert.KernelIdeal.Host.at_main_c, Cert.KernelIdeal.Host.at_main_v26, Cert.KernelIdeal.Host.at_main_v27, Cert.KernelIdeal.Host.at_main_c_6, Cert.KernelIdeal.Host.at_main_v28,
    Cert.KernelIdeal.Host.at_main_v29, Cert.KernelIdeal.Host.at_main_v30, Cert.KernelIdeal.Host.at_main_v31, Cert.KernelIdeal.Host.at_main_v32, Cert.KernelIdeal.Host.at_main_v33, Cert.KernelIdeal.Host.at_main_c_7, Cert.KernelIdeal.Host.at_main_v34,
    Cert.KernelIdeal.Host.at_main_v35, Cert.KernelIdeal.Host.at_main_c_8, Cert.KernelIdeal.Host.at_main_v36, Cert.KernelIdeal.Host.at_main_v37, Cert.KernelIdeal.Host.at_main_v38, Cert.KernelIdeal.Host.at_main_v39, Cert.KernelIdeal.Host.at_main_v40,
    Cert.KernelIdeal.Host.at_main_v41, Cert.KernelIdeal.Host.at_main_cst_9, Cert.KernelIdeal.Host.at_main_v42, Cert.KernelIdeal.Host.at_main_v43, Cert.KernelIdeal.Host.at_main_v44, Cert.KernelIdeal.Host.at_main_v45, Cert.KernelIdeal.Host.at_main_c_10,
    Cert.KernelIdeal.Host.at_main_v46, Cert.KernelIdeal.Host.at_main_v47, Cert.KernelIdeal.Host.at_main_c_11, Cert.KernelIdeal.Host.at_main_v48, Cert.KernelIdeal.Host.at_main_v49, Cert.KernelIdeal.Host.at_main_v50, Cert.KernelIdeal.Host.at_main_v51,
    Cert.KernelIdeal.Host.at_main_v52, Cert.KernelIdeal.Host.at_main_v53, Cert.KernelIdeal.Host.at_main_v54, Cert.KernelIdeal.Host.at_main_cst_12, Cert.KernelIdeal.Host.at_main_v55, Cert.KernelIdeal.Host.at_main_v56, Cert.KernelIdeal.Host.at_main_v57,
    Cert.KernelIdeal.Host.at_main_v58, Cert.KernelIdeal.Host.at_main_v59, Cert.KernelIdeal.Host.at_main_v60, Cert.KernelIdeal.Host.at_main_v61, Cert.KernelIdeal.Host.at_main_v62, Cert.KernelIdeal.Host.at_main_cst_13, Cert.KernelIdeal.Host.at_main_v63,
    Cert.KernelIdeal.Host.at_main_arg1, Cert.KernelIdeal.Host.at_main_arg4]
  -- the edge lists sit inside the concatenations' lists of pieces: slice, recast and the node numbering, both sides alike
  rw [Cert.ReferenceIdeal.Line.at_main_v18, Cert.ReferenceIdeal.Line.at_main_v21, Cert.ReferenceIdeal.Line.at_main_v16, Cert.ReferenceIdeal.Line.at_main_v17, Cert.ReferenceIdeal.Line.at_main_v20,
    Cert.ReferenceIdeal.Line.at_main_arg1, Cert.KernelIdeal.Host.at_main_v13, Cert.KernelIdeal.Host.at_main_v16, Cert.KernelIdeal.Host.at_main_v11,
    Cert.KernelIdeal.Host.at_main_v12, Cert.KernelIdeal.Host.at_main_v15, Cert.KernelIdeal.Host.at_main_arg1]
  rw [h1, h4]
  all_goals rfl

end Cert.Shared

end
-- ==== Proof.RefStages4.lean ====
/- GENERATED by: bun scratch/gen_tables.js $KIT/certs/proofs/170179_j64828236366589_1_alg — a table, one line per host operation, of the reference's buffers after its whole line, operations 105 to 126: the buffer operation k writes holds that
   operation's function of what its operand buffers hold (no buffer is written twice and operands are written earlier, so all are read
   after the whole line). -/
import proofs.«170179_j64828236366589_1_alg».proof.Proof.RefLine

noncomputable section

set_option maxHeartbeats 4000000

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

theorem at_main_v79 : val V0 main_v79 = (broadcastInDim S100000x256 ![0, 1] bcast_S1x256_S100000x256_0_1 : (⟨S1x256, .f32⟩ : BufTy).Contents (Elt F) → (⟨S100000x256, .f32⟩ : BufTy).Contents (Elt F)) (val V0 main_v78) :=
  Cert.LibStraightLine.unary_at (ops := ops (F := F)) (V := V0) (x := main_v78) (y := main_v79) (f := (broadcastInDim S100000x256 ![0, 1] bcast_S1x256_S100000x256_0_1 : (⟨S1x256, .f32⟩ : BufTy).Contents (Elt F) → (⟨S100000x256, .f32⟩ : BufTy).Contents (Elt F))) (hx := by decide) (hy := by decide) 104 (lt_len (by decide)) rfl (nw 105 (by decide +kernel)) (nw 104 (by decide +kernel))
theorem at_main_v80 : val V0 main_v80 = (addf : (⟨S100000x256, .f32⟩ : BufTy).Contents (Elt F) → (⟨S100000x256, .f32⟩ : BufTy).Contents (Elt F) → (⟨S100000x256, .f32⟩ : BufTy).Contents (Elt F)) (val V0 main_v77) (val V0 main_v79) :=
  Cert.LibStraightLine.binary_at (ops := ops (F := F)) (V := V0) (a := main_v77) (b := main_v79) (y := main_v80) (f := (addf : (⟨S100000x256, .f32⟩ : BufTy).Contents (Elt F) → (⟨S100000x256, .f32⟩ : BufTy).Contents (Elt F) → (⟨S100000x256, .f32⟩ : BufTy).Contents (Elt F))) (ha := by decide) (hb := by decide) (hy := by decide) 105 (lt_len (by decide)) rfl (nw 106 (by decide +kernel)) (nw 105 (by decide +kernel)) (nw 105 (by decide +kernel))
theorem at_main_v81 : val V0 main_v81 = ((transpose S256x16 [1, 0] · transposes_S16x256_S256x16_1_0) : (⟨S16x256, .f32⟩ : BufTy).Contents (Elt F) → (⟨S256x16, .f32⟩ : BufTy).Contents (Elt F)) (val V0 main_arg9) :=
  Cert.LibStraightLine.unary_at (ops := ops (F := F)) (V := V0) (x := main_arg9) (y := main_v81) (f := ((transpose S256x16 [1, 0] · transposes_S16x256_S256x16_1_0) : (⟨S16x256, .f32⟩ : BufTy).Contents (Elt F) → (⟨S256x16, .f32⟩ : BufTy).Contents (Elt F))) (hx := by decide) (hy := by decide) 106 (lt_len (by decide)) rfl (nw 107 (by decide +kernel)) (nw 106 (by decide +kernel))
theorem at_main_v82 : val V0 main_v82 = ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)) (val V0 main_v80) (val V0 main_v81) :=
  Cert.LibStraightLine.binary_at (ops := ops (F := F)) (V := V0) (a := main_v80) (b := main_v81) (y := main_v82) (f := ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F))) (ha := by decide) (hb := by decide) (hy := by decide) 107 (lt_len (by decide)) rfl (nw 108 (by decide +kernel)) (nw 107 (by decide +kernel)) (nw 107 (by decide +kernel))
theorem at_main_v83 : val V0 main_v83 = (broadcastInDim S1x16 ![1] bcast_S16_S1x16_1 : (⟨S16, .f32⟩ : BufTy).Contents (Elt F) → (⟨S1x16, .f32⟩ : BufTy).Contents (Elt F)) (val V0 main_arg10) :=
  Cert.LibStraightLine.unary_at (ops := ops (F := F)) (V := V0) (x := main_arg10) (y := main_v83) (f := (broadcastInDim S1x16 ![1] bcast_S16_S1x16_1 : (⟨S16, .f32⟩ : BufTy).Contents (Elt F) → (⟨S1x16, .f32⟩ : BufTy).Contents (Elt F))) (hx := by decide) (hy := by decide) 108 (lt_len (by decide)) rfl (nw 109 (by decide +kernel)) (nw 108 (by decide +kernel))
theorem at_main_v84 : val V0 main_v84 = (broadcastInDim S100000x16 ![0, 1] bcast_S1x16_S100000x16_0_1 : (⟨S1x16, .f32⟩ : BufTy).Contents (Elt F) → (⟨S100000x16, .f32⟩ : BufTy).Contents (Elt F)) (val V0 main_v83) :=
  Cert.LibStraightLine.unary_at (ops := ops (F := F)) (V := V0) (x := main_v83) (y := main_v84) (f := (broadcastInDim S100000x16 ![0, 1] bcast_S1x16_S100000x16_0_1 : (⟨S1x16, .f32⟩ : BufTy).Contents (Elt F) → (⟨S100000x16, .f32⟩ : BufTy).Contents (Elt F))) (hx := by decide) (hy := by decide) 109 (lt_len (by decide)) rfl (nw 110 (by decide +kernel)) (nw 109 (by decide +kernel))
theorem at_main_v85 : val V0 main_v85 = (addf : (⟨S100000x16, .f32⟩ : BufTy).Contents (Elt F) → (⟨S100000x16, .f32⟩ : BufTy).Contents (Elt F) → (⟨S100000x16, .f32⟩ : BufTy).Contents (Elt F)) (val V0 main_v82) (val V0 main_v84) :=
  Cert.LibStraightLine.binary_at (ops := ops (F := F)) (V := V0) (a := main_v82) (b := main_v84) (y := main_v85) (f := (addf : (⟨S100000x16, .f32⟩ : BufTy).Contents (Elt F) → (⟨S100000x16, .f32⟩ : BufTy).Contents (Elt F) → (⟨S100000x16, .f32⟩ : BufTy).Contents (Elt F))) (ha := by decide) (hb := by decide) (hy := by decide) 110 (lt_len (by decide)) rfl (nw 111 (by decide +kernel)) (nw 110 (by decide +kernel)) (nw 110 (by decide +kernel))
theorem at_main_call2_cst : val V0 main_call2_cst = ((constant S_ .f32 0xFF800000#32) : (⟨S_, .f32⟩ : BufTy).Contents (Elt F)) :=
  Cert.LibStraightLine.nullary_at (ops := ops (F := F)) (V := V0) (y := main_call2_cst) (v := ((constant S_ .f32 0xFF800000#32) : (⟨S_, .f32⟩ : BufTy).Contents (Elt F))) (hy := by decide) 111 (lt_len (by decide)) rfl (nw 112 (by decide +kernel))
/-- The function of the operation that writes `main_call2_v0`, named. -/
abbrev fn_main_call2_v0 : (⟨S100000x16, .f32⟩ : BufTy).Contents (Elt F) → (⟨S_, .f32⟩ : BufTy).Contents (Elt F) → (⟨S100000, .f32⟩ : BufTy).Contents (Elt F) := (fun x v => Host.reduce FloatOps.maximumf x v reducesTo_S100000x16_S100000_d1 h_S_)
theorem at_main_call2_v0 : val V0 main_call2_v0 = fn_main_call2_v0 (F := F) (val V0 main_v85) (val V0 main_call2_cst) := by
  have h := Cert.LibStraightLine.binary_at (ops := ops (F := F)) (V := V0) (a := main_v85) (b := main_call2_cst) (y := main_call2_v0)
    (f := fun u v => (StableHlo.TRef.of main_call2_v0 : StableHlo.TRef sig ⟨S100000, .f32⟩).toBuf (fn_main_call2_v0 (F := F) ((StableHlo.TRef.of main_v85 : StableHlo.TRef sig ⟨S100000x16, .f32⟩).ofBuf u) ((StableHlo.TRef.of main_call2_cst : StableHlo.TRef sig ⟨S_, .f32⟩).ofBuf v)))
    (ha := by decide) (hb := by decide) (hy := by decide) 112 (lt_len (by decide)) rfl (nw 113 (by decide +kernel)) (nw 112 (by decide +kernel)) (nw 112 (by decide +kernel))
  simp only [StableHlo.TRef.toBuf, StableHlo.TRef.ofBuf, cast_eq] at h
  exact h
theorem at_main_call2_cst_0 : val V0 main_call2_cst_0 = ((constant S_ .f32 0xFF800000#32) : (⟨S_, .f32⟩ : BufTy).Contents (Elt F)) :=
  Cert.LibStraightLine.nullary_at (ops := ops (F := F)) (V := V0) (y := main_call2_cst_0) (v := ((constant S_ .f32 0xFF800000#32) : (⟨S_, .f32⟩ : BufTy).Contents (Elt F))) (hy := by decide) 113 (lt_len (by decide)) rfl (nw 114 (by decide +kernel))
theorem at_main_call2_v1 : val V0 main_call2_v1 = ((broadcastInDim S100000 ![] bcast_S_S100000) : (⟨S_, .f32⟩ : BufTy).Contents (Elt F) → (⟨S100000, .f32⟩ : BufTy).Contents (Elt F)) (val V0 main_call2_cst_0) :=
  Cert.LibStraightLine.unary_at (ops := ops (F := F)) (V := V0) (x := main_call2_cst_0) (y := main_call2_v1) (f := ((broadcastInDim S100000 ![] bcast_S_S100000) : (⟨S_, .f32⟩ : BufTy).Contents (Elt F) → (⟨S100000, .f32⟩ : BufTy).Contents (Elt F))) (hx := by decide) (hy := by decide) 114 (lt_len (by decide)) rfl (nw 115 (by decide +kernel)) (nw 114 (by decide +kernel))
theorem at_main_call2_v2 : val V0 main_call2_v2 = (maximumf : (⟨S100000, .f32⟩ : BufTy).Contents (Elt F) → (⟨S100000, .f32⟩ : BufTy).Contents (Elt F) → (⟨S100000, .f32⟩ : BufTy).Contents (Elt F)) (val V0 main_call2_v1) (val V0 main_call2_v0) :=
  Cert.LibStraightLine.binary_at (ops := ops (F := F)) (V := V0) (a := main_call2_v1) (b := main_call2_v0) (y := main_call2_v2) (f := (maximumf : (⟨S100000, .f32⟩ : BufTy).Contents (Elt F) → (⟨S100000, .f32⟩ : BufTy).Contents (Elt F) → (⟨S100000, .f32⟩ : BufTy).Contents (Elt F))) (ha := by decide) (hb := by decide) (hy := by decide) 115 (lt_len (by decide)) rfl (nw 116 (by decide +kernel)) (nw 115 (by decide +kernel)) (nw 115 (by decide +kernel))
theorem at_main_call2_v3 : val V0 main_call2_v3 = ((broadcastInDim S100000x1 ![0] bcast_S100000_S100000x1_0) : (⟨S100000, .f32⟩ : BufTy).Contents (Elt F) → (⟨S100000x1, .f32⟩ : BufTy).Contents (Elt F)) (val V0 main_call2_v2) :=
  Cert.LibStraightLine.unary_at (ops := ops (F := F)) (V := V0) (x := main_call2_v2) (y := main_call2_v3) (f := ((broadcastInDim S100000x1 ![0] bcast_S100000_S100000x1_0) : (⟨S100000, .f32⟩ : BufTy).Contents (Elt F) → (⟨S100000x1, .f32⟩ : BufTy).Contents (Elt F))) (hx := by decide) (hy := by decide) 116 (lt_len (by decide)) rfl (nw 117 (by decide +kernel)) (nw 116 (by decide +kernel))
theorem at_main_call2_v4 : val V0 main_call2_v4 = ((broadcastInDim S100000x16 ![0, 1] bcast_S100000x1_S100000x16_0_1) : (⟨S100000x1, .f32⟩ : BufTy).Contents (Elt F) → (⟨S100000x16, .f32⟩ : BufTy).Contents (Elt F)) (val V0 main_call2_v3) :=
  Cert.LibStraightLine.unary_at (ops := ops (F := F)) (V := V0) (x := main_call2_v3) (y := main_call2_v4) (f := ((broadcastInDim S100000x16 ![0, 1] bcast_S100000x1_S100000x16_0_1) : (⟨S100000x1, .f32⟩ : BufTy).Contents (Elt F) → (⟨S100000x16, .f32⟩ : BufTy).Contents (Elt F))) (hx := by decide) (hy := by decide) 117 (lt_len (by decide)) rfl (nw 118 (by decide +kernel)) (nw 117 (by decide +kernel))
theorem at_main_call2_v5 : val V0 main_call2_v5 = (subf : (⟨S100000x16, .f32⟩ : BufTy).Contents (Elt F) → (⟨S100000x16, .f32⟩ : BufTy).Contents (Elt F) → (⟨S100000x16, .f32⟩ : BufTy).Contents (Elt F)) (val V0 main_v85) (val V0 main_call2_v4) :=
  Cert.LibStraightLine.binary_at (ops := ops (F := F)) (V := V0) (a := main_v85) (b := main_call2_v4) (y := main_call2_v5) (f := (subf : (⟨S100000x16, .f32⟩ : BufTy).Contents (Elt F) → (⟨S100000x16, .f32⟩ : BufTy).Contents (Elt F) → (⟨S100000x16, .f32⟩ : BufTy).Contents (Elt F))) (ha := by decide) (hb := by decide) (hy := by decide) 118 (lt_len (by decide)) rfl (nw 119 (by decide +kernel)) (nw 118 (by decide +kernel)) (nw 118 (by decide +kernel))
theorem at_main_call2_v6 : val V0 main_call2_v6 = (Host.exp : (⟨S100000x16, .f32⟩ : BufTy).Contents (Elt F) → (⟨S100000x16, .f32⟩ : BufTy).Contents (Elt F)) (val V0 main_call2_v5) :=
  Cert.LibStraightLine.unary_at (ops := ops (F := F)) (V := V0) (x := main_call2_v5) (y := main_call2_v6) (f := (Host.exp : (⟨S100000x16, .f32⟩ : BufTy).Contents (Elt F) → (⟨S100000x16, .f32⟩ : BufTy).Contents (Elt F))) (hx := by decide) (hy := by decide) 119 (lt_len (by decide)) rfl (nw 120 (by decide +kernel)) (nw 119 (by decide +kernel))
theorem at_main_call2_cst_1 : val V0 main_call2_cst_1 = ((constant S_ .f32 0x00000000#32) : (⟨S_, .f32⟩ : BufTy).Contents (Elt F)) :=
  Cert.LibStraightLine.nullary_at (ops := ops (F := F)) (V := V0) (y := main_call2_cst_1) (v := ((constant S_ .f32 0x00000000#32) : (⟨S_, .f32⟩ : BufTy).Contents (Elt F))) (hy := by decide) 120 (lt_len (by decide)) rfl (nw 121 (by decide +kernel))
/-- The function of the operation that writes `main_call2_v7`, named. -/
abbrev fn_main_call2_v7 : (⟨S100000x16, .f32⟩ : BufTy).Contents (Elt F) → (⟨S_, .f32⟩ : BufTy).Contents (Elt F) → (⟨S100000, .f32⟩ : BufTy).Contents (Elt F) := (fun x v => Host.reduceAdd x v reducesTo_S100000x16_S100000_d1 h_S_)
theorem at_main_call2_v7 : val V0 main_call2_v7 = fn_main_call2_v7 (F := F) (val V0 main_call2_v6) (val V0 main_call2_cst_1) := by
  have h := Cert.LibStraightLine.binary_at (ops := ops (F := F)) (V := V0) (a := main_call2_v6) (b := main_call2_cst_1) (y := main_call2_v7)
    (f := fun u v => (StableHlo.TRef.of main_call2_v7 : StableHlo.TRef sig ⟨S100000, .f32⟩).toBuf (fn_main_call2_v7 (F := F) ((StableHlo.TRef.of main_call2_v6 : StableHlo.TRef sig ⟨S100000x16, .f32⟩).ofBuf u) ((StableHlo.TRef.of main_call2_cst_1 : StableHlo.TRef sig ⟨S_, .f32⟩).ofBuf v)))
    (ha := by decide) (hb := by decide) (hy := by decide) 121 (lt_len (by decide)) rfl (nw 122 (by decide +kernel)) (nw 121 (by decide +kernel)) (nw 121 (by decide +kernel))
  simp only [StableHlo.TRef.toBuf, StableHlo.TRef.ofBuf, cast_eq] at h
  exact h
theorem at_main_call2_v8 : val V0 main_call2_v8 = ((broadcastInDim S100000x1 ![0] bcast_S100000_S100000x1_0) : (⟨S100000, .f32⟩ : BufTy).Contents (Elt F) → (⟨S100000x1, .f32⟩ : BufTy).Contents (Elt F)) (val V0 main_call2_v7) :=
  Cert.LibStraightLine.unary_at (ops := ops (F := F)) (V := V0) (x := main_call2_v7) (y := main_call2_v8) (f := ((broadcastInDim S100000x1 ![0] bcast_S100000_S100000x1_0) : (⟨S100000, .f32⟩ : BufTy).Contents (Elt F) → (⟨S100000x1, .f32⟩ : BufTy).Contents (Elt F))) (hx := by decide) (hy := by decide) 122 (lt_len (by decide)) rfl (nw 123 (by decide +kernel)) (nw 122 (by decide +kernel))
theorem at_main_call2_v9 : val V0 main_call2_v9 = (Host.log : (⟨S100000x1, .f32⟩ : BufTy).Contents (Elt F) → (⟨S100000x1, .f32⟩ : BufTy).Contents (Elt F)) (val V0 main_call2_v8) :=
  Cert.LibStraightLine.unary_at (ops := ops (F := F)) (V := V0) (x := main_call2_v8) (y := main_call2_v9) (f := (Host.log : (⟨S100000x1, .f32⟩ : BufTy).Contents (Elt F) → (⟨S100000x1, .f32⟩ : BufTy).Contents (Elt F))) (hx := by decide) (hy := by decide) 123 (lt_len (by decide)) rfl (nw 124 (by decide +kernel)) (nw 123 (by decide +kernel))
theorem at_main_call2_v10 : val V0 main_call2_v10 = ((broadcastInDim S100000x16 ![0, 1] bcast_S100000x1_S100000x16_0_1) : (⟨S100000x1, .f32⟩ : BufTy).Contents (Elt F) → (⟨S100000x16, .f32⟩ : BufTy).Contents (Elt F)) (val V0 main_call2_v9) :=
  Cert.LibStraightLine.unary_at (ops := ops (F := F)) (V := V0) (x := main_call2_v9) (y := main_call2_v10) (f := ((broadcastInDim S100000x16 ![0, 1] bcast_S100000x1_S100000x16_0_1) : (⟨S100000x1, .f32⟩ : BufTy).Contents (Elt F) → (⟨S100000x16, .f32⟩ : BufTy).Contents (Elt F))) (hx := by decide) (hy := by decide) 124 (lt_len (by decide)) rfl (nw 125 (by decide +kernel)) (nw 124 (by decide +kernel))
theorem at_main_v86 : val V0 main_v86 = (subf : (⟨S100000x16, .f32⟩ : BufTy).Contents (Elt F) → (⟨S100000x16, .f32⟩ : BufTy).Contents (Elt F) → (⟨S100000x16, .f32⟩ : BufTy).Contents (Elt F)) (val V0 main_call2_v5) (val V0 main_call2_v10) :=
  Cert.LibStraightLine.binary_at (ops := ops (F := F)) (V := V0) (a := main_call2_v5) (b := main_call2_v10) (y := main_v86) (f := (subf : (⟨S100000x16, .f32⟩ : BufTy).Contents (Elt F) → (⟨S100000x16, .f32⟩ : BufTy).Contents (Elt F) → (⟨S100000x16, .f32⟩ : BufTy).Contents (Elt F))) (ha := by decide) (hb := by decide) (hy := by decide) 125 (lt_len (by decide)) rfl (nw 126 (by decide +kernel)) (nw 125 (by decide +kernel)) (nw 125 (by decide +kernel))

end Cert.ReferenceIdeal.Line

end
-- ==== Proof.RefOut.lean ====
/-
  The reference's dense path as one function of its operands.

  From the feature matrix x [100000, 512], the cluster probabilities Q [100000, 16] and the five layers' weights and
  biases, the path is: the encoder x·W_Eᵀ + b_E; the concatenation [h, Q] along the columns (272 of them); the wide layer
  [h, Q]·W_1ᵀ + b_1; the leaky rectifier of slope 1024 (the value where 0 ≤ value, 1024 times it elsewhere, by a
  comparison, a product and a selection); two more affine layers; and the logarithm of the softmax along each row, shifted by
  the row's maximum taken from −∞. Every stage below is one operation applied to earlier stages, in the order the operations
  are performed; nothing is simplified. A matrix product is the host product against the TRANSPOSED weight matrix, a bias is a
  vector laid out as one row and then spread down the rows, a row statistic is a vector laid out as one column and then
  spread along the columns.
-/
import Idealize.ShloMosaic.PureOps.Ideal
import proofs.«170179_j64828236366589_1_alg».proof.ReferenceIdeal
import proofs.«170179_j64828236366589_1_alg».proof.Proof.Gen.ReferenceIdeal

noncomputable section

namespace Cert.ReferenceIdeal.OutValue

open Cert.ReferenceIdeal Cert.ReferenceIdeal.Gen Idealize.ShloMosaic

/-- The output of the dense path as a function of the features, the five layers' parameters and the cluster
    probabilities: one line per operation. -/
def refOut (x : FVec Ideal S100000x512 .f32) (wenc : FVec Ideal S256x512 .f32) (benc : FVec Ideal S256 .f32)
    (Q : FVec Ideal S100000x16 .f32) (w1 : FVec Ideal S1024x272 .f32) (b1 : FVec Ideal S1024 .f32)
    (w2 : FVec Ideal S256x1024 .f32) (b2 : FVec Ideal S256 .f32) (wdec : FVec Ideal S16x256 .f32)
    (bdec : FVec Ideal S16 .f32) : FVec Ideal S100000x16 .f32 :=
  -- the encoder: x·W_Eᵀ + b_E
  let v0 : FVec Ideal S512x256 .f32 := transpose S512x256 [1, 0] wenc transposes_S256x512_S512x256_1_0
  let v1 : FVec Ideal S100000x256 .f32 := Host.dotGeneral dot_S100000x512_S512x256_S100000x256_1_0_0_1_n_n none x v0
  let v2 : FVec Ideal S1x256 .f32 := broadcastInDim S1x256 ![1] bcast_S256_S1x256_1 benc
  let v3 : FVec Ideal S100000x256 .f32 := broadcastInDim S100000x256 ![0, 1] bcast_S1x256_S100000x256_0_1 v2
  let v4 : FVec Ideal S100000x256 .f32 := addf v1 v3
  -- the row [h, q], 272 entries
  let v69 : FVec Ideal S100000x272 .f32 :=
    concatenate S100000x272 1 [⟨S100000x256, v4⟩, ⟨S100000x16, Q⟩] concatenates_S100000x256_S100000x16_S100000x272_d1
  -- the wide layer: [h, q]·W_1ᵀ + b_1
  let v70 : FVec Ideal S272x1024 .f32 := transpose S272x1024 [1, 0] w1 transposes_S1024x272_S272x1024_1_0
  let v71 : FVec Ideal S100000x1024 .f32 := Host.dotGeneral dot_S100000x272_S272x1024_S100000x1024_1_0_0_1_n_n none v69 v70
  let v72 : FVec Ideal S1x1024 .f32 := broadcastInDim S1x1024 ![1] bcast_S1024_S1x1024_1 b1
  let v73 : FVec Ideal S100000x1024 .f32 := broadcastInDim S100000x1024 ![0, 1] bcast_S1x1024_S100000x1024_0_1 v72
  let v74 : FVec Ideal S100000x1024 .f32 := addf v71 v73
  -- the leaky rectifier of slope 1024
  let cst_14 : FVec Ideal S_ .f32 := constant (F := Ideal) S_ .f32 0x44800000#32
  let r_cst : FVec Ideal S_ .f32 := constant (F := Ideal) S_ .f32 0x00000000#32
  let r_v0 : FVec Ideal S100000x1024 .f32 := broadcastInDim S100000x1024 ![] bcast_S_S100000x1024 r_cst
  let r_v1 : IVec S100000x1024 1 := cmpf .oge v74 r_v0
  let r_v2 : FVec Ideal S_ .f32 := id cst_14
  let r_v3 : FVec Ideal S100000x1024 .f32 := broadcastInDim S100000x1024 ![] bcast_S_S100000x1024 r_v2
  let r_v4 : FVec Ideal S100000x1024 .f32 := mulf r_v3 v74
  let v75 : FVec Ideal S100000x1024 .f32 := select r_v1 v74 r_v4
  -- the second affine layer: z₁·W_2ᵀ + b_2
  let v76 : FVec Ideal S1024x256 .f32 := transpose S1024x256 [1, 0] w2 transposes_S256x1024_S1024x256_1_0
  let v77 : FVec Ideal S100000x256 .f32 := Host.dotGeneral dot_S100000x1024_S1024x256_S100000x256_1_0_0_1_n_n none v75 v76
  let v78 : FVec Ideal S1x256 .f32 := broadcastInDim S1x256 ![1] bcast_S256_S1x256_1 b2
  let v79 : FVec Ideal S100000x256 .f32 := broadcastInDim S100000x256 ![0, 1] bcast_S1x256_S100000x256_0_1 v78
  let v80 : FVec Ideal S100000x256 .f32 := addf v77 v79
  -- the decoder: z₂·W_Dᵀ + b_D
  let v81 : FVec Ideal S256x16 .f32 := transpose S256x16 [1, 0] wdec transposes_S16x256_S256x16_1_0
  let v82 : FVec Ideal S100000x16 .f32 := Host.dotGeneral dot_S100000x256_S256x16_S100000x16_1_0_0_1_n_n none v80 v81
  let v83 : FVec Ideal S1x16 .f32 := broadcastInDim S1x16 ![1] bcast_S16_S1x16_1 bdec
  let v84 : FVec Ideal S100000x16 .f32 := broadcastInDim S100000x16 ![0, 1] bcast_S1x16_S100000x16_0_1 v83
  let v85 : FVec Ideal S100000x16 .f32 := addf v82 v84
  -- the logarithm of the softmax along each row
  let s_cst : FVec Ideal S_ .f32 := constant (F := Ideal) S_ .f32 0xFF800000#32
  let s_v0 : FVec Ideal S100000 .f32 :=
    Host.reduce (FloatOps.maximumf (F := Ideal) (φ := .f32)) v85 s_cst reducesTo_S100000x16_S100000_d1 h_S_
  let s_cst_0 : FVec Ideal S_ .f32 := constant (F := Ideal) S_ .f32 0xFF800000#32
  let s_v1 : FVec Ideal S100000 .f32 := broadcastInDim S100000 ![] bcast_S_S100000 s_cst_0
  let s_v2 : FVec Ideal S100000 .f32 := maximumf s_v1 s_v0
  let s_v3 : FVec Ideal S100000x1 .f32 := broadcastInDim S100000x1 ![0] bcast_S100000_S100000x1_0 s_v2
  let s_v4 : FVec Ideal S100000x16 .f32 := broadcastInDim S100000x16 ![0, 1] bcast_S100000x1_S100000x16_0_1 s_v3
  let s_v5 : FVec Ideal S100000x16 .f32 := subf v85 s_v4
  let s_v6 : FVec Ideal S100000x16 .f32 := Host.exp s_v5
  let s_cst_1 : FVec Ideal S_ .f32 := constant (F := Ideal) S_ .f32 0x00000000#32
  let s_v7 : FVec Ideal S100000 .f32 := Host.reduceAdd (F := Ideal) s_v6 s_cst_1 reducesTo_S100000x16_S100000_d1 h_S_
  let s_v8 : FVec Ideal S100000x1 .f32 := broadcastInDim S100000x1 ![0] bcast_S100000_S100000x1_0 s_v7
  let s_v9 : FVec Ideal S100000x1 .f32 := Host.log s_v8
  let s_v10 : FVec Ideal S100000x16 .f32 := broadcastInDim S100000x16 ![0, 1] bcast_S100000x1_S100000x16_0_1 s_v9
  subf s_v5 s_v10

end Cert.ReferenceIdeal.OutValue

end
-- ==== Proof.Mlp.lean ====
/-
  The network one row at a time, on the extended reals.

  Every output row depends on one row `x` of the features (512 entries) and one row `q` of the cluster
  probabilities (16 entries) only. With the weight matrices laid out contraction index first, the row is taken through

    h   = x·W_E + b_E                                 (256 entries)
    a   = (h·W_H + q·W_Q) + b_1                       (1024 entries; W_H and W_Q are the two column groups of one matrix)
    z₁  = leaky a       (v where 0 ≤ v, 1024·v elsewhere)
    z₂  = z₁·W_2 + b_2                                (256 entries)
    o   = z₂·W_D + b_D                                (16 entries)
    out = (o − M) − log Σ_u exp (o_u − M),   M = the maximum of o taken from −∞

  where every product is the plain sum over the contraction index. No entry needs to be finite: the sums are sums of an
  additive commutative monoid, and nothing is ever cancelled or distributed.
-/
import Idealize.ShloMosaic.PureOps.Ideal

noncomputable section

namespace Cert.Mlp

open Idealize.ShloMosaic

/-- A row through an affine layer: entry j is Σ_k u_k·w_{k,j} + b_j. -/
def dense {K B : ℕ} (u : Fin K → EReal) (w : Fin K → Fin B → EReal) (b : Fin B → EReal) (j : Fin B) : EReal :=
  (∑ k, u k * w k j) + b j

/-- The leaky rectifier of slope 1024: v itself where 0 ≤ v, 1024·v elsewhere (the two f32 patterns are 0 and 1024). -/
def leaky (v : EReal) : EReal :=
  Scalar.select (Ideal.cmp .oge v (Ideal.ofBits .f32 0x00000000#32)) v (Ideal.ofBits .f32 0x44800000#32 * v)

/-- The maximum of a row of 16 entries, taken from −∞ (the f32 pattern of −∞) and joined with −∞ once more. -/
def rowMax (o : Fin 16 → EReal) : EReal :=
  max (Ideal.ofBits .f32 0xFF800000#32) ((Finset.univ : Finset (Fin 16)).fold max (Ideal.ofBits .f32 0xFF800000#32) o)

/-- The logarithm of the softmax of a row of 16 entries, shifted by the row's maximum. -/
def logSoftmax (o : Fin 16 → EReal) (t : Fin 16) : EReal :=
  (o t - rowMax o) - Ideal.log (∑ u, Ideal.exp (o u - rowMax o))

/-- The pre-activation of the wide layer: the hidden row against one column group plus the probability row against the
    other, then the bias. -/
def wide (h : Fin 256 → EReal) (q : Fin 16 → EReal) (wH : Fin 256 → Fin 1024 → EReal) (wQ : Fin 16 → Fin 1024 → EReal)
    (b1 : Fin 1024 → EReal) (n : Fin 1024) : EReal :=
  ((∑ k, h k * wH k n) + (∑ k, q k * wQ k n)) + b1 n

/-- One output row of the network from one feature row and one probability row. -/
def rowOut (x : Fin 512 → EReal) (q : Fin 16 → EReal) (wE : Fin 512 → Fin 256 → EReal) (bE : Fin 256 → EReal)
    (wH : Fin 256 → Fin 1024 → EReal) (wQ : Fin 16 → Fin 1024 → EReal) (b1 : Fin 1024 → EReal)
    (w2 : Fin 1024 → Fin 256 → EReal) (b2 : Fin 256 → EReal) (wD : Fin 256 → Fin 16 → EReal) (bD : Fin 16 → EReal) :
    Fin 16 → EReal :=
  logSoftmax (dense (dense (fun n => leaky (wide (dense x wE bE) q wH wQ b1 n)) w2 b2) wD bD)

/-- A sum over 272 = 256 + 16 indices is the sum over the first 256 plus the sum over the last 16. -/
theorem sum_split (f : Fin 272 → EReal) :
    (∑ k : Fin 272, f k) = (∑ k : Fin 256, f ⟨k.val, by omega⟩) + (∑ k : Fin 16, f ⟨256 + k.val, by omega⟩) := by
  have h := Fin.sum_univ_add (M := EReal) (a := 256) (b := 16) (fun k : Fin (256 + 16) => f ⟨k.val, by omega⟩)
  simpa [Fin.castAdd, Fin.natAdd, Fin.castLE] using h

end Cert.Mlp

end
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«170179_j64828236366589_1_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.LibConcatAt.lean ====
import Idealize.ShloMosaic.Lib.ValueIdx
import Idealize.ShloMosaic.Lib.Pipeline.Value

/-!
# A concatenation of matrices read at an entry

Two corollaries of the library's reading of a concatenation at an index (`concatenate_apply_piece`), in the two
forms a row-by-row or column-by-column assembly needs, with every index written by its coordinates:

* matrices [Wₖ, N] stacked on top of each other (axis 0) into [R, N]: entry `(j, r)` of the stack is entry
  `(p, r)` of piece `k` when the pieces before `k` have `pre` rows together and `j = pre + p`;
* matrices [N, Wₖ] set side by side (axis 1) into [N, K]: entry `(n, j)` is entry `(n, p)` of piece `k` when the
  pieces before `k` have `pre` columns together and `j = pre + p`.

The piece is named by an equation `xs[k]? = some ⟨shape, x₁⟩`, which for a literal list and a literal `k` is
decided by walking the list and tells Lean what `x₁` is; the count `pre` is a sum over a literal prefix of the list. Nothing here depends
on what the entries are.
-/

namespace Cert.LibConcatAt

open Idealize.ShloMosaic Idealize.ShloMosaic.ValueIdx

variable {α : Type}

/-- The extents of the pieces along axis `a` of the result, as the library's lemma sums them. -/
abbrev extents {t : Shape} (a : Fin t.rank) (ss : List Shape) : List Nat :=
  ss.map fun s => if h : s.rank = t.rank then s.size (a.cast h.symm) else 0

/-- Matrices stacked on top of each other, read at `(j, r)`: row `p` of piece `k`, where `j = pre + p` and `pre`
    is the number of rows of the pieces before `k`. -/
theorem stacked_at {R N W : ℕ} (xs : List ((s : Shape) × (s.Idx → α)))
    (h : Shape.Concatenates (xs.map (·.1)) ⟨2, ![R, N]⟩ (0 : Fin 2)) (j : Fin R) (r : Fin N)
    (k : ℕ) (x₁ : (⟨2, ![W, N]⟩ : Shape).Idx → α) (hxk : xs[k]? = some ⟨⟨2, ![W, N]⟩, x₁⟩)
    (pre : ℕ) (hpre : (extents (t := ⟨2, ![R, N]⟩) (0 : Fin 2) ((xs.take k).map (·.1))).sum = pre)
    (p : Fin W) (hj : pre + p.val = j.val) :
    concatenate ⟨2, ![R, N]⟩ (0 : Fin 2) xs h (ix2 j r) = x₁ (ix2 p r) := by
  obtain ⟨hk, hxk'⟩ := List.getElem?_eq_some_iff.mp hxk
  exact concatenate_apply_piece (t := ⟨2, ![R, N]⟩) (0 : Fin 2) xs h (ix2 j r) k hk ⟨2, ![W, N]⟩ x₁ hxk' rfl pre hpre (ix2 p r)
    (fun b hb => by
      match b with
      | ⟨0, _⟩ => exact absurd rfl hb
      | ⟨1, _⟩ => rfl) hj

/-- Matrices set side by side, read at `(n, j)`: column `p` of piece `k`, where `j = pre + p` and `pre` is the
    number of columns of the pieces before `k`. -/
theorem sideBySide_at {N K W : ℕ} (xs : List ((s : Shape) × (s.Idx → α)))
    (h : Shape.Concatenates (xs.map (·.1)) ⟨2, ![N, K]⟩ (1 : Fin 2)) (n : Fin N) (j : Fin K)
    (k : ℕ) (x₁ : (⟨2, ![N, W]⟩ : Shape).Idx → α) (hxk : xs[k]? = some ⟨⟨2, ![N, W]⟩, x₁⟩)
    (pre : ℕ) (hpre : (extents (t := ⟨2, ![N, K]⟩) (1 : Fin 2) ((xs.take k).map (·.1))).sum = pre)
    (p : Fin W) (hj : pre + p.val = j.val) :
    concatenate ⟨2, ![N, K]⟩ (1 : Fin 2) xs h (ix2 n j) = x₁ (ix2 n p) := by
  obtain ⟨hk, hxk'⟩ := List.getElem?_eq_some_iff.mp hxk
  exact concatenate_apply_piece (t := ⟨2, ![N, K]⟩) (1 : Fin 2) xs h (ix2 n j) k hk ⟨2, ![N, W]⟩ x₁ hxk' rfl pre hpre (ix2 n p)
    (fun b hb => by
      match b with
      | ⟨0, _⟩ => rfl
      | ⟨1, _⟩ => exact absurd rfl hb) hj

/-- Rows [1, N] stacked into [R, N]: row `j` of the stack is the `j`-th piece. The piece is found by walking the
    list to position `j`; that the `j` pieces before it are one row each is a sum over the prefix. -/
theorem stackedRows_at {R N : ℕ} (xs : List ((s : Shape) × (s.Idx → α)))
    (h : Shape.Concatenates (xs.map (·.1)) ⟨2, ![R, N]⟩ (0 : Fin 2)) (j : Fin R) (r : Fin N)
    (x₁ : (⟨2, ![1, N]⟩ : Shape).Idx → α) (hxk : xs[j.val]? = some ⟨⟨2, ![1, N]⟩, x₁⟩)
    (hpre : (extents (t := ⟨2, ![R, N]⟩) (0 : Fin 2) ((xs.take j.val).map (·.1))).sum = j.val) :
    concatenate ⟨2, ![R, N]⟩ (0 : Fin 2) xs h (ix2 j r) = x₁ (ix2 0 r) :=
  stacked_at xs h j r j.val x₁ hxk j.val hpre 0 rfl

/-- Columns [N, 1] set side by side into [N, K]: column `j` of the result is the `j`-th piece. -/
theorem columns_at {N K : ℕ} (xs : List ((s : Shape) × (s.Idx → α)))
    (h : Shape.Concatenates (xs.map (·.1)) ⟨2, ![N, K]⟩ (1 : Fin 2)) (n : Fin N) (j : Fin K)
    (x₁ : (⟨2, ![N, 1]⟩ : Shape).Idx → α) (hxk : xs[j.val]? = some ⟨⟨2, ![N, 1]⟩, x₁⟩)
    (hpre : (extents (t := ⟨2, ![N, K]⟩) (1 : Fin 2) ((xs.take j.val).map (·.1))).sum = j.val) :
    concatenate ⟨2, ![N, K]⟩ (1 : Fin 2) xs h (ix2 n j) = x₁ (ix2 n 0) :=
  sideBySide_at xs h n j j.val x₁ hxk j.val hpre 0 rfl

end Cert.LibConcatAt
-- ==== Proof.LibHostBroadcast.lean ====
/-
  Host `broadcast_in_dim` of small shapes read at an index built with `ix2`:
  a column [a,1] spread over the columns of [a,b], a row [1,b] spread over the rows of [a,b]
  (both with the identity dimension map ![0,1]), and a rank-0 scalar spread over any shape.
  Each is the general `broadcastInDim_apply` with the operand's index written out.
-/
import Idealize.ShloMosaic.Lib.ValueIdx
import Idealize.ShloMosaic.Lib.Pipeline.Value

namespace Cert.LibHostBroadcast

open Idealize.ShloMosaic Idealize.ShloMosaic.ValueIdx

variable {α : Type}

/-- A column [a,1] broadcast to [a,b] along the identity map, read at (p,c), is the column at (p,0). -/
theorem column_at {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun d => ?_
  match d with
  | ⟨0, _⟩ =>
    show p.val = if a = 1 then 0 else p.val
    split
    · have := p.isLt; omega
    · rfl
  | ⟨1, _⟩ => rfl

/-- A row [1,b] broadcast to [a,b] along the identity map, read at (p,c), is the row at (0,c). -/
theorem row_at {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun d => ?_
  match d with
  | ⟨0, _⟩ => rfl
  | ⟨1, _⟩ =>
    show c.val = if b = 1 then 0 else c.val
    split
    · have := c.isLt; omega
    · rfl

/-- A rank-0 scalar broadcast to any shape, read anywhere, is the scalar. -/
theorem scalar_at {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun d => d.elim0

end Cert.LibHostBroadcast
-- ==== Proof.LibColumnVec.lean ====
import Idealize.ShloMosaic.Lib.ValueIdx
import Idealize.ShloMosaic.Lib.Pipeline.Value
import Idealize.ShloMosaic.Lib.ValueLayout

/-!
# A vector set as a column, a column read as a vector, one column cut out of a matrix

Four re-layings of `N` numbers, each read at an index written by its coordinates:

* a vector [N] laid out as a column [N, 1] (a `broadcast_in_dim` along axis 0): entry `(n, 0)` is entry `n`;
* a vector [N] laid out as a row [1, N] (a `broadcast_in_dim` along axis 1): entry `(0, n)` is entry `n`;
* a column [N, 1] recast to a vector [N]: entry `n` is entry `(n, 0)`;
* column `k` cut out of a matrix [N, C] as a column [N, 1]: entry `(n, 0)` is entry `(n, k)`.

Nothing here depends on what the entries are.
-/

namespace Cert.LibColumnVec

open Idealize.ShloMosaic Idealize.ShloMosaic.ValueIdx

variable {α : Type}

/-- A vector laid out as a column. -/
theorem columnOfVector_at {N : ℕ} (v : (⟨1, ![N]⟩ : Shape).Idx → α)
    (h : (⟨1, ![N]⟩ : Shape).BroadcastsInDim ⟨2, ![N, 1]⟩ (![0] : Fin 1 → Fin 2)) (n : Fin N) :
    broadcastInDim ⟨2, ![N, 1]⟩ (![0] : Fin 1 → Fin 2) h v (ix2 n 0) = v (ix1 n) :=
  broadcastInDim_apply _ h v (ix2 n 0) (ix1 n) (fun a => by
    match a with
    | ⟨0, _⟩ =>
      show n.val = if N = 1 then 0 else n.val
      by_cases hN : N = 1
      · rw [if_pos hN]; have := n.isLt; omega
      · rw [if_neg hN])

/-- A vector laid out as a row. -/
theorem rowOfVector_at {N : ℕ} (v : (⟨1, ![N]⟩ : Shape).Idx → α)
    (h : (⟨1, ![N]⟩ : Shape).BroadcastsInDim ⟨2, ![1, N]⟩ (![1] : Fin 1 → Fin 2)) (n : Fin N) :
    broadcastInDim ⟨2, ![1, N]⟩ (![1] : Fin 1 → Fin 2) h v (ix2 0 n) = v (ix1 n) :=
  broadcastInDim_apply _ h v (ix2 0 n) (ix1 n) (fun a => by
    match a with
    | ⟨0, _⟩ =>
      show n.val = if N = 1 then 0 else n.val
      by_cases hN : N = 1
      · rw [if_pos hN]; have := n.isLt; omega
      · rw [if_neg hN])

/-- A column recast to a vector: the same numbers in the same order. -/
theorem vectorOfColumn_at {N : ℕ} (A : (⟨2, ![N, 1]⟩ : Shape).Idx → α)
    (h : (⟨2, ![N, 1]⟩ : Shape).ShapeCasts ⟨1, ![N]⟩) (n : Fin N) :
    shapeCast ⟨1, ![N]⟩ A h (ix1 n) = A (ix2 n 0) :=
  shapeCast_apply A h (ix1 n) (ix2 n 0) (by
    rw [Shape.rowMajor_val_two, Shape.rowMajor_val_one]
    show n.val * 1 + 0 = n.val
    omega)

/-- Column `k` of a matrix, cut out as a column. -/
theorem columnOfMatrix_at {N C : ℕ} (k : ℕ) (A : (⟨2, ![N, C]⟩ : Shape).Idx → α)
    (h : (⟨2, ![N, C]⟩ : Shape).Slices ![0, k] ⟨2, ![N, 1]⟩) (n : Fin N) :
    extractStridedSlice ⟨2, ![N, 1]⟩ ![0, k] A h (ix2 n 0)
      = A (ix2 n ⟨k, by have := h.2 1; simpa using this⟩) :=
  slice2_axis1_apply k A h n 0 _ (by simp)

end Cert.LibColumnVec
-- ==== Proof.RefLayers.lean ====
/-
  The layers of the dense path read at one entry.

  An affine layer X·Wᵀ + b, with the weight matrix W [B, K] transposed before the product and the bias laid out as one row
  and spread down the rows, read at (p, q) is Σ_k X(p, k)·W(q, k) + b(q): it reads row p of X only. The wide layer
  contracts the concatenated row [h, q] (272 entries) against the transposed W₁: the sum over the 272 indices is the sum
  over the first 256 (where the row is h) plus the sum over the last 16 (where the row is q). The leaky rectifier is
  entry by entry. Each statement takes the row that goes in as a function of its index and says what comes out as the
  specification's layer of that row.
-/
import Idealize.ShloMosaic.Lib.ValueIdx
import Idealize.ShloMosaic.Lib.ValueLayout
import Idealize.ShloMosaic.Lib.Pipeline.Value
import Idealize.ShloMosaic.PureOps.Ideal.Laws
import proofs.«170179_j64828236366589_1_alg».proof.Proof.Mlp
import proofs.«170179_j64828236366589_1_alg».proof.Proof.LibPlainDot
import proofs.«170179_j64828236366589_1_alg».proof.Proof.LibConcatAt
import proofs.«170179_j64828236366589_1_alg».proof.Proof.LibHostBroadcast
import proofs.«170179_j64828236366589_1_alg».proof.Proof.LibColumnVec

noncomputable section

open scoped BigOperators

namespace Cert.ReferenceIdeal.OutValue

open Idealize.ShloMosaic Idealize.ShloMosaic.ValueIdx

/-- A vector laid out as one row and spread down the rows, read at (p, q), is the vector at q. -/
theorem biasRows_at {α : Type} {A B : Nat} (b : (⟨1, ![B]⟩ : Shape).Idx → α)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2)) (p : Fin A) (q : Fin B) :
    broadcastInDim ⟨2, ![A, B]⟩ (![0, 1] : Fin 2 → Fin 2) h2
        (broadcastInDim ⟨2, ![1, B]⟩ (![1] : Fin 1 → Fin 2) h1 b) (ix2 p q) = b (ix1 q) :=
  (Cert.LibHostBroadcast.row_at _ h2 p q).trans (Cert.LibColumnVec.rowOfVector_at b h1 q)

/-- An affine layer X·Wᵀ + b read at (p, q): the specification's dense layer of row p of X. -/
theorem affine_at {A K B : Nat}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (X : FVec Ideal ⟨2, ![A, K]⟩ .f32) (W : FVec Ideal ⟨2, ![B, K]⟩ .f32) (b : FVec Ideal ⟨1, ![B]⟩ .f32)
    (ht : (⟨2, ![B, K]⟩ : Shape).Transposes [1, 0] ⟨2, ![K, B]⟩)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2)) (p : Fin A) (q : Fin B)
    (u : Fin K → EReal) (hX : ∀ k : Fin K, X (ix2 p k) = u k) :
    addf (Host.dotGeneral d none X (transpose ⟨2, ![K, B]⟩ [1, 0] W ht))
        (broadcastInDim ⟨2, ![A, B]⟩ (![0, 1] : Fin 2 → Fin 2) h2
          (broadcastInDim ⟨2, ![1, B]⟩ (![1] : Fin 1 → Fin 2) h1 b)) (ix2 p q)
      = Cert.Mlp.dense u (fun (k : Fin K) (j : Fin B) => W (ix2 j k)) (fun j : Fin B => b (ix1 j)) q := by
  unfold Cert.Mlp.dense
  rw [addf_apply, biasRows_at]
  refine congrArg₂ (· + ·) ?_ rfl
  refine (Cert.LibPlainDot.dotGeneral_at d hr hs hlc hrc hlb hln hrb hrn none .single X _ p q).trans ?_
  exact Finset.sum_congr rfl fun k _ => congrArg₂ (· * ·) (hX k) (transpose_ix2_apply W ht k q)

/-- The concatenated row [h, q] at one of its first 256 indices is h there. -/
theorem cat_left {α : Type} {N : Nat} (h : (⟨2, ![N, 256]⟩ : Shape).Idx → α) (q : (⟨2, ![N, 16]⟩ : Shape).Idx → α)
    (hc : Shape.Concatenates [(⟨2, ![N, 256]⟩ : Shape), ⟨2, ![N, 16]⟩] ⟨2, ![N, 272]⟩ (1 : Fin 2)) (p : Fin N) (k : Fin 256) :
    concatenate ⟨2, ![N, 272]⟩ (1 : Fin 2) [⟨⟨2, ![N, 256]⟩, h⟩, ⟨⟨2, ![N, 16]⟩, q⟩] hc (ix2 p (⟨k.val, by omega⟩ : Fin 272))
      = h (ix2 p k) :=
  Cert.LibConcatAt.sideBySide_at (N := N) (K := 272) (W := 256) [⟨⟨2, ![N, 256]⟩, h⟩, ⟨⟨2, ![N, 16]⟩, q⟩] hc p
    (⟨k.val, by omega⟩ : Fin 272) 0 h rfl 0 rfl k (Nat.zero_add _)

/-- The concatenated row [h, q] at one of its last 16 indices is q there. -/
theorem cat_right {α : Type} {N : Nat} (h : (⟨2, ![N, 256]⟩ : Shape).Idx → α) (q : (⟨2, ![N, 16]⟩ : Shape).Idx → α)
    (hc : Shape.Concatenates [(⟨2, ![N, 256]⟩ : Shape), ⟨2, ![N, 16]⟩] ⟨2, ![N, 272]⟩ (1 : Fin 2)) (p : Fin N) (k : Fin 16) :
    concatenate ⟨2, ![N, 272]⟩ (1 : Fin 2) [⟨⟨2, ![N, 256]⟩, h⟩, ⟨⟨2, ![N, 16]⟩, q⟩] hc (ix2 p (⟨256 + k.val, by omega⟩ : Fin 272))
      = q (ix2 p k) :=
  Cert.LibConcatAt.sideBySide_at (N := N) (K := 272) (W := 16) [⟨⟨2, ![N, 256]⟩, h⟩, ⟨⟨2, ![N, 16]⟩, q⟩] hc p
    (⟨256 + k.val, by omega⟩ : Fin 272) 1 q rfl 256 rfl k rfl

/-- The wide layer [h, q]·W₁ᵀ + b₁ read at (p, n): the specification's wide layer of row p of h and row p of q, the
    weight matrix cut into its first 256 and last 16 columns. -/
theorem wide_at {N : Nat}
    (d : DotDims (⟨2, ![N, 272]⟩ : Shape) (⟨2, ![272, 1024]⟩ : Shape) (⟨2, ![N, 1024]⟩ : Shape))
    (hr : d.contr.rank = 1) (hs : d.contr.size ⟨0, by omega⟩ = 272)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (h : FVec Ideal ⟨2, ![N, 256]⟩ .f32) (Q : FVec Ideal ⟨2, ![N, 16]⟩ .f32)
    (w1 : FVec Ideal ⟨2, ![1024, 272]⟩ .f32) (b1 : FVec Ideal ⟨1, ![1024]⟩ .f32)
    (hc : Shape.Concatenates [(⟨2, ![N, 256]⟩ : Shape), ⟨2, ![N, 16]⟩] ⟨2, ![N, 272]⟩ (1 : Fin 2))
    (ht : (⟨2, ![1024, 272]⟩ : Shape).Transposes [1, 0] ⟨2, ![272, 1024]⟩)
    (h1 : (⟨1, ![1024]⟩ : Shape).BroadcastsInDim ⟨2, ![1, 1024]⟩ (![1] : Fin 1 → Fin 2))
    (h2 : (⟨2, ![1, 1024]⟩ : Shape).BroadcastsInDim ⟨2, ![N, 1024]⟩ (![0, 1] : Fin 2 → Fin 2)) (p : Fin N) (n : Fin 1024)
    (u : Fin 256 → EReal) (hh : ∀ k : Fin 256, h (ix2 p k) = u k) :
    addf (Host.dotGeneral d none
          (concatenate ⟨2, ![N, 272]⟩ (1 : Fin 2) [⟨⟨2, ![N, 256]⟩, h⟩, ⟨⟨2, ![N, 16]⟩, Q⟩] hc)
          (transpose ⟨2, ![272, 1024]⟩ [1, 0] w1 ht))
        (broadcastInDim ⟨2, ![N, 1024]⟩ (![0, 1] : Fin 2 → Fin 2) h2
          (broadcastInDim ⟨2, ![1, 1024]⟩ (![1] : Fin 1 → Fin 2) h1 b1)) (ix2 p n)
      = Cert.Mlp.wide u (fun k : Fin 16 => Q (ix2 p k))
          (fun (k : Fin 256) (n : Fin 1024) => w1 (ix2 n ⟨k.val, by omega⟩))
          (fun (k : Fin 16) (n : Fin 1024) => w1 (ix2 n ⟨256 + k.val, by omega⟩))
          (fun n : Fin 1024 => b1 (ix1 n)) n := by
  unfold Cert.Mlp.wide
  rw [addf_apply, biasRows_at]
  refine congrArg₂ (· + ·) ?_ rfl
  refine (Cert.LibPlainDot.dotGeneral_at d hr hs hlc hrc hlb hln hrb hrn none .single _ _ p n).trans ?_
  rw [Cert.Mlp.sum_split]
  refine congrArg₂ (· + ·) (Finset.sum_congr rfl fun k _ => ?_) (Finset.sum_congr rfl fun k _ => ?_)
  · exact congrArg₂ (· * ·) ((cat_left h Q hc p k).trans (hh k)) (transpose_ix2_apply w1 ht _ n)
  · exact congrArg₂ (· * ·) (cat_right h Q hc p k) (transpose_ix2_apply w1 ht _ n)

/-- The leaky rectifier of slope 1024 — a comparison with the spread zero, a product with the spread 1024, a
    selection — at an entry is the specification's leaky rectifier of the entry. -/
theorem leaky_at {s : Shape} (a : FVec Ideal s .f32)
    (hb : (⟨0, ![]⟩ : Shape).BroadcastsInDim s (![] : Fin 0 → Fin s.rank)) (j : s.Idx) (v : EReal) (ha : a j = v) :
    select (cmpf .oge a (broadcastInDim s (![] : Fin 0 → Fin s.rank) hb (constant (F := Ideal) ⟨0, ![]⟩ .f32 0x00000000#32)))
        a (mulf (broadcastInDim s (![] : Fin 0 → Fin s.rank) hb (id (constant (F := Ideal) ⟨0, ![]⟩ .f32 0x44800000#32))) a) j
      = Cert.Mlp.leaky v := by
  subst ha
  rfl

end Cert.ReferenceIdeal.OutValue

end
-- ==== Proof.RefSoftmax.lean ====
/-
  The logarithm of the softmax along the rows of a matrix [A, 16], read at one entry.

  The row's maximum is taken from −∞ over the 16 entries of the row and joined with −∞ once more; it is laid out as a
  column and spread along the columns, so at (p, t) it is the maximum of row p. The shifted row is exponentiated, summed
  from zero over the 16 entries of the row, laid out as a column, its logarithm taken and spread along the columns. So
  at (p, t) the result is (o(p,t) − M) − log Σ_u exp (o(p,u) − M) with M the maximum of row p: the specification's
  function of row p.
-/
import Idealize.ShloMosaic.Lib.ValueIdx
import Idealize.ShloMosaic.Lib.Pipeline.Value
import Idealize.ShloMosaic.PureOps.Ideal.Laws
import proofs.«170179_j64828236366589_1_alg».proof.Proof.Mlp
import proofs.«170179_j64828236366589_1_alg».proof.Proof.LibHostBroadcast
import proofs.«170179_j64828236366589_1_alg».proof.Proof.LibColumnVec

noncomputable section

open scoped BigOperators

namespace Cert.ReferenceIdeal.OutValue

open Idealize.ShloMosaic Idealize.ShloMosaic.ValueIdx

/-- The reduced index p with the column k put back is (p, k). -/
theorem lift_row {A n : Nat} (h : (⟨2, ![A, n]⟩ : Shape).Reduces [1] (⟨1, ![A]⟩ : Shape)) (p : Fin A)
    (k : Fin ((⟨2, ![A, n]⟩ : Shape).size 1)) : h.lift (ix1 p) k = ix2 p (⟨k.val, k.isLt⟩ : Fin n) := by
  funext c; apply Fin.ext
  fin_cases c <;> rfl

/-- A vector laid out as a column and spread along the columns, read at (p, u), is the vector at p. -/
theorem colSpread_at {α : Type} {A n : Nat} (v : (⟨1, ![A]⟩ : Shape).Idx → α)
    (hb1 : (⟨1, ![A]⟩ : Shape).BroadcastsInDim ⟨2, ![A, 1]⟩ (![0] : Fin 1 → Fin 2))
    (hb2 : (⟨2, ![A, 1]⟩ : Shape).BroadcastsInDim ⟨2, ![A, n]⟩ (![0, 1] : Fin 2 → Fin 2)) (p : Fin A) (u : Fin n) :
    broadcastInDim ⟨2, ![A, n]⟩ (![0, 1] : Fin 2 → Fin 2) hb2
        (broadcastInDim ⟨2, ![A, 1]⟩ (![0] : Fin 1 → Fin 2) hb1 v) (ix2 p u) = v (ix1 p) :=
  (Cert.LibHostBroadcast.column_at _ hb2 p u).trans (Cert.LibColumnVec.columnOfVector_at v hb1 p)

/-- The maximum of row p from −∞, joined with the spread −∞: the specification's row maximum. -/
theorem rowMax_at {A : Nat} (o : FVec Ideal ⟨2, ![A, 16]⟩ .f32)
    (h' : (⟨2, ![A, 16]⟩ : Shape).ReducesTo [1] ⟨1, ![A]⟩) (h : (⟨2, ![A, 16]⟩ : Shape).Reduces [1] ⟨1, ![A]⟩)
    (hu : 0 < (⟨0, ![]⟩ : Shape).numel)
    (hb0 : (⟨0, ![]⟩ : Shape).BroadcastsInDim ⟨1, ![A]⟩ (![] : Fin 0 → Fin 1)) (p : Fin A) :
    maximumf (broadcastInDim ⟨1, ![A]⟩ (![] : Fin 0 → Fin 1) hb0 (constant (F := Ideal) ⟨0, ![]⟩ .f32 0xFF800000#32))
        (Host.reduce (FloatOps.maximumf (F := Ideal) (φ := .f32)) o (constant (F := Ideal) ⟨0, ![]⟩ .f32 0xFF800000#32) h' hu)
        (ix1 p)
      = Cert.Mlp.rowMax (fun u : Fin 16 => o (ix2 p u)) := by
  unfold Cert.Mlp.rowMax
  rw [maximumf_apply]
  refine congrArg₂ max rfl ?_
  rw [Host.reduce_eq_fold_single (FloatOps.maximumf (F := Ideal) (φ := .f32)) o _ h' h hu]
  have hf : (o ∘ h.lift (ix1 p)) = fun u : Fin 16 => o (ix2 p u) := funext fun k => congrArg o (lift_row h p k)
  exact congrArg (fun f => Finset.fold max (Ideal.ofBits .f32 0xFF800000#32) f (Finset.univ : Finset (Fin 16))) hf

/-- The sum of row p from zero. -/
theorem rowSum_at {A : Nat} (e : FVec Ideal ⟨2, ![A, 16]⟩ .f32)
    (h' : (⟨2, ![A, 16]⟩ : Shape).ReducesTo [1] ⟨1, ![A]⟩) (h : (⟨2, ![A, 16]⟩ : Shape).Reduces [1] ⟨1, ![A]⟩)
    (hu : 0 < (⟨0, ![]⟩ : Shape).numel) (p : Fin A) :
    Host.reduceAdd (F := Ideal) e (constant (F := Ideal) ⟨0, ![]⟩ .f32 0x00000000#32) h' hu (ix1 p)
      = ∑ u : Fin 16, e (ix2 p u) := by
  show Ideal.hostReduceAdd _ _ _ (ix1 p) = _
  rw [Ideal.hostReduceAdd_single h' h]
  show Ideal.ofBits .f32 0x00000000#32 + _ = _
  rw [Ideal.ofBits_zero_f32, zero_add]
  exact Finset.sum_congr rfl fun k _ => congrArg e (lift_row h p k)

/-- The shifted logarithm of the softmax with ANY shift vector m: at (p, t) it is
    (o(p,t) − m(p)) − log Σ_u exp (o(p,u) − m(p)). -/
theorem shiftedLogSoftmax_at {A : Nat} (o : FVec Ideal ⟨2, ![A, 16]⟩ .f32) (m : FVec Ideal ⟨1, ![A]⟩ .f32)
    (h' : (⟨2, ![A, 16]⟩ : Shape).ReducesTo [1] ⟨1, ![A]⟩) (h : (⟨2, ![A, 16]⟩ : Shape).Reduces [1] ⟨1, ![A]⟩)
    (hu : 0 < (⟨0, ![]⟩ : Shape).numel)
    (hb1 : (⟨1, ![A]⟩ : Shape).BroadcastsInDim ⟨2, ![A, 1]⟩ (![0] : Fin 1 → Fin 2))
    (hb2 : (⟨2, ![A, 1]⟩ : Shape).BroadcastsInDim ⟨2, ![A, 16]⟩ (![0, 1] : Fin 2 → Fin 2)) (p : Fin A) (t : Fin 16) :
    subf (subf o (broadcastInDim ⟨2, ![A, 16]⟩ (![0, 1] : Fin 2 → Fin 2) hb2 (broadcastInDim ⟨2, ![A, 1]⟩ (![0] : Fin 1 → Fin 2) hb1 m)))
        (broadcastInDim ⟨2, ![A, 16]⟩ (![0, 1] : Fin 2 → Fin 2) hb2
          (Host.log (broadcastInDim ⟨2, ![A, 1]⟩ (![0] : Fin 1 → Fin 2) hb1
            (Host.reduceAdd (F := Ideal)
              (Host.exp (subf o (broadcastInDim ⟨2, ![A, 16]⟩ (![0, 1] : Fin 2 → Fin 2) hb2
                (broadcastInDim ⟨2, ![A, 1]⟩ (![0] : Fin 1 → Fin 2) hb1 m))))
              (constant (F := Ideal) ⟨0, ![]⟩ .f32 0x00000000#32) h' hu)))) (ix2 p t)
      = (o (ix2 p t) - m (ix1 p)) - Ideal.log (∑ u : Fin 16, Ideal.exp (o (ix2 p u) - m (ix1 p))) := by
  rw [subf_apply, subf_apply, colSpread_at m hb1 hb2 p t]
  refine congrArg₂ (· - ·) rfl ?_
  rw [Cert.LibHostBroadcast.column_at _ hb2 p t]
  show Ideal.log (broadcastInDim (s := ⟨1, ![A]⟩) ⟨2, ![A, 1]⟩ (![0] : Fin 1 → Fin 2) hb1 _ (ix2 p (0 : Fin 1))) = _
  rw [Cert.LibColumnVec.columnOfVector_at _ hb1 p, rowSum_at _ h' h hu p]
  refine congrArg Ideal.log (Finset.sum_congr rfl fun u _ => ?_)
  show Ideal.exp (subf o _ (ix2 p u)) = _
  rw [subf_apply, colSpread_at m hb1 hb2 p u]

/-- The logarithm of the softmax shifted by the row maximum, read at (p, t): the specification's function of row p. -/
theorem logSoftmax_at {A : Nat} (o : FVec Ideal ⟨2, ![A, 16]⟩ .f32)
    (h' : (⟨2, ![A, 16]⟩ : Shape).ReducesTo [1] ⟨1, ![A]⟩) (h : (⟨2, ![A, 16]⟩ : Shape).Reduces [1] ⟨1, ![A]⟩)
    (hu : 0 < (⟨0, ![]⟩ : Shape).numel)
    (hb0 : (⟨0, ![]⟩ : Shape).BroadcastsInDim ⟨1, ![A]⟩ (![] : Fin 0 → Fin 1))
    (hb1 : (⟨1, ![A]⟩ : Shape).BroadcastsInDim ⟨2, ![A, 1]⟩ (![0] : Fin 1 → Fin 2))
    (hb2 : (⟨2, ![A, 1]⟩ : Shape).BroadcastsInDim ⟨2, ![A, 16]⟩ (![0, 1] : Fin 2 → Fin 2)) (p : Fin A) (t : Fin 16)
    (r : Fin 16 → EReal) (ho : ∀ u : Fin 16, o (ix2 p u) = r u) :
    subf (subf o (broadcastInDim ⟨2, ![A, 16]⟩ (![0, 1] : Fin 2 → Fin 2) hb2 (broadcastInDim ⟨2, ![A, 1]⟩ (![0] : Fin 1 → Fin 2) hb1
          (maximumf (broadcastInDim ⟨1, ![A]⟩ (![] : Fin 0 → Fin 1) hb0 (constant (F := Ideal) ⟨0, ![]⟩ .f32 0xFF800000#32))
            (Host.reduce (FloatOps.maximumf (F := Ideal) (φ := .f32)) o (constant (F := Ideal) ⟨0, ![]⟩ .f32 0xFF800000#32) h' hu)))))
        (broadcastInDim ⟨2, ![A, 16]⟩ (![0, 1] : Fin 2 → Fin 2) hb2
          (Host.log (broadcastInDim ⟨2, ![A, 1]⟩ (![0] : Fin 1 → Fin 2) hb1
            (Host.reduceAdd (F := Ideal)
              (Host.exp (subf o (broadcastInDim ⟨2, ![A, 16]⟩ (![0, 1] : Fin 2 → Fin 2) hb2
                (broadcastInDim ⟨2, ![A, 1]⟩ (![0] : Fin 1 → Fin 2) hb1
                  (maximumf (broadcastInDim ⟨1, ![A]⟩ (![] : Fin 0 → Fin 1) hb0 (constant (F := Ideal) ⟨0, ![]⟩ .f32 0xFF800000#32))
                    (Host.reduce (FloatOps.maximumf (F := Ideal) (φ := .f32)) o (constant (F := Ideal) ⟨0, ![]⟩ .f32 0xFF800000#32) h' hu))))))
              (constant (F := Ideal) ⟨0, ![]⟩ .f32 0x00000000#32) h' hu)))) (ix2 p t)
      = Cert.Mlp.logSoftmax r t := by
  have hr : (fun u : Fin 16 => o (ix2 p u)) = r := funext ho
  rw [shiftedLogSoftmax_at o _ h' h hu hb1 hb2 p t, rowMax_at o h' h hu hb0 p, hr]
  unfold Cert.Mlp.logSoftmax
  simp only [ho]

end Cert.ReferenceIdeal.OutValue

end
-- ==== Proof.RefOutAt.lean ====
/-
  The reference's output at one entry is the specification's row function of its operands.

  Entry (p, t) of the dense path's result depends on row p of the features and row p of the cluster probabilities only:
  it is the network of the specification — encoder, wide layer over the concatenated row, leaky rectifier, two affine
  layers, shifted logarithm of the softmax — applied to those two rows, with each weight matrix read transposed (the
  contraction index first) and the wide layer's weight matrix cut into its first 256 and its last 16 columns.
  The proof goes from the last layer inwards, each layer read at its entry as the specification's layer of the row before it.
-/
import proofs.«170179_j64828236366589_1_alg».proof.Proof.RefOut
import proofs.«170179_j64828236366589_1_alg».proof.Proof.RefLayers
import proofs.«170179_j64828236366589_1_alg».proof.Proof.RefSoftmax

noncomputable section

namespace Cert.ReferenceIdeal.OutValue

open Cert.ReferenceIdeal Cert.ReferenceIdeal.Gen Idealize.ShloMosaic Idealize.ShloMosaic.ValueIdx

/-- The rows of a [100000, 16] matrix are what its reduction over axis 1 drops. -/
theorem reduces_rows : S100000x16.Reduces [1] S100000 := by decide

theorem refOut_at (x : FVec Ideal S100000x512 .f32) (wenc : FVec Ideal S256x512 .f32) (benc : FVec Ideal S256 .f32)
    (Q : FVec Ideal S100000x16 .f32) (w1 : FVec Ideal S1024x272 .f32) (b1 : FVec Ideal S1024 .f32)
    (w2 : FVec Ideal S256x1024 .f32) (b2 : FVec Ideal S256 .f32) (wdec : FVec Ideal S16x256 .f32)
    (bdec : FVec Ideal S16 .f32) (p : Fin 100000) (t : Fin 16) :
    refOut x wenc benc Q w1 b1 w2 b2 wdec bdec (ix2 p t)
      = Cert.Mlp.rowOut
          (fun k : Fin 512 => x (ix2 p k))
          (fun k : Fin 16 => Q (ix2 p k))
          (fun (k : Fin 512) (j : Fin 256) => wenc (ix2 j k))
          (fun j : Fin 256 => benc (ix1 j))
          (fun (k : Fin 256) (n : Fin 1024) => w1 (ix2 n ⟨k.val, by omega⟩))
          (fun (k : Fin 16) (n : Fin 1024) => w1 (ix2 n ⟨256 + k.val, by omega⟩))
          (fun n : Fin 1024 => b1 (ix1 n))
          (fun (n : Fin 1024) (j : Fin 256) => w2 (ix2 j n))
          (fun j : Fin 256 => b2 (ix1 j))
          (fun (j : Fin 256) (t : Fin 16) => wdec (ix2 t j))
          (fun t : Fin 16 => bdec (ix1 t)) t := by
  unfold refOut Cert.Mlp.rowOut
  dsimp only
  refine logSoftmax_at _ reducesTo_S100000x16_S100000_d1 reduces_rows h_S_ bcast_S_S100000 bcast_S100000_S100000x1_0
    bcast_S100000x1_S100000x16_0_1 p t _ (fun u => ?_)
  refine affine_at dot_S100000x256_S256x16_S100000x16_1_0_0_1_n_n rfl rfl rfl rfl rfl rfl rfl rfl _ wdec bdec
    transposes_S16x256_S256x16_1_0 bcast_S16_S1x16_1 bcast_S1x16_S100000x16_0_1 p u _ (fun k => ?_)
  refine affine_at dot_S100000x1024_S1024x256_S100000x256_1_0_0_1_n_n rfl rfl rfl rfl rfl rfl rfl rfl _ w2 b2
    transposes_S256x1024_S1024x256_1_0 bcast_S256_S1x256_1 bcast_S1x256_S100000x256_0_1 p k _ (fun n => ?_)
  refine leaky_at _ bcast_S_S100000x1024 (ix2 p n) _ ?_
  refine wide_at dot_S100000x272_S272x1024_S100000x1024_1_0_0_1_n_n rfl rfl rfl rfl rfl rfl rfl rfl _ Q w1 b1
    concatenates_S100000x256_S100000x16_S100000x272_d1 transposes_S1024x272_S272x1024_1_0 bcast_S1024_S1x1024_1
    bcast_S1x1024_S100000x1024_0_1 p n _ (fun k => ?_)
  exact affine_at dot_S100000x512_S512x256_S100000x256_1_0_0_1_n_n rfl rfl rfl rfl rfl rfl rfl rfl x wenc benc
    transposes_S256x512_S512x256_1_0 bcast_S256_S1x256_1 bcast_S1x256_S100000x256_0_1 p k _ (fun _ => rfl)

end Cert.ReferenceIdeal.OutValue

end
-- ==== Proof.RefLink.lean ====
/-
  The reference's output buffer is the dense path of its arguments and of the cluster probabilities.

  Read from the last operation of the log-softmax back through the decoder, the second layer, the leaky rectifier, the wide
  layer on the concatenated rows and the encoder, the buffer the reference returns holds the composition of those forty-four
  operations applied to the feature array, the weights and biases as launched, and the buffer of cluster probabilities (kept
  as one operand: it is shared with the loss and is not opened here).
-/
import proofs.«170179_j64828236366589_1_alg».proof.Proof.RefStages0
import proofs.«170179_j64828236366589_1_alg».proof.Proof.RefStages3
import proofs.«170179_j64828236366589_1_alg».proof.Proof.RefStages4
import proofs.«170179_j64828236366589_1_alg».proof.Proof.RefOutAt

noncomputable section

namespace Cert.ReferenceIdeal.OutValue

open Cert.ReferenceIdeal Cert.ReferenceIdeal.Gen Idealize.ShloMosaic Idealize.ShloMosaic.TcCoe Idealize.SL.Sem Idealize.ShloMosaic.StableHlo

variable (V0 : Valuation τ sig (Elt Ideal))

set_option maxRecDepth 16384 in
/-- The returned buffer after the whole line: the dense path of the launch contents of the arguments and of the
    probabilities' buffer. -/
theorem out_is_refOut :
    Line.val V0 main_v86
      = refOut (V0 (Proc.devRef .tc main_arg0)) (V0 (Proc.devRef .tc main_arg2)) (V0 (Proc.devRef .tc main_arg3))
          (Line.val V0 main_v15) (V0 (Proc.devRef .tc main_arg5)) (V0 (Proc.devRef .tc main_arg6))
          (V0 (Proc.devRef .tc main_arg7)) (V0 (Proc.devRef .tc main_arg8)) (V0 (Proc.devRef .tc main_arg9))
          (V0 (Proc.devRef .tc main_arg10)) := by
  simp only [
    Line.at_main_v86, Line.at_main_call2_v10, Line.at_main_call2_v9, Line.at_main_call2_v8, Line.at_main_call2_v7,
    Line.at_main_call2_cst_1, Line.at_main_call2_v6, Line.at_main_call2_v5, Line.at_main_call2_v4,
    Line.at_main_call2_v3, Line.at_main_call2_v2, Line.at_main_call2_v1, Line.at_main_call2_cst_0,
    Line.at_main_call2_v0, Line.at_main_call2_cst, Line.at_main_v85, Line.at_main_v84, Line.at_main_v83,
    Line.at_main_v82, Line.at_main_v81, Line.at_main_v80, Line.at_main_v79, Line.at_main_v78, Line.at_main_v77,
    Line.at_main_v76, Line.at_main_v75, Line.at_main_call1_v4, Line.at_main_call1_v3, Line.at_main_call1_v2,
    Line.at_main_call1_v1, Line.at_main_call1_v0, Line.at_main_call1_cst, Line.at_main_cst_14, Line.at_main_v74,
    Line.at_main_v73, Line.at_main_v72, Line.at_main_v71, Line.at_main_v70, Line.at_main_v69, Line.at_main_v4,
    Line.at_main_v3, Line.at_main_v2, Line.at_main_v1, Line.at_main_v0, Line.at_main_arg0, Line.at_main_arg2,
    Line.at_main_arg3, Line.at_main_arg5, Line.at_main_arg6, Line.at_main_arg7, Line.at_main_arg8,
    Line.at_main_arg9, Line.at_main_arg10]
  rfl

end Cert.ReferenceIdeal.OutValue

end
-- ==== Proof.KernelPrep.lean ====
/-
  The weight operands as they are prepared before the product, read at an entry.

  Each weight matrix is transposed, so that the contraction index comes first, and then recast to the narrow float format,
  which on the extended reals changes nothing: entry (k, j) of the prepared matrix is entry (j, k) of the operand. The
  wide layer's matrix [1024, 272] is first cut along its columns into the first 256 and the last 16 of them: entry (k, n)
  of the first prepared piece is the operand at (n, k), of the second at (n, 256 + k). A bias vector [n] recast to one
  row [1, n] holds at (0, j) what the vector holds at j.
-/
import Idealize.ShloMosaic.Lib.ValueIdx
import Idealize.ShloMosaic.Lib.ValueLayout
import Idealize.ShloMosaic.PureOps.Ideal
import proofs.«170179_j64828236366589_1_alg».proof.Proof.Gen.KernelIdeal

noncomputable section

namespace Cert.KernelIdeal.Prep

open Cert.KernelIdeal Cert.KernelIdeal.Gen Idealize.ShloMosaic Idealize.ShloMosaic.ValueIdx

/-- The recast to the narrow format is the identity on the extended reals. -/
theorem cast_at {s : Shape} (x : FVec Ideal s .f32) (i : s.Idx) : truncf .bf16 x bitsLt_bf16_f32 i = x i := rfl

/-- The encoder's matrix, transposed and recast: (k, j) reads the operand at (j, k). -/
theorem wE_at (w : FVec Ideal S256x512 .f32) (k : Fin 512) (j : Fin 256) :
    truncf .bf16 (transpose S512x256 [1, 0] w transposes_S256x512_S512x256_1_0) bitsLt_bf16_f32 (ix2 k j) = w (ix2 j k) :=
  (cast_at _ _).trans (transpose_ix2_apply w transposes_S256x512_S512x256_1_0 k j)

/-- The first 256 columns of the wide layer's matrix, transposed and recast: (k, n) reads the operand at (n, k). -/
theorem wH_at (w : FVec Ideal S1024x272 .f32) (k : Fin 256) (n : Fin 1024) :
    truncf .bf16 (transpose S256x1024 [1, 0] (extractStridedSlice S1024x256 ![0, 0] w slices_S1024x272_S1024x256_0_0)
        transposes_S1024x256_S256x1024_1_0) bitsLt_bf16_f32 (ix2 k n)
      = w (ix2 n ⟨k.val, by omega⟩) :=
  (cast_at _ _).trans ((transpose_ix2_apply _ transposes_S1024x256_S256x1024_1_0 k n).trans
    (slice2_axis1_apply 0 w slices_S1024x272_S1024x256_0_0 n k ⟨k.val, by omega⟩ (Nat.zero_add _).symm))

/-- The last 16 columns of the wide layer's matrix, transposed and recast: (k, n) reads the operand at (n, 256 + k). -/
theorem wQ_at (w : FVec Ideal S1024x272 .f32) (k : Fin 16) (n : Fin 1024) :
    truncf .bf16 (transpose S16x1024 [1, 0] (extractStridedSlice S1024x16 ![0, 256] w slices_S1024x272_S1024x16_0_256)
        transposes_S1024x16_S16x1024_1_0) bitsLt_bf16_f32 (ix2 k n)
      = w (ix2 n ⟨256 + k.val, by omega⟩) :=
  (cast_at _ _).trans ((transpose_ix2_apply _ transposes_S1024x16_S16x1024_1_0 k n).trans
    (slice2_axis1_apply 256 w slices_S1024x272_S1024x16_0_256 n k ⟨256 + k.val, by omega⟩ rfl))

/-- The second layer's matrix, transposed and recast: (n, j) reads the operand at (j, n). -/
theorem w2_at (w : FVec Ideal S256x1024 .f32) (n : Fin 1024) (j : Fin 256) :
    truncf .bf16 (transpose S1024x256 [1, 0] w transposes_S256x1024_S1024x256_1_0) bitsLt_bf16_f32 (ix2 n j) = w (ix2 j n) :=
  (cast_at _ _).trans (transpose_ix2_apply w transposes_S256x1024_S1024x256_1_0 n j)

/-- The decoder's matrix, transposed and recast: (j, t) reads the operand at (t, j). -/
theorem wD_at (w : FVec Ideal S16x256 .f32) (j : Fin 256) (t : Fin 16) :
    truncf .bf16 (transpose S256x16 [1, 0] w transposes_S16x256_S256x16_1_0) bitsLt_bf16_f32 (ix2 j t) = w (ix2 t j) :=
  (cast_at _ _).trans (transpose_ix2_apply w transposes_S16x256_S256x16_1_0 j t)

/-- A bias vector of 256 entries recast to one row. -/
theorem row256_at (b : FVec Ideal S256 .f32) (j : Fin 256) :
    shapeCast S1x256 b shapeCasts_S256_S1x256 (ix2 (0 : Fin 1) j) = b (ix1 j) :=
  shapeCast_a_1a_apply b shapeCasts_S256_S1x256 0 j

/-- A bias vector of 1024 entries recast to one row. -/
theorem row1024_at (b : FVec Ideal S1024 .f32) (n : Fin 1024) :
    shapeCast S1x1024 b shapeCasts_S1024_S1x1024 (ix2 (0 : Fin 1) n) = b (ix1 n) :=
  shapeCast_a_1a_apply b shapeCasts_S1024_S1x1024 0 n

/-- A bias vector of 16 entries recast to one row. -/
theorem row16_at (b : FVec Ideal S16 .f32) (t : Fin 16) :
    shapeCast S1x16 b shapeCasts_S16_S1x16 (ix2 (0 : Fin 1) t) = b (ix1 t) :=
  shapeCast_a_1a_apply b shapeCasts_S16_S1x16 0 t

end Cert.KernelIdeal.Prep

end
-- ==== Proof.KernelLink.lean ====
/-
  The arrays the kernel's region finds, read at an entry.

  Before the region the program casts the features and the cluster probabilities to bf16 (no change on the extended reals),
  transposes each weight matrix so that the contraction index comes first — for the wide layer it first cuts the matrix into
  its first 256 and its last 16 columns —, and recasts each bias vector [n] as the row [1, n]. So at an entry each window's
  array is an entry of an argument array as launched (the probabilities' array: of the softmax buffer).
-/
import proofs.«170179_j64828236366589_1_alg».proof.Proof.KernelStages3
import proofs.«170179_j64828236366589_1_alg».proof.Proof.KernelPrep

noncomputable section

namespace Cert.KernelIdeal.Link

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-- The feature array as the region finds it is the launched one. -/
theorem x_at (p : Fin 100000) (k : Fin 512) :
    Gen.V (F := Ideal) m c (Pipeline.arrRef spec0 0) (ix2 p k) = m ((c : Thread nD τ).loc main_arg0) (ix2 p k) := by
  show Gen.V (F := Ideal) m c main_v64 _ = _
  rw [← Host.val_eq_V m c main_v64, Host.at_main_v64, Host.at_main_arg0]; exact Prep.cast_at _ _

/-- The probabilities' array as the region finds it is the softmax buffer. -/
theorem q_at (p : Fin 100000) (k : Fin 16) : Gen.V (F := Ideal) m c (Pipeline.arrRef spec0 1) (ix2 p k) = Host.val m c main_v10 (ix2 p k) := by
  show Gen.V (F := Ideal) m c main_v65 _ = _
  rw [← Host.val_eq_V m c main_v65, Host.at_main_v65]; exact Prep.cast_at _ _

/-- The encoder's weights, contraction index first: entry (k, j) is W_enc's (j, k). -/
theorem wE_at (k : Fin 512) (j : Fin 256) :
    Gen.V (F := Ideal) m c (Pipeline.arrRef spec0 2) (ix2 k j) = m ((c : Thread nD τ).loc main_arg2) (ix2 j k) := by
  show Gen.V (F := Ideal) m c main_v67 _ = _
  rw [← Host.val_eq_V m c main_v67, Host.at_main_v67, Host.at_main_v66, Host.at_main_arg2]; exact Prep.wE_at _ k j

/-- The encoder's bias as a row. -/
theorem bE_at (j : Fin 256) :
    Gen.V (F := Ideal) m c (Pipeline.arrRef spec0 3) (ix2 (0 : Fin 1) j) = m ((c : Thread nD τ).loc main_arg3) (ix1 j) := by
  show Gen.V (F := Ideal) m c main_v78 _ = _
  rw [← Host.val_eq_V m c main_v78, Host.at_main_v78, Host.at_main_arg3]; exact Prep.row256_at _ j

/-- The wide layer's first column group, contraction index first: entry (k, n) is W1's (n, k). -/
theorem wH_at (k : Fin 256) (n : Fin 1024) :
    Gen.V (F := Ideal) m c (Pipeline.arrRef spec0 4) (ix2 k n) = m ((c : Thread nD τ).loc main_arg5) (ix2 n ⟨k.val, by omega⟩) := by
  show Gen.V (F := Ideal) m c main_v70 _ = _
  rw [← Host.val_eq_V m c main_v70, Host.at_main_v70, Host.at_main_v69, Host.at_main_v68, Host.at_main_arg5]; exact Prep.wH_at _ k n

/-- The wide layer's second column group: entry (k, n) is W1's (n, 256 + k). -/
theorem wQ_at (k : Fin 16) (n : Fin 1024) :
    Gen.V (F := Ideal) m c (Pipeline.arrRef spec0 5) (ix2 k n) = m ((c : Thread nD τ).loc main_arg5) (ix2 n ⟨256 + k.val, by omega⟩) := by
  show Gen.V (F := Ideal) m c main_v73 _ = _
  rw [← Host.val_eq_V m c main_v73, Host.at_main_v73, Host.at_main_v72, Host.at_main_v71, Host.at_main_arg5]; exact Prep.wQ_at _ k n

/-- The wide layer's bias as a row. -/
theorem b1_at (n : Fin 1024) :
    Gen.V (F := Ideal) m c (Pipeline.arrRef spec0 6) (ix2 (0 : Fin 1) n) = m ((c : Thread nD τ).loc main_arg6) (ix1 n) := by
  show Gen.V (F := Ideal) m c main_v79 _ = _
  rw [← Host.val_eq_V m c main_v79, Host.at_main_v79, Host.at_main_arg6]; exact Prep.row1024_at _ n

/-- The second layer's weights, contraction index first. -/
theorem w2_at (n : Fin 1024) (j : Fin 256) :
    Gen.V (F := Ideal) m c (Pipeline.arrRef spec0 7) (ix2 n j) = m ((c : Thread nD τ).loc main_arg7) (ix2 j n) := by
  show Gen.V (F := Ideal) m c main_v75 _ = _
  rw [← Host.val_eq_V m c main_v75, Host.at_main_v75, Host.at_main_v74, Host.at_main_arg7]; exact Prep.w2_at _ n j

/-- The second layer's bias as a row. -/
theorem b2_at (j : Fin 256) :
    Gen.V (F := Ideal) m c (Pipeline.arrRef spec0 8) (ix2 (0 : Fin 1) j) = m ((c : Thread nD τ).loc main_arg8) (ix1 j) := by
  show Gen.V (F := Ideal) m c main_v80 _ = _
  rw [← Host.val_eq_V m c main_v80, Host.at_main_v80, Host.at_main_arg8]; exact Prep.row256_at _ j

/-- The decoder's weights, contraction index first. -/
theorem wD_at (j : Fin 256) (t : Fin 16) :
    Gen.V (F := Ideal) m c (Pipeline.arrRef spec0 9) (ix2 j t) = m ((c : Thread nD τ).loc main_arg9) (ix2 t j) := by
  show Gen.V (F := Ideal) m c main_v77 _ = _
  rw [← Host.val_eq_V m c main_v77, Host.at_main_v77, Host.at_main_v76, Host.at_main_arg9]; exact Prep.wD_at _ j t

/-- The decoder's bias as a row. -/
theorem bD_at (t : Fin 16) :
    Gen.V (F := Ideal) m c (Pipeline.arrRef spec0 10) (ix2 (0 : Fin 1) t) = m ((c : Thread nD τ).loc main_arg10) (ix1 t) := by
  show Gen.V (F := Ideal) m c main_v81 _ = _
  rw [← Host.val_eq_V m c main_v81, Host.at_main_v81, Host.at_main_arg10]; exact Prep.row16_at _ t

end Cert.KernelIdeal.Link

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRow.lean ====
/-
  One entry of the idealized kernel's block, as the specification's row function of the loaded blocks.

  The kernel body takes a block of 2000 feature rows and 2000 probability rows and the nine whole parameter arrays
  through four matrix products into a zero accumulator, bias rows spread over the 2000 rows, format changes that are the
  identity on the extended reals, the leaky rectifier as a select on a comparison, and the logarithm of the softmax as a
  lane maximum from −∞, a shift, exponentials, a lane sum from 0 and a logarithm. Read at the entry (r, t) of the block,
  every product is the plain sum over the contraction index of row r of the left factor against column t of the right
  factor, every spread bias row is its entry t, the lane maximum and the lane sum run over the 16 entries of row r: so the
  entry is `Cert.Mlp.rowOut` of row r of the two data blocks and of the whole parameter arrays, at t.
-/
import proofs.«170179_j64828236366589_1_alg».proof.Proof.Gen.KernelIdeal.Skeleton
import proofs.«170179_j64828236366589_1_alg».proof.Proof.Mlp
import proofs.«170179_j64828236366589_1_alg».proof.Proof.LibPlainDot
import proofs.«170179_j64828236366589_1_alg».proof.Proof.LibColumn
import proofs.«170179_j64828236366589_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.OutValue

open Cert.KernelIdeal Cert.KernelIdeal.Gen Idealize.ShloMosaic Idealize.ShloMosaic.ValueIdx

/-! ## Rows of a matrix: the lane reductions and the keepdims column, read at an entry -/

section Rows
variable {R C : Nat}

/-- The row index r with the lane k put back is (r, k). -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The lane maximum from −∞ of a matrix, at row r: the fold of max from −∞ over the row's entries. -/
theorem laneMax_at (o : FVec Ideal (⟨2, ![R, C]⟩ : Shape) .f32) (h : (⟨2, ![R, C]⟩ : Shape).Reduces [1] (⟨1, ![R]⟩ : Shape))
    (hφ : FKind.Formats .f32) (hacc : (0xFF800000#32 : BitVec 32) = FKind.maximumf.neutral .f32 hφ) (r : Fin R) :
    multiReduction .maximumf [1] (⟨1, ![R]⟩ : Shape) o 0xFF800000#32 h hφ hacc (ix1 r)
      = (Finset.univ : Finset (Fin C)).fold max (Ideal.ofBits .f32 0xFF800000#32) (fun u => o (ix2 r u)) := by
  refine (Ideal.multiReduction_maximumf_single o 0xFF800000#32 h hφ hacc (ix1 r)).trans ?_
  have hf : (o ∘ h.lift (ix1 r)) = fun k : Fin C => o (ix2 r k) := funext fun k => congrArg o (lift_row h r k)
  exact congrArg (fun f => Finset.fold max (Ideal.ofBits .f32 0xFF800000#32) f (Finset.univ : Finset (Fin C))) hf

/-- The lane sum from 0 of a matrix, at row r: the sum of the row's entries. -/
theorem laneSum_at (o : FVec Ideal (⟨2, ![R, C]⟩ : Shape) .f32) (h : (⟨2, ![R, C]⟩ : Shape).Reduces [1] (⟨1, ![R]⟩ : Shape))
    (hφ : FKind.Formats .f32) (hacc : (0x00000000#32 : BitVec 32) = FKind.add.neutral .f32 hφ) (r : Fin R) :
    multiReduction .add [1] (⟨1, ![R]⟩ : Shape) o 0x00000000#32 h hφ hacc (ix1 r) = ∑ u : Fin C, o (ix2 r u) := by
  refine (Ideal.multiReduction_add_single o 0x00000000#32 h hφ hacc (ix1 r)).trans ?_
  exact Finset.sum_congr rfl fun k _ => congrArg o (lift_row h r k)

/-- The lane maximum joined with −∞ once more, laid out as a column and spread over the columns, at (r, t): the maximum of
    row r taken from −∞. -/
theorem colMax_at (o : FVec Ideal (⟨2, ![R, C]⟩ : Shape) .f32) (h : (⟨2, ![R, C]⟩ : Shape).Reduces [1] (⟨1, ![R]⟩ : Shape))
    (hφ : FKind.Formats .f32) (hacc : (0xFF800000#32 : BitVec 32) = FKind.maximumf.neutral .f32 hφ)
    (hc : (⟨1, ![R]⟩ : Shape).ShapeCasts (⟨2, ![R, 1]⟩ : Shape)) (hb : (⟨2, ![R, 1]⟩ : Shape).Broadcasts (⟨2, ![R, C]⟩ : Shape))
    (r : Fin R) (t : Fin C) :
    broadcastTo (⟨2, ![R, C]⟩ : Shape) (shapeCast (⟨2, ![R, 1]⟩ : Shape)
        (maximumf (broadcast (⟨1, ![R]⟩ : Shape) (Scalar.ofBits (F := Ideal) .f32 0xFF800000#32))
          (multiReduction .maximumf [1] (⟨1, ![R]⟩ : Shape) o 0xFF800000#32 h hφ hacc)) hc) hb (ix2 r t)
      = max (Ideal.ofBits .f32 0xFF800000#32)
          ((Finset.univ : Finset (Fin C)).fold max (Ideal.ofBits .f32 0xFF800000#32) (fun u => o (ix2 r u))) := by
  rw [broadcastTo_a1_ab_apply, shapeCast_a_a1_apply, maximumf_apply, broadcast_apply, laneMax_at]
  rfl

/-- The logarithm of the lane sum from 0, laid out as a column and spread over the columns, at (r, t): the logarithm of
    the sum of row r. -/
theorem colLogSum_at (e : FVec Ideal (⟨2, ![R, C]⟩ : Shape) .f32) (h : (⟨2, ![R, C]⟩ : Shape).Reduces [1] (⟨1, ![R]⟩ : Shape))
    (hφ : FKind.Formats .f32) (hacc : (0x00000000#32 : BitVec 32) = FKind.add.neutral .f32 hφ)
    (hc : (⟨1, ![R]⟩ : Shape).ShapeCasts (⟨2, ![R, 1]⟩ : Shape)) (hb : (⟨2, ![R, 1]⟩ : Shape).Broadcasts (⟨2, ![R, C]⟩ : Shape))
    (r : Fin R) (t : Fin C) :
    broadcastTo (⟨2, ![R, C]⟩ : Shape) (log (shapeCast (⟨2, ![R, 1]⟩ : Shape)
        (multiReduction .add [1] (⟨1, ![R]⟩ : Shape) e 0x00000000#32 h hφ hacc) hc)) hb (ix2 r t)
      = Ideal.log (∑ u : Fin C, e (ix2 r u)) := by
  rw [broadcastTo_a1_ab_apply]
  show Ideal.log (shapeCast (⟨2, ![R, 1]⟩ : Shape) (multiReduction .add [1] (⟨1, ![R]⟩ : Shape) e 0x00000000#32 h hφ hacc) hc (ix2 r (0 : Fin 1))) = _
  rw [shapeCast_a_a1_apply, laneSum_at]

end Rows

/-! ## A product into the zero accumulator plus a spread bias row -/

section Affine
variable {A K B : Nat} {φ₁ φ₂ : FTy}

/-- A plain product [A,K]×[K,B] into the zero accumulator plus a row [1,B] spread over the A rows, at (r, j): the affine
    layer's entry j on row r of the left factor. -/
theorem affine_at (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (u : FVec Ideal (⟨2, ![A, K]⟩ : Shape) φ₁) (w : FVec Ideal (⟨2, ![K, B]⟩ : Shape) φ₂)
    (b : FVec Ideal (⟨2, ![1, B]⟩ : Shape) .f32) (hbc : (⟨2, ![1, B]⟩ : Shape).Broadcasts (⟨2, ![A, B]⟩ : Shape))
    (r : Fin A) (j : Fin B) :
    addf (matmul d none u w (constant (⟨2, ![A, B]⟩ : Shape) .f32 0x00000000#32)) (broadcastTo (⟨2, ![A, B]⟩ : Shape) b hbc) (ix2 r j)
      = Cert.Mlp.dense (fun k => u (ix2 r k)) (fun k j => w (ix2 k j)) (fun j => b (ix2 (0 : Fin 1) j)) j := by
  rw [addf_apply, broadcastTo_1b_ab_apply]
  exact congrArg (· + b (ix2 (0 : Fin 1) j)) (Cert.LibPlainDot.matmul_zero_at d hr hs hlc hrc hlb hln hrb hrn none u w r j)

end Affine

end Cert.KernelIdeal.OutValue

end
-- ==== Proof.KernelEntry.lean ====
/-
  The kernel body's payloads read at an entry.

  The body computes, for a block of 2000 rows: the first affine layer (a product into the zero accumulator plus the bias
  row spread over the rows), the wide layer (two products into zero accumulators added, plus the bias row), the leaky
  rectifier, the third product; then the third bias, the last affine layer and the logarithm of the softmax along the
  lanes. Each is read here at one entry of row r: the entry depends on row r of the two data blocks only, and is the
  specification's row function there.
-/
import proofs.«170179_j64828236366589_1_alg».proof.Proof.KernelRow

noncomputable section

open scoped BigOperators

namespace Cert.KernelIdeal.OutValue

open Cert.KernelIdeal Cert.KernelIdeal.Gen Idealize.ShloMosaic Idealize.ShloMosaic.ValueIdx

/-! ## The pointwise and row-wise pieces over any block -/

/-- The leaky rectifier as the vector unit computes it — a select on the comparison with 0 between the value and 1024
    times the value, then the format change — at an index. -/
theorem leaky_at {s : Shape} (a : FVec Ideal s .f32) (hlt : FTy.bits .bf16 < FTy.bits .f32) (i : s.Idx) :
    truncf .bf16 (select (cmpf .oge a (broadcast s (Scalar.ofBits (F := Ideal) .f32 0x00000000#32))) a
      (mulf (broadcast s (Scalar.ofBits (F := Ideal) .f32 0x44800000#32)) a)) hlt i = Cert.Mlp.leaky (a i) := rfl

section Wide
variable {A K₁ K₂ B : Nat} {φ₁ φ₂ φ₃ φ₄ : FTy}

/-- Two plain products into zero accumulators added, plus a row spread over the rows, at (r, n): the wide layer's
    pre-activation n on row r of the two left factors. -/
theorem wide_at (d₁ : DotDims (⟨2, ![A, K₁]⟩ : Shape) (⟨2, ![K₁, B]⟩ : Shape) (⟨2, ![A, B]⟩ : Shape))
    (hr₁ : d₁.contr.rank = 1) (hs₁ : d₁.contr.size ⟨0, by omega⟩ = K₁)
    (hlc₁ : d₁.lhsContracting = [(1 : Fin 2)]) (hrc₁ : d₁.rhsContracting = [(0 : Fin 2)])
    (hlb₁ : d₁.lhsBatch = []) (hln₁ : d₁.lhsNonContracting = [(0 : Fin 2)])
    (hrb₁ : d₁.rhsBatch = []) (hrn₁ : d₁.rhsNonContracting = [(1 : Fin 2)])
    (d₂ : DotDims (⟨2, ![A, K₂]⟩ : Shape) (⟨2, ![K₂, B]⟩ : Shape) (⟨2, ![A, B]⟩ : Shape))
    (hr₂ : d₂.contr.rank = 1) (hs₂ : d₂.contr.size ⟨0, by omega⟩ = K₂)
    (hlc₂ : d₂.lhsContracting = [(1 : Fin 2)]) (hrc₂ : d₂.rhsContracting = [(0 : Fin 2)])
    (hlb₂ : d₂.lhsBatch = []) (hln₂ : d₂.lhsNonContracting = [(0 : Fin 2)])
    (hrb₂ : d₂.rhsBatch = []) (hrn₂ : d₂.rhsNonContracting = [(1 : Fin 2)])
    (h : FVec Ideal (⟨2, ![A, K₁]⟩ : Shape) φ₁) (wH : FVec Ideal (⟨2, ![K₁, B]⟩ : Shape) φ₂)
    (q : FVec Ideal (⟨2, ![A, K₂]⟩ : Shape) φ₃) (wQ : FVec Ideal (⟨2, ![K₂, B]⟩ : Shape) φ₄)
    (b : FVec Ideal (⟨2, ![1, B]⟩ : Shape) .f32) (hbc : (⟨2, ![1, B]⟩ : Shape).Broadcasts (⟨2, ![A, B]⟩ : Shape))
    (r : Fin A) (n : Fin B) :
    addf (addf (matmul d₁ none h wH (constant (⟨2, ![A, B]⟩ : Shape) .f32 0x00000000#32))
        (matmul d₂ none q wQ (constant (⟨2, ![A, B]⟩ : Shape) .f32 0x00000000#32)))
      (broadcastTo (⟨2, ![A, B]⟩ : Shape) b hbc) (ix2 r n)
      = ((∑ k : Fin K₁, h (ix2 r k) * wH (ix2 k n)) + (∑ k : Fin K₂, q (ix2 r k) * wQ (ix2 k n))) + b (ix2 (0 : Fin 1) n) := by
  rw [addf_apply, addf_apply, broadcastTo_1b_ab_apply]
  exact congrArg₂ (fun x y : EReal => (x + y) + b (ix2 (0 : Fin 1) n))
    (Cert.LibPlainDot.matmul_zero_at d₁ hr₁ hs₁ hlc₁ hrc₁ hlb₁ hln₁ hrb₁ hrn₁ none h wH r n)
    (Cert.LibPlainDot.matmul_zero_at d₂ hr₂ hs₂ hlc₂ hrc₂ hlb₂ hln₂ hrb₂ hrn₂ none q wQ r n)

end Wide

section Lanes
variable {R : Nat}

/-- The logarithm of the softmax along the 16 lanes as the vector unit computes it — the lane maximum from −∞ joined with
    −∞, the shift, the exponentials, the lane sum from 0, its logarithm, the second shift — at (r, t): the specification's
    logarithm of the softmax of row r, at t. -/
theorem lanesLogSoftmax_at (o : FVec Ideal (⟨2, ![R, 16]⟩ : Shape) .f32)
    (h : (⟨2, ![R, 16]⟩ : Shape).Reduces [1] (⟨1, ![R]⟩ : Shape)) (hφ : FKind.Formats .f32)
    (hm : (0xFF800000#32 : BitVec 32) = FKind.maximumf.neutral .f32 hφ)
    (ha : (0x00000000#32 : BitVec 32) = FKind.add.neutral .f32 hφ)
    (hc : (⟨1, ![R]⟩ : Shape).ShapeCasts (⟨2, ![R, 1]⟩ : Shape)) (hb : (⟨2, ![R, 1]⟩ : Shape).Broadcasts (⟨2, ![R, 16]⟩ : Shape))
    (r : Fin R) (t : Fin 16) :
    subf (subf o (broadcastTo (⟨2, ![R, 16]⟩ : Shape) (shapeCast (⟨2, ![R, 1]⟩ : Shape)
          (maximumf (broadcast (⟨1, ![R]⟩ : Shape) (Scalar.ofBits (F := Ideal) .f32 0xFF800000#32))
            (multiReduction .maximumf [1] (⟨1, ![R]⟩ : Shape) o 0xFF800000#32 h hφ hm)) hc) hb))
        (broadcastTo (⟨2, ![R, 16]⟩ : Shape) (log (shapeCast (⟨2, ![R, 1]⟩ : Shape)
          (multiReduction .add [1] (⟨1, ![R]⟩ : Shape)
            (exp (subf o (broadcastTo (⟨2, ![R, 16]⟩ : Shape) (shapeCast (⟨2, ![R, 1]⟩ : Shape)
              (maximumf (broadcast (⟨1, ![R]⟩ : Shape) (Scalar.ofBits (F := Ideal) .f32 0xFF800000#32))
                (multiReduction .maximumf [1] (⟨1, ![R]⟩ : Shape) o 0xFF800000#32 h hφ hm)) hc) hb)))
            0x00000000#32 h hφ ha) hc)) hb) (ix2 r t)
      = Cert.Mlp.logSoftmax (fun u => o (ix2 r u)) t := by
  rw [subf_apply, subf_apply, colLogSum_at, colMax_at]
  unfold Cert.Mlp.logSoftmax Cert.Mlp.rowMax
  refine congrArg (fun s : EReal => _ - Ideal.log s) (Finset.sum_congr rfl fun u _ => ?_)
  show Ideal.exp (o (ix2 r u) - _) = _
  rw [colMax_at]

end Lanes

/-! ## The three payloads -/

/-- The third bias row spread over the 2000 rows, at (r, j): its entry j. -/
theorem pay3_at (v32 : Vec Ideal S1x256 .f32) (r : Fin 2000) (j : Fin 256) :
    k0_pay3 v32 (ix2 r j) = v32 (ix2 (0 : Fin 1) j) := by
  unfold k0_pay3
  simp only [shapeCast_self]
  exact broadcastTo_1b_ab_apply _ _ r j

/-- The third product at (r, j): the sum over the 1024 hidden units of the rectified wide layer on row r against column j
    of the third weight matrix. -/
theorem pay2_at (v0 : Vec Ideal S2000x512 .bf16) (v2 : Vec Ideal S512x256 .bf16) (v5 : Vec Ideal S1x256 .f32)
    (v10 : Vec Ideal S2000x16 .bf16) (v12 : Vec Ideal S256x1024 .bf16) (v15 : Vec Ideal S16x1024 .bf16)
    (v19 : Vec Ideal S1x1024 .f32) (v29 : Vec Ideal S1024x256 .bf16) (r : Fin 2000) (j : Fin 256) :
    k0_pay2 v0 v2 v5 v10 v12 v15 v19 v29 (ix2 r j)
      = ∑ n : Fin 1024, Cert.Mlp.leaky (Cert.Mlp.wide
          (Cert.Mlp.dense (fun k : Fin 512 => v0 (ix2 r k)) (fun (k : Fin 512) (i : Fin 256) => v2 (ix2 k i)) (fun i : Fin 256 => v5 (ix2 (0 : Fin 1) i)))
          (fun k : Fin 16 => v10 (ix2 r k)) (fun (k : Fin 256) (n : Fin 1024) => v12 (ix2 k n))
          (fun (k : Fin 16) (n : Fin 1024) => v15 (ix2 k n)) (fun n : Fin 1024 => v19 (ix2 (0 : Fin 1) n)) n) * v29 (ix2 n j) := by
  unfold k0_pay2
  simp only [shapeCast_self]
  refine (Cert.LibPlainDot.matmul_zero_at (φ₁ := .bf16) (φ₂ := .bf16) dot_S2000x1024_S1024x256_S2000x256_1_0_0_1_n_n rfl rfl rfl rfl rfl rfl rfl rfl none _ v29 r j).trans ?_
  refine Finset.sum_congr rfl fun n _ => congrArg (fun z : EReal => z * v29 (ix2 n j)) ?_
  rw [leaky_at]
  refine congrArg Cert.Mlp.leaky ?_
  refine (wide_at (φ₁ := .bf16) (φ₂ := .bf16) (φ₃ := .bf16) (φ₄ := .bf16) dot_S2000x256_S256x1024_S2000x1024_1_0_0_1_n_n rfl rfl rfl rfl rfl rfl rfl rfl
    dot_S2000x16_S16x1024_S2000x1024_1_0_0_1_n_n rfl rfl rfl rfl rfl rfl rfl rfl _ v12 v10 v15 v19 broadcasts_S1x1024_S2000x1024 r n).trans ?_
  unfold Cert.Mlp.wide
  refine congrArg (fun z : EReal => (z + (∑ k : Fin 16, v10 (ix2 r k) * v15 (ix2 k n))) + v19 (ix2 (0 : Fin 1) n)) ?_
  refine Finset.sum_congr rfl fun k _ => congrArg (fun z : EReal => z * v12 (ix2 k n)) ?_
  rw [truncf_apply]
  exact affine_at (φ₁ := .bf16) (φ₂ := .bf16) dot_S2000x512_S512x256_S2000x256_1_0_0_1_n_n rfl rfl rfl rfl rfl rfl rfl rfl v0 v2 v5 broadcasts_S1x256_S2000x256 r k

/-- The stored payload at (r, t): the logarithm of the softmax of the last affine layer on the sum of the third product
    and the spread third bias, on row r. -/
theorem pay1_at (v31 v34 : FVec Ideal S2000x256 .f32) (v37 : Vec Ideal S256x16 .bf16) (v40 : Vec Ideal S1x16 .f32)
    (r : Fin 2000) (t : Fin 16) :
    k0_pay1 v31 v34 v37 v40 (ix2 r t)
      = Cert.Mlp.logSoftmax (Cert.Mlp.dense (fun j : Fin 256 => v31 (ix2 r j) + v34 (ix2 r j))
          (fun (j : Fin 256) (t : Fin 16) => v37 (ix2 j t)) (fun t : Fin 16 => v40 (ix2 (0 : Fin 1) t))) t := by
  unfold k0_pay1
  simp only [shapeCast_self]
  refine (lanesLogSoftmax_at _ reduces_S2000x16_S2000 (.inl rfl) rfl rfl shapeCasts_S2000_S2000x1 broadcasts_S2000x1_S2000x16 r t).trans ?_
  refine congrArg (fun f => Cert.Mlp.logSoftmax f t) (funext fun u => ?_)
  exact affine_at (φ₁ := .bf16) (φ₂ := .bf16) dot_S2000x256_S256x16_S2000x16_1_0_0_1_n_n rfl rfl rfl rfl rfl rfl rfl rfl
    (truncf .bf16 (addf v31 v34) bitsLt_bf16_f32) v37 v40 broadcasts_S1x16_S2000x16 r u

end Cert.KernelIdeal.OutValue

end
-- ==== Proof.KernelBlocks.lean ====
/-
  The blocks of the idealized kernel at a grid point.

  The grid has 50 points. What the body leaves in the output window's buffer, at (r, u), is the specification's row
  function of row r of the two data blocks and of the nine parameter blocks. At point t the two data windows hold rows
  2000·t … 2000·t + 1999 of their arrays, and the nine parameter windows, fetched at block (0, 0) at every point, hold
  their whole arrays.
-/
import proofs.«170179_j64828236366589_1_alg».proof.Proof.KernelEntry
import proofs.«170179_j64828236366589_1_alg».proof.Proof.Gen.KernelIdeal.Value
import Idealize.ShloMosaic.Lib.Pipeline.Value

noncomputable section

open scoped BigOperators

namespace Cert.KernelIdeal.OutValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## One entry of the block the body leaves -/

theorem zero_offsets : (![0, 0] : Fin 2 → Nat) = fun _ => 0 := funext fun a => by fin_cases a <;> rfl

/-- The row function depends on its eleven arguments only. -/
theorem rowOut_congr {x x' : Fin 512 → EReal} {q q' : Fin 16 → EReal} {wE wE' : Fin 512 → Fin 256 → EReal}
    {bE bE' : Fin 256 → EReal} {wH wH' : Fin 256 → Fin 1024 → EReal} {wQ wQ' : Fin 16 → Fin 1024 → EReal}
    {b1 b1' : Fin 1024 → EReal} {w2 w2' : Fin 1024 → Fin 256 → EReal} {b2 b2' : Fin 256 → EReal}
    {wD wD' : Fin 256 → Fin 16 → EReal} {bD bD' : Fin 16 → EReal}
    (h0 : x = x') (h1 : q = q') (h2 : wE = wE') (h3 : bE = bE') (h4 : wH = wH') (h5 : wQ = wQ') (h6 : b1 = b1')
    (h7 : w2 = w2') (h8 : b2 = b2') (h9 : wD = wD') (h10 : bD = bD') (u : Fin 16) :
    Cert.Mlp.rowOut x q wE bE wH wQ b1 w2 b2 wD bD u = Cert.Mlp.rowOut x' q' wE' bE' wH' wQ' b1' w2' b2' wD' bD' u := by
  subst h0 h1 h2 h3 h4 h5 h6 h7 h8 h9 h10; rfl

/-- What the body leaves in the output window's buffer, at (r, u): the row function of row r of the two data blocks and
    of the nine parameter blocks. -/
theorem out_block_at (x0 : Vec Ideal S2000x512 .bf16) (x1 : Vec Ideal S2000x16 .bf16) (x2 : Vec Ideal S512x256 .bf16)
    (x3 : Vec Ideal S1x256 .f32) (x4 : Vec Ideal S256x1024 .bf16) (x5 : Vec Ideal S16x1024 .bf16) (x6 : Vec Ideal S1x1024 .f32)
    (x7 : Vec Ideal S1024x256 .bf16) (x8 : Vec Ideal S1x256 .f32) (x9 : Vec Ideal S256x16 .bf16) (x10 : Vec Ideal S1x16 .f32)
    (r : Fin 2000) (u : Fin 16) :
    out0_11 x0 x1 x2 x3 x4 x5 x6 x7 x8 x9 x10 (ix2 r u)
      = Cert.Mlp.rowOut (fun k : Fin 512 => x0 (ix2 r k)) (fun k : Fin 16 => x1 (ix2 r k))
          (fun (k : Fin 512) (j : Fin 256) => x2 (ix2 k j)) (fun j : Fin 256 => x3 (ix2 (0 : Fin 1) j))
          (fun (k : Fin 256) (n : Fin 1024) => x4 (ix2 k n)) (fun (k : Fin 16) (n : Fin 1024) => x5 (ix2 k n))
          (fun n : Fin 1024 => x6 (ix2 (0 : Fin 1) n)) (fun (n : Fin 1024) (j : Fin 256) => x7 (ix2 n j))
          (fun j : Fin 256 => x8 (ix2 (0 : Fin 1) j)) (fun (j : Fin 256) (s : Fin 16) => x9 (ix2 j s))
          (fun s : Fin 16 => x10 (ix2 (0 : Fin 1) s)) u := by
  unfold out0_11
  rw [View.canon_unit_zero zero_offsets]
  simp only [View.ld_unit_zero (S := S2000x512) zero_offsets,
    View.ld_unit_zero (S := S512x256) zero_offsets,
    View.ld_unit_zero (S := S1x256) zero_offsets,
    View.ld_unit_zero (S := S2000x16) zero_offsets,
    View.ld_unit_zero (S := S256x1024) zero_offsets,
    View.ld_unit_zero (S := S16x1024) zero_offsets,
    View.ld_unit_zero (S := S1x1024) zero_offsets,
    View.ld_unit_zero (S := S1024x256) zero_offsets,
    View.ld_unit_zero (S := S256x16) zero_offsets,
    View.ld_unit_zero (S := S1x16) zero_offsets]
  rw [pay1_at]
  unfold Cert.Mlp.rowOut
  refine congrArg (fun f => Cert.Mlp.logSoftmax (Cert.Mlp.dense f _ _) u) (funext fun j => ?_)
  rw [pay2_at, pay3_at]
  rfl

/-! ## The windows' block indices over the grid -/

theorem idx_w0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_w1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_w2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_w3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_w4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_w5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_w6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_w7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_w8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_w9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx_w10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_w11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

/-! ## Each input window's block read off its array -/

/-- Window 0's block at point t is rows 2000·t … 2000·t + 1999 of its array. -/
theorem rows0 (c : Dev nD) (t : Fin cfg0.N) (r : Fin 2000) (p : Fin 100000) (hp : p.val = 2000 * t.val + r.val) :
    ((fun k : Fin 512 => (iblk m c 0 t : Vec Ideal S2000x512 .bf16) (ix2 r k)) : Fin 512 → EReal)
      = fun k : Fin 512 => (V m c (Pipeline.arrRef spec0 0) : S100000x512.Idx → EReal) (ix2 p k) := by
  obtain ⟨e0, e1⟩ := idx_w0 t
  funext k
  have he : ((cfg0.win 0).blk t).view.emb (ix2 r k) = (ix2 p k : S100000x512.Idx) := by
    funext d; apply Fin.ext
    match d with
    | ⟨0, _⟩ => show win0_0.index t (0 : Fin 2) * 2000 + 1 * r.val = p.val; rw [e0, hp]; omega
    | ⟨1, _⟩ => show win0_0.index t (1 : Fin 2) * 512 + 1 * k.val = k.val; rw [e1]; omega
  show (V m c (Pipeline.arrRef spec0 0) : S100000x512.Idx → EReal) (((cfg0.win 0).blk t).view.emb (ix2 r k)) = _
  rw [he]

/-- Window 1's block at point t is rows 2000·t … 2000·t + 1999 of its array. -/
theorem rows1 (c : Dev nD) (t : Fin cfg0.N) (r : Fin 2000) (p : Fin 100000) (hp : p.val = 2000 * t.val + r.val) :
    ((fun k : Fin 16 => (iblk m c 1 t : Vec Ideal S2000x16 .bf16) (ix2 r k)) : Fin 16 → EReal)
      = fun k : Fin 16 => (V m c (Pipeline.arrRef spec0 1) : S100000x16.Idx → EReal) (ix2 p k) := by
  obtain ⟨e0, e1⟩ := idx_w1 t
  funext k
  have he : ((cfg0.win 1).blk t).view.emb (ix2 r k) = (ix2 p k : S100000x16.Idx) := by
    funext d; apply Fin.ext
    match d with
    | ⟨0, _⟩ => show win0_1.index t (0 : Fin 2) * 2000 + 1 * r.val = p.val; rw [e0, hp]; omega
    | ⟨1, _⟩ => show win0_1.index t (1 : Fin 2) * 16 + 1 * k.val = k.val; rw [e1]; omega
  show (V m c (Pipeline.arrRef spec0 1) : S100000x16.Idx → EReal) (((cfg0.win 1).blk t).view.emb (ix2 r k)) = _
  rw [he]

/-- Window 2 is fetched whole at every point: its block is its array. -/
theorem whole2 (c : Dev nD) (t : Fin cfg0.N) (a : Fin 512) (b : Fin 256) :
    (iblk m c 2 t : Vec Ideal S512x256 .bf16) (ix2 a b) = (V m c (Pipeline.arrRef spec0 2) : S512x256.Idx → EReal) (ix2 a b) := by
  obtain ⟨e0, e1⟩ := idx_w2 t
  have he : ((cfg0.win 2).blk t).view.emb (ix2 a b) = (ix2 a b : S512x256.Idx) := by
    funext d; apply Fin.ext
    match d with
    | ⟨0, _⟩ => show win0_2.index t (0 : Fin 2) * 512 + 1 * a.val = a.val; rw [e0]; omega
    | ⟨1, _⟩ => show win0_2.index t (1 : Fin 2) * 256 + 1 * b.val = b.val; rw [e1]; omega
  show (V m c (Pipeline.arrRef spec0 2) : S512x256.Idx → EReal) (((cfg0.win 2).blk t).view.emb (ix2 a b)) = _
  rw [he]

/-- Window 3 is fetched whole at every point: its block is its array. -/
theorem whole3 (c : Dev nD) (t : Fin cfg0.N) (a : Fin 1) (b : Fin 256) :
    (iblk m c 3 t : Vec Ideal S1x256 .f32) (ix2 a b) = (V m c (Pipeline.arrRef spec0 3) : S1x256.Idx → EReal) (ix2 a b) := by
  obtain ⟨e0, e1⟩ := idx_w3 t
  have he : ((cfg0.win 3).blk t).view.emb (ix2 a b) = (ix2 a b : S1x256.Idx) := by
    funext d; apply Fin.ext
    match d with
    | ⟨0, _⟩ => show win0_3.index t (0 : Fin 2) * 1 + 1 * a.val = a.val; rw [e0]; omega
    | ⟨1, _⟩ => show win0_3.index t (1 : Fin 2) * 256 + 1 * b.val = b.val; rw [e1]; omega
  show (V m c (Pipeline.arrRef spec0 3) : S1x256.Idx → EReal) (((cfg0.win 3).blk t).view.emb (ix2 a b)) = _
  rw [he]

/-- Window 4 is fetched whole at every point: its block is its array. -/
theorem whole4 (c : Dev nD) (t : Fin cfg0.N) (a : Fin 256) (b : Fin 1024) :
    (iblk m c 4 t : Vec Ideal S256x1024 .bf16) (ix2 a b) = (V m c (Pipeline.arrRef spec0 4) : S256x1024.Idx → EReal) (ix2 a b) := by
  obtain ⟨e0, e1⟩ := idx_w4 t
  have he : ((cfg0.win 4).blk t).view.emb (ix2 a b) = (ix2 a b : S256x1024.Idx) := by
    funext d; apply Fin.ext
    match d with
    | ⟨0, _⟩ => show win0_4.index t (0 : Fin 2) * 256 + 1 * a.val = a.val; rw [e0]; omega
    | ⟨1, _⟩ => show win0_4.index t (1 : Fin 2) * 1024 + 1 * b.val = b.val; rw [e1]; omega
  show (V m c (Pipeline.arrRef spec0 4) : S256x1024.Idx → EReal) (((cfg0.win 4).blk t).view.emb (ix2 a b)) = _
  rw [he]

/-- Window 5 is fetched whole at every point: its block is its array. -/
theorem whole5 (c : Dev nD) (t : Fin cfg0.N) (a : Fin 16) (b : Fin 1024) :
    (iblk m c 5 t : Vec Ideal S16x1024 .bf16) (ix2 a b) = (V m c (Pipeline.arrRef spec0 5) : S16x1024.Idx → EReal) (ix2 a b) := by
  obtain ⟨e0, e1⟩ := idx_w5 t
  have he : ((cfg0.win 5).blk t).view.emb (ix2 a b) = (ix2 a b : S16x1024.Idx) := by
    funext d; apply Fin.ext
    match d with
    | ⟨0, _⟩ => show win0_5.index t (0 : Fin 2) * 16 + 1 * a.val = a.val; rw [e0]; omega
    | ⟨1, _⟩ => show win0_5.index t (1 : Fin 2) * 1024 + 1 * b.val = b.val; rw [e1]; omega
  show (V m c (Pipeline.arrRef spec0 5) : S16x1024.Idx → EReal) (((cfg0.win 5).blk t).view.emb (ix2 a b)) = _
  rw [he]

/-- Window 6 is fetched whole at every point: its block is its array. -/
theorem whole6 (c : Dev nD) (t : Fin cfg0.N) (a : Fin 1) (b : Fin 1024) :
    (iblk m c 6 t : Vec Ideal S1x1024 .f32) (ix2 a b) = (V m c (Pipeline.arrRef spec0 6) : S1x1024.Idx → EReal) (ix2 a b) := by
  obtain ⟨e0, e1⟩ := idx_w6 t
  have he : ((cfg0.win 6).blk t).view.emb (ix2 a b) = (ix2 a b : S1x1024.Idx) := by
    funext d; apply Fin.ext
    match d with
    | ⟨0, _⟩ => show win0_6.index t (0 : Fin 2) * 1 + 1 * a.val = a.val; rw [e0]; omega
    | ⟨1, _⟩ => show win0_6.index t (1 : Fin 2) * 1024 + 1 * b.val = b.val; rw [e1]; omega
  show (V m c (Pipeline.arrRef spec0 6) : S1x1024.Idx → EReal) (((cfg0.win 6).blk t).view.emb (ix2 a b)) = _
  rw [he]

/-- Window 7 is fetched whole at every point: its block is its array. -/
theorem whole7 (c : Dev nD) (t : Fin cfg0.N) (a : Fin 1024) (b : Fin 256) :
    (iblk m c 7 t : Vec Ideal S1024x256 .bf16) (ix2 a b) = (V m c (Pipeline.arrRef spec0 7) : S1024x256.Idx → EReal) (ix2 a b) := by
  obtain ⟨e0, e1⟩ := idx_w7 t
  have he : ((cfg0.win 7).blk t).view.emb (ix2 a b) = (ix2 a b : S1024x256.Idx) := by
    funext d; apply Fin.ext
    match d with
    | ⟨0, _⟩ => show win0_7.index t (0 : Fin 2) * 1024 + 1 * a.val = a.val; rw [e0]; omega
    | ⟨1, _⟩ => show win0_7.index t (1 : Fin 2) * 256 + 1 * b.val = b.val; rw [e1]; omega
  show (V m c (Pipeline.arrRef spec0 7) : S1024x256.Idx → EReal) (((cfg0.win 7).blk t).view.emb (ix2 a b)) = _
  rw [he]

/-- Window 8 is fetched whole at every point: its block is its array. -/
theorem whole8 (c : Dev nD) (t : Fin cfg0.N) (a : Fin 1) (b : Fin 256) :
    (iblk m c 8 t : Vec Ideal S1x256 .f32) (ix2 a b) = (V m c (Pipeline.arrRef spec0 8) : S1x256.Idx → EReal) (ix2 a b) := by
  obtain ⟨e0, e1⟩ := idx_w8 t
  have he : ((cfg0.win 8).blk t).view.emb (ix2 a b) = (ix2 a b : S1x256.Idx) := by
    funext d; apply Fin.ext
    match d with
    | ⟨0, _⟩ => show win0_8.index t (0 : Fin 2) * 1 + 1 * a.val = a.val; rw [e0]; omega
    | ⟨1, _⟩ => show win0_8.index t (1 : Fin 2) * 256 + 1 * b.val = b.val; rw [e1]; omega
  show (V m c (Pipeline.arrRef spec0 8) : S1x256.Idx → EReal) (((cfg0.win 8).blk t).view.emb (ix2 a b)) = _
  rw [he]

/-- Window 9 is fetched whole at every point: its block is its array. -/
theorem whole9 (c : Dev nD) (t : Fin cfg0.N) (a : Fin 256) (b : Fin 16) :
    (iblk m c 9 t : Vec Ideal S256x16 .bf16) (ix2 a b) = (V m c (Pipeline.arrRef spec0 9) : S256x16.Idx → EReal) (ix2 a b) := by
  obtain ⟨e0, e1⟩ := idx_w9 t
  have he : ((cfg0.win 9).blk t).view.emb (ix2 a b) = (ix2 a b : S256x16.Idx) := by
    funext d; apply Fin.ext
    match d with
    | ⟨0, _⟩ => show win0_9.index t (0 : Fin 2) * 256 + 1 * a.val = a.val; rw [e0]; omega
    | ⟨1, _⟩ => show win0_9.index t (1 : Fin 2) * 16 + 1 * b.val = b.val; rw [e1]; omega
  show (V m c (Pipeline.arrRef spec0 9) : S256x16.Idx → EReal) (((cfg0.win 9).blk t).view.emb (ix2 a b)) = _
  rw [he]

/-- Window 10 is fetched whole at every point: its block is its array. -/
theorem whole10 (c : Dev nD) (t : Fin cfg0.N) (a : Fin 1) (b : Fin 16) :
    (iblk m c 10 t : Vec Ideal S1x16 .f32) (ix2 a b) = (V m c (Pipeline.arrRef spec0 10) : S1x16.Idx → EReal) (ix2 a b) := by
  obtain ⟨e0, e1⟩ := idx_w10 t
  have he : ((cfg0.win 10).blk t).view.emb (ix2 a b) = (ix2 a b : S1x16.Idx) := by
    funext d; apply Fin.ext
    match d with
    | ⟨0, _⟩ => show win0_10.index t (0 : Fin 2) * 1 + 1 * a.val = a.val; rw [e0]; omega
    | ⟨1, _⟩ => show win0_10.index t (1 : Fin 2) * 16 + 1 * b.val = b.val; rw [e1]; omega
  show (V m c (Pipeline.arrRef spec0 10) : S1x16.Idx → EReal) (((cfg0.win 10).blk t).view.emb (ix2 a b)) = _
  rw [he]

end Cert.KernelIdeal.OutValue

end
-- ==== Proof.KernelArray.lean ====
/-
  From the blocks to the array: the idealized kernel's output array, entry by entry.

  What point t writes back is block t — rows 2000·t … 2000·t + 1999 — of ONE function of the arrays the region finds:
  entry (p, u) is the specification's row function of row p of the feature and probability arrays and of the whole
  parameter arrays. The 50 blocks cover the 100000 rows (row p lies in the block of point p / 2000), so the output array
  ends holding that function.
-/
import proofs.«170179_j64828236366589_1_alg».proof.Proof.KernelBlocks

noncomputable section

open scoped BigOperators

namespace Cert.KernelIdeal.OutValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The output array as one function of the arrays the region finds -/

set_option maxHeartbeats 2000000 in
/-- Row p of the output: the row function of row p of the feature and probability arrays and of the whole parameter
    arrays, as the region finds them. -/
def outRow (c : Dev nD) (p : Fin 100000) : Fin 16 → EReal :=
  Cert.Mlp.rowOut
    (fun k : Fin 512 => (V m c (Pipeline.arrRef spec0 0) : S100000x512.Idx → EReal) (ix2 p k))
    (fun k : Fin 16 => (V m c (Pipeline.arrRef spec0 1) : S100000x16.Idx → EReal) (ix2 p k))
    (fun (k : Fin 512) (j : Fin 256) => (V m c (Pipeline.arrRef spec0 2) : S512x256.Idx → EReal) (ix2 k j))
    (fun j : Fin 256 => (V m c (Pipeline.arrRef spec0 3) : S1x256.Idx → EReal) (ix2 (0 : Fin 1) j))
    (fun (k : Fin 256) (n : Fin 1024) => (V m c (Pipeline.arrRef spec0 4) : S256x1024.Idx → EReal) (ix2 k n))
    (fun (k : Fin 16) (n : Fin 1024) => (V m c (Pipeline.arrRef spec0 5) : S16x1024.Idx → EReal) (ix2 k n))
    (fun n : Fin 1024 => (V m c (Pipeline.arrRef spec0 6) : S1x1024.Idx → EReal) (ix2 (0 : Fin 1) n))
    (fun (n : Fin 1024) (j : Fin 256) => (V m c (Pipeline.arrRef spec0 7) : S1024x256.Idx → EReal) (ix2 n j))
    (fun j : Fin 256 => (V m c (Pipeline.arrRef spec0 8) : S1x256.Idx → EReal) (ix2 (0 : Fin 1) j))
    (fun (j : Fin 256) (s : Fin 16) => (V m c (Pipeline.arrRef spec0 9) : S256x16.Idx → EReal) (ix2 j s))
    (fun s : Fin 16 => (V m c (Pipeline.arrRef spec0 10) : S1x16.Idx → EReal) (ix2 (0 : Fin 1) s))

/-- The output array: entry i is entry i₁ of row i₀. -/
def outFn (c : Dev nD) : S100000x16.Idx → EReal :=
  fun i => outRow m c ⟨(i 0).val, idx2_lt0 i⟩ ⟨(i 1).val, idx2_lt1 i⟩

/-- The body's block at point t, at (r, u), is the output function at the array index under (r, u). -/
theorem block_at (c : Dev nD) (t : Fin cfg0.N) (r : Fin 2000) (u : Fin 16) :
    out0_11 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 r u)
      = outFn m c (((cfg0.win 11).blk t).view.emb (ix2 r u)) := by
  have hN : cfg0.N = 50 := N_0
  have ht : t.val < 50 := lt_of_lt_of_eq t.isLt hN
  have hlt : 2000 * t.val + r.val < 100000 := by omega
  obtain ⟨e0, e1⟩ := idx_w11 t
  have he : ((cfg0.win 11).blk t).view.emb (ix2 r u)
      = (ix2 (⟨2000 * t.val + r.val, hlt⟩ : Fin 100000) u : S100000x16.Idx) := by
    funext d; apply Fin.ext
    match d with
    | ⟨0, _⟩ => show win0_11.index t (0 : Fin 2) * 2000 + 1 * r.val = 2000 * t.val + r.val; rw [e0]; omega
    | ⟨1, _⟩ => show win0_11.index t (1 : Fin 2) * 16 + 1 * u.val = u.val; rw [e1]; omega
  rw [he]
  refine (out_block_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) r u).trans ?_
  show _ = outRow m c (⟨2000 * t.val + r.val, hlt⟩ : Fin 100000) u
  unfold outRow
  exact rowOut_congr (rows0 m c t r ⟨2000 * t.val + r.val, hlt⟩ rfl) (rows1 m c t r ⟨2000 * t.val + r.val, hlt⟩ rfl)
    (funext fun k => funext fun j => whole2 m c t k j) (funext fun j => whole3 m c t 0 j)
    (funext fun k => funext fun n => whole4 m c t k n) (funext fun k => funext fun n => whole5 m c t k n)
    (funext fun n => whole6 m c t 0 n) (funext fun n => funext fun j => whole7 m c t n j)
    (funext fun j => whole8 m c t 0 j) (funext fun j => funext fun s => whole9 m c t j s)
    (funext fun s => whole10 m c t 0 s) u

/-- What point t writes back is block t of the output function. -/
theorem flushed_eq (c : Dev nD) (t : Fin cfg0.N) :
    (dats m 0 c).flushed 11 t = ((cfg0.win 11).blk t).view.read (Elt Ideal) (outFn m c) := by
  rw [Value.flushed11]
  funext j
  obtain ⟨r, u, rfl⟩ : ∃ (r : Fin 2000) (u : Fin 16), j = ix2 r u := ⟨j 0, j 1, eq_ix2 j⟩
  exact block_at m c t r u

/-! ## The cover, and the array after the run -/

/-- An index of the output array is in point t's block iff each coordinate is in the block's range on its axis. -/
theorem mem_block (t : Fin cfg0.N) (i : S100000x16.Idx) :
    i ∈ ((cfg0.win 11).blk t).view.set ↔ ∀ a : Fin 2, win0_11.index t a * S2000x16.size a ≤ (i a).val
      ∧ (i a).val < win0_11.index t a * S2000x16.size a + S2000x16.size a := by
  show i ∈ ((View.whole main_v82).slice (win0_11.rect t)).set ↔ _
  rw [View.set_slice_whole, Rect.mem_set_unit]
  exact Iff.rfl

/-- Row p of the output array lies in the block of point p / 2000. -/
theorem covered (i : S100000x16.Idx) :
    ∃ t : Fin cfg0.N, (cfg0.win 11).flush t = true ∧ i ∈ ((cfg0.win 11).blk t).view.set := by
  have hN : cfg0.N = 50 := N_0
  have hi0 : (i 0).val < 100000 := idx2_lt0 i
  have hi1 : (i 1).val < 16 := idx2_lt1 i
  obtain ⟨t, ht⟩ : ∃ t : Fin cfg0.N, t.val = (i 0).val / 2000 := ⟨⟨(i 0).val / 2000, by rw [hN]; omega⟩, rfl⟩
  obtain ⟨e0, e1⟩ := idx_w11 t
  refine ⟨t, flush0_11 t, ?_⟩
  rw [mem_block]
  intro a
  match a with
  | ⟨0, _⟩ =>
    show win0_11.index t (0 : Fin 2) * 2000 ≤ (i 0).val ∧ (i 0).val < win0_11.index t (0 : Fin 2) * 2000 + 2000
    rw [e0, ht]; omega
  | ⟨1, _⟩ =>
    show win0_11.index t (1 : Fin 2) * 16 ≤ (i 1).val ∧ (i 1).val < win0_11.index t (1 : Fin 2) * 16 + 16
    rw [e1]; omega

/-- The output array after the run is the output function. -/
theorem final_array (c : Dev nD) : (dats m 0 c).arrAt 11 cfg0.N = outFn m c :=
  (dats m 0 c).arrAt_eq_of_cover 11 (outFn m c) (fun t _ => flushed_eq m c t) covered

set_option maxHeartbeats 2000000 in
/-- THE KERNEL'S VALUE: after the run the output array holds, at (p, t), the specification's row function of row p of the
    feature and probability arrays and of the whole parameter arrays as the region finds them, at t. -/
theorem out_at (c : Dev nD) (p : Fin 100000) (t : Fin 16) :
    (dats m 0 c).arrAt 11 cfg0.N (ix2 p t)
      = Cert.Mlp.rowOut
          (fun k : Fin 512 => (V m c (Pipeline.arrRef spec0 0) : S100000x512.Idx → EReal) (ix2 p k))
          (fun k : Fin 16 => (V m c (Pipeline.arrRef spec0 1) : S100000x16.Idx → EReal) (ix2 p k))
          (fun (k : Fin 512) (j : Fin 256) => (V m c (Pipeline.arrRef spec0 2) : S512x256.Idx → EReal) (ix2 k j))
          (fun j : Fin 256 => (V m c (Pipeline.arrRef spec0 3) : S1x256.Idx → EReal) (ix2 (0 : Fin 1) j))
          (fun (k : Fin 256) (n : Fin 1024) => (V m c (Pipeline.arrRef spec0 4) : S256x1024.Idx → EReal) (ix2 k n))
          (fun (k : Fin 16) (n : Fin 1024) => (V m c (Pipeline.arrRef spec0 5) : S16x1024.Idx → EReal) (ix2 k n))
          (fun n : Fin 1024 => (V m c (Pipeline.arrRef spec0 6) : S1x1024.Idx → EReal) (ix2 (0 : Fin 1) n))
          (fun (n : Fin 1024) (j : Fin 256) => (V m c (Pipeline.arrRef spec0 7) : S1024x256.Idx → EReal) (ix2 n j))
          (fun j : Fin 256 => (V m c (Pipeline.arrRef spec0 8) : S1x256.Idx → EReal) (ix2 (0 : Fin 1) j))
          (fun (j : Fin 256) (s : Fin 16) => (V m c (Pipeline.arrRef spec0 9) : S256x16.Idx → EReal) (ix2 j s))
          (fun s : Fin 16 => (V m c (Pipeline.arrRef spec0 10) : S1x16.Idx → EReal) (ix2 (0 : Fin 1) s)) t := by
  rw [final_array m c]
  show outRow m c p t = _
  unfold outRow
  rfl

end Cert.KernelIdeal.OutValue

end
-- ==== Proof.Bridge.lean ====
/-
  The two output arrays agree, entry by entry.

  From memories that agree on the arguments, the array the reference returns and the array the idealized kernel leaves hold,
  at (p, t), the same row function of row p of the features, row p of the cluster probabilities, and the weights and
  biases: the reference by its dense path read at an entry, the kernel by its blocks; the kernel's program hands its region
  the same features, the same probabilities (the shared softmax) and the same weights, only transposed, cut and recast.
-/
import proofs.«170179_j64828236366589_1_alg».proof.Proof.SharedChain
import proofs.«170179_j64828236366589_1_alg».proof.Proof.RefLink
import proofs.«170179_j64828236366589_1_alg».proof.Proof.KernelLink
import proofs.«170179_j64828236366589_1_alg».proof.Proof.KernelArray

noncomputable section

namespace Cert.Bridge

open Idealize.ShloMosaic Idealize.ShloMosaic.TcCoe Idealize.SL.Sem Idealize.ShloMosaic.StableHlo Idealize.ShloMosaic.ValueIdx

variable (m' : (ℓ : Loc Cert.ReferenceIdeal.nD Cert.ReferenceIdeal.τ Cert.ReferenceIdeal.sig) → Buf (Elt Ideal) ℓ)
variable (m : (ℓ : Loc Cert.KernelIdeal.nD Cert.KernelIdeal.τ Cert.KernelIdeal.sig) → Buf (Elt Ideal) ℓ) (c : Dev Cert.KernelIdeal.nD)

/-- THE OUTPUT ARRAYS AGREE: the reference's returned buffer after its whole line, from the launch contents m', is the
    array the kernel's run leaves in its output window, from the launch contents m, when m' and m agree on the arguments. -/
theorem out_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Line.val (launchContents m' c) Cert.ReferenceIdeal.main_v86
      = (Cert.KernelIdeal.Gen.dats (F := Ideal) m 0 c).arrAt 11 Cert.KernelIdeal.cfg0.N := by
  funext i
  obtain ⟨p, t, rfl⟩ : ∃ (p : Fin 100000) (t : Fin 16), i = ix2 p t := ⟨i 0, i 1, eq_ix2 i⟩
  rw [Cert.ReferenceIdeal.OutValue.out_is_refOut, Cert.ReferenceIdeal.OutValue.refOut_at, Cert.KernelIdeal.OutValue.out_at]
  refine Cert.KernelIdeal.OutValue.rowOut_congr ?_ ?_ ?_ ?_ ?_ ?_ ?_ ?_ ?_ ?_ ?_ t
  · funext k; exact (congrFun h0 _).trans (Cert.KernelIdeal.Link.x_at m c p k).symm
  · funext k
    exact (congrFun (Cert.Shared.probs_agree (launchContents m' c) m c h4) _).trans (Cert.KernelIdeal.Link.q_at m c p k).symm
  · funext k j; exact (congrFun h2 _).trans (Cert.KernelIdeal.Link.wE_at m c k j).symm
  · funext j; exact (congrFun h3 _).trans (Cert.KernelIdeal.Link.bE_at m c j).symm
  · funext k n; exact (congrFun h5 _).trans (Cert.KernelIdeal.Link.wH_at m c k n).symm
  · funext k n; exact (congrFun h5 _).trans (Cert.KernelIdeal.Link.wQ_at m c k n).symm
  · funext n; exact (congrFun h6 _).trans (Cert.KernelIdeal.Link.b1_at m c n).symm
  · funext n j; exact (congrFun h7 _).trans (Cert.KernelIdeal.Link.w2_at m c n j).symm
  · funext j; exact (congrFun h8 _).trans (Cert.KernelIdeal.Link.b2_at m c j).symm
  · funext j u; exact (congrFun h9 _).trans (Cert.KernelIdeal.Link.wD_at m c j u).symm
  · funext u; exact (congrFun h10 _).trans (Cert.KernelIdeal.Link.bD_at m c u).symm

end Cert.Bridge

end
-- ==== Proof.lean ====
/-
  The certificate: a fused dense network on a Pallas kernel against its jnp reference, equal on the extended reals.

  Both programs take node features x [100000, 512], an edge list, cluster logits [100000, 16] and the weights of an encoder,
  a two-layer perceptron on the concatenation [h, Q] of the hidden features and the cluster probabilities, and a decoder; they
  return the log-softmax of the decoder's output and a graph-smoothness loss Σ Q·(L Q). The reference multiplies whole
  arrays; the kernel's program computes the probabilities and the loss by the very same host operations, then hands a grid of
  fifty row blocks of 2000 rows each to one kernel that runs the dense path block by block, with the wide layer's product
  against [h, Q] split into h against the first 256 columns of its matrix plus Q against the last 16.
    * The three programs run (terminate, fault-free) and leave their arguments as launched: the two kernel programs by the
      generated frame proof; the reference, a straight line of 126 host operations, by the library's run of such a line.
    * The idealized kernel is the kernel's own text read on the extended reals: the ideal pass rewrote nothing.
    * The results agree. The loss is the same chain of operations on both sides. The output array agrees entry by entry:
      every row is one function of a feature row and a probability row, and splitting the wide layer's sum over 272 terms
      into 256 + 16 is the only rearrangement, which holds for sums of extended reals without any entry being finite.
-/
import proofs.«170179_j64828236366589_1_alg».proof.Defs
import proofs.«170179_j64828236366589_1_alg».proof.Proof.Gen.Kernel
import proofs.«170179_j64828236366589_1_alg».proof.Proof.Gen.Kernel.Skeleton
import proofs.«170179_j64828236366589_1_alg».proof.Proof.Gen.Kernel.Launch
import proofs.«170179_j64828236366589_1_alg».proof.Proof.Gen.Kernel.Points
import proofs.«170179_j64828236366589_1_alg».proof.Proof.Gen.Kernel.Frame
import proofs.«170179_j64828236366589_1_alg».proof.Proof.Gen.KernelIdeal
import proofs.«170179_j64828236366589_1_alg».proof.Proof.Gen.KernelIdeal.Skeleton
import proofs.«170179_j64828236366589_1_alg».proof.Proof.Gen.KernelIdeal.Launch
import proofs.«170179_j64828236366589_1_alg».proof.Proof.Gen.KernelIdeal.Points
import proofs.«170179_j64828236366589_1_alg».proof.Proof.Gen.KernelIdeal.Frame
import proofs.«170179_j64828236366589_1_alg».proof.Proof.Gen.KernelIdeal.Value
import proofs.«170179_j64828236366589_1_alg».proof.Proof.Gen.ReferenceIdeal
import proofs.«170179_j64828236366589_1_alg».proof.Proof.Gen.Pre_finite_inputs
import proofs.«170179_j64828236366589_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The kernel's program runs and leaves its arguments as launched. -/
theorem frame_kernel : @Cert.frame_Kernel Cert.Kernel.Gen.facts Cert.Pre_finite_inputs.Gen.facts :=
  fun m ρ _ => Cert.Kernel.Gen.frame m ρ

/-- So does its reading on the extended reals. -/
theorem frame_kernelIdeal : @Cert.frame_KernelIdeal Cert.KernelIdeal.Gen.facts Cert.Pre_finite_inputs.Gen.facts :=
  fun m ρ _ => Cert.KernelIdeal.Gen.frame m ρ

/-- The reference, a straight line of host operations none of which writes an argument, runs and leaves them as launched. -/
theorem frame_reference : @Cert.frame_ReferenceIdeal Cert.ReferenceIdeal.Gen.facts Cert.Pre_finite_inputs.Gen.facts :=
  fun m ρ _ => (θ_run Cert.ReferenceIdeal.defs _ _).mono
    (fun _ h c => ⟨(h c Cert.ReferenceIdeal.main_arg0).trans (Cert.ReferenceIdeal.Line.at_main_arg0 _),
      (h c Cert.ReferenceIdeal.main_arg1).trans (Cert.ReferenceIdeal.Line.at_main_arg1 _),
      (h c Cert.ReferenceIdeal.main_arg2).trans (Cert.ReferenceIdeal.Line.at_main_arg2 _),
      (h c Cert.ReferenceIdeal.main_arg3).trans (Cert.ReferenceIdeal.Line.at_main_arg3 _),
      (h c Cert.ReferenceIdeal.main_arg4).trans (Cert.ReferenceIdeal.Line.at_main_arg4 _),
      (h c Cert.ReferenceIdeal.main_arg5).trans (Cert.ReferenceIdeal.Line.at_main_arg5 _),
      (h c Cert.ReferenceIdeal.main_arg6).trans (Cert.ReferenceIdeal.Line.at_main_arg6 _),
      (h c Cert.ReferenceIdeal.main_arg7).trans (Cert.ReferenceIdeal.Line.at_main_arg7 _),
      (h c Cert.ReferenceIdeal.main_arg8).trans (Cert.ReferenceIdeal.Line.at_main_arg8 _),
      (h c Cert.ReferenceIdeal.main_arg9).trans (Cert.ReferenceIdeal.Line.at_main_arg9 _),
      (h c Cert.ReferenceIdeal.main_arg10).trans (Cert.ReferenceIdeal.Line.at_main_arg10 _)⟩)
    (Cert.ReferenceIdeal.Line.run (F := Ideal) m ρ)

/-- The two idealized programs, from memories agreeing on the arguments, both run and end with equal results: the output
    array is the one the kernel's blocks leave, the loss the one the kernel's program's host operations leave. -/
theorem algebraic :
    @Cert.algebraic_KernelIdeal_ReferenceIdeal Cert.KernelIdeal.Gen.facts Cert.ReferenceIdeal.Gen.facts Cert.Pre_finite_inputs.Gen.facts := by
  intro m ρ m' ρ' _ hagree
  refine ⟨fun c => (Cert.KernelIdeal.Gen.dats (F := Ideal) m 0 c).arrAt 11 Cert.KernelIdeal.cfg0.N,
    fun c => Cert.KernelIdeal.Gen.V (F := Ideal) m c Cert.KernelIdeal.main_v63, ?_, ?_⟩
  · exact (θ_run Cert.KernelIdeal.defs _ _).mono
      (fun r h c => ⟨Cert.KernelIdeal.Value.post11 m r h c,
        (h c).2 Cert.KernelIdeal.main_v63 (Pipeline.mem_restRefs_of Cert.KernelIdeal.main_v63 (by decide) (by decide)),
        Cert.KernelIdeal.Value.kept_main_arg0 m r h c,
        Cert.KernelIdeal.Value.kept_main_arg1 m r h c,
        Cert.KernelIdeal.Value.kept_main_arg2 m r h c,
        Cert.KernelIdeal.Value.kept_main_arg3 m r h c,
        Cert.KernelIdeal.Value.kept_main_arg4 m r h c,
        Cert.KernelIdeal.Value.kept_main_arg5 m r h c,
        Cert.KernelIdeal.Value.kept_main_arg6 m r h c,
        Cert.KernelIdeal.Value.kept_main_arg7 m r h c,
        Cert.KernelIdeal.Value.kept_main_arg8 m r h c,
        Cert.KernelIdeal.Value.kept_main_arg9 m r h c,
        Cert.KernelIdeal.Value.kept_main_arg10 m r h c⟩)
      (Cert.KernelIdeal.Gen.run_main m ρ)
  · refine (θ_run Cert.ReferenceIdeal.defs _ _).mono (fun r h c => ?_) (Cert.ReferenceIdeal.Line.run (F := Ideal) m' ρ')
    obtain ⟨h0, h1, h2, h3, h4, h5, h6, h7, h8, h9, h10⟩ := hagree c
    exact ⟨(h c Cert.ReferenceIdeal.main_v86).trans (Cert.Bridge.out_agree m' m c h0 h1 h2 h3 h4 h5 h6 h7 h8 h9 h10),
      (h c Cert.ReferenceIdeal.main_v68).trans
        ((Cert.Shared.loss_agree (launchContents m' c) m c h1 h4).trans (Cert.KernelIdeal.Host.val_eq_V m c _)),
      (h c Cert.ReferenceIdeal.main_arg0).trans (Cert.ReferenceIdeal.Line.at_main_arg0 _),
      (h c Cert.ReferenceIdeal.main_arg1).trans (Cert.ReferenceIdeal.Line.at_main_arg1 _),
      (h c Cert.ReferenceIdeal.main_arg2).trans (Cert.ReferenceIdeal.Line.at_main_arg2 _),
      (h c Cert.ReferenceIdeal.main_arg3).trans (Cert.ReferenceIdeal.Line.at_main_arg3 _),
      (h c Cert.ReferenceIdeal.main_arg4).trans (Cert.ReferenceIdeal.Line.at_main_arg4 _),
      (h c Cert.ReferenceIdeal.main_arg5).trans (Cert.ReferenceIdeal.Line.at_main_arg5 _),
      (h c Cert.ReferenceIdeal.main_arg6).trans (Cert.ReferenceIdeal.Line.at_main_arg6 _),
      (h c Cert.ReferenceIdeal.main_arg7).trans (Cert.ReferenceIdeal.Line.at_main_arg7 _),
      (h c Cert.ReferenceIdeal.main_arg8).trans (Cert.ReferenceIdeal.Line.at_main_arg8 _),
      (h c Cert.ReferenceIdeal.main_arg9).trans (Cert.ReferenceIdeal.Line.at_main_arg9 _),
      (h c Cert.ReferenceIdeal.main_arg10).trans (Cert.ReferenceIdeal.Line.at_main_arg10 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
